-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x64 .f32) (main_arg15 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x64 .f32) (main_arg15 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128x64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S1x64 : Shape := ⟨2, ![1, 64]⟩
abbrev S100000x64 : Shape := ⟨2, ![100000, 64]⟩
abbrev S4000x64 : Shape := ⟨2, ![4000, 64]⟩
abbrev S4000 : Shape := ⟨1, ![4000]⟩
abbrev S4000x1 : Shape := ⟨2, ![4000, 1]⟩

abbrev nBuf : Space → Nat
  | .hbm => 97
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000x128, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .bf16⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S1x128, .f32⟩
  | .hbm, ⟨37, _⟩ => ⟨S100000x128, .f32⟩
  | .hbm, ⟨38, _⟩ => ⟨S1x128, .f32⟩
  | .hbm, ⟨39, _⟩ => ⟨S1x128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S100000x128, .bf16⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .bf16⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x64, .f32⟩
  | .hbm, ⟨96, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .bf16⟩
  | .local _ .vmem, ⟨23, _⟩ => ⟨S4000x128, .bf16⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S4000x128, .f32⟩
  | .local _ .vmem, ⟨33, _⟩ => ⟨S4000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x64, .f32⟩
  | .local _ .vmem, ⟨45, _⟩ => ⟨S1x64, .f32⟩
  | .local _ .vmem, ⟨46, _⟩ => ⟨S4000x64, .f32⟩
  | .local _ .vmem, ⟨47, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  broadcasts_S1x128_S4000x128 : S1x128.Broadcasts S4000x128
  reduces_S4000x128_S128 : S4000x128.Reduces [0] S128
  shapeCasts_S1x128_S128 : S1x128.ShapeCasts S128
  bcast_S_S128 : S_.BroadcastsInDim S128 (![] : Fin 0 → Fin S128.rank)
  packedbf16_S4000x128_S4000x128_0_0 : (Rect.unit (s := S4000x128) ![0, 0] S4000x128.size inb_S4000x128_S4000x128_0_0).PackedRows (EltTy.packing .bf16)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x64.size a ≤ S100000x64.size a
  hwx3_7 : ∀ i : grid3.Coords, EltTy.bits .f32 = 32 ∨ (Rect.block (s := S100000x64) S4000x64.size (cc3_transform_7 i) (hinb3_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v47_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S4000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128x64, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S128, .f32⟩
  | 119 => ⟨S_, .f32⟩
  | 120 => ⟨S128, .f32⟩
  | 121 => ⟨S128, .f32⟩
  | 122 => ⟨S_, .i32⟩
  | 123 => ⟨S_, .f32⟩
  | 124 => ⟨S128, .f32⟩
  | 125 => ⟨S1x128, .f32⟩
  | 126 => ⟨S_, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S_, .f32⟩
  | 5 => ⟨S_, .f32⟩
  | 6 => ⟨S_, .f32⟩
  | 7 => ⟨S_, .f32⟩
  | 8 => ⟨S128, .f32⟩
  | 9 => ⟨S128, .f32⟩
  | 10 => ⟨S128, .f32⟩
  | 11 => ⟨S_, .f32⟩
  | 12 => ⟨S_, .i1⟩
  | 13 => ⟨S_, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x64, .f32⟩
  | 37 => ⟨S1x64, .f32⟩
  | 38 => ⟨S100000x64, .f32⟩
  | 39 => ⟨S100000x64, .f32⟩
  | 40 => ⟨S100000x64, .f32⟩
  | 41 => ⟨S_, .f32⟩
  | 42 => ⟨S100000, .f32⟩
  | 43 => ⟨S100000x1, .f32⟩
  | 44 => ⟨S100000x1, .f32⟩
  | 45 => ⟨S_, .f32⟩
  | 46 => ⟨S100000x1, .f32⟩
  | 47 => ⟨S100000x1, .f32⟩
  | 48 => ⟨S100000x64, .f32⟩
  | 49 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_4 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_call2_cst : Ref sig .tc := ⟨.hbm, 89, rfl⟩
abbrev main_call2_v0 : Ref sig .tc := ⟨.hbm, 90, rfl⟩
abbrev main_v43 : Ref sig .tc := ⟨.hbm, 91, rfl⟩
abbrev main_c_5 : Ref sig .tc := ⟨.hbm, 92, rfl⟩
abbrev main_v44 : Ref sig .tc := ⟨.hbm, 93, rfl⟩
abbrev main_v45 : Ref sig .tc := ⟨.hbm, 94, rfl⟩
abbrev main_c_6 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_7 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_call3_cst : Ref sig .tc := ⟨.hbm, 110, rfl⟩
abbrev main_call3_v0 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_8 : Ref sig .tc := ⟨.hbm, 117, rfl⟩
abbrev main_v64 : Ref sig .tc := ⟨.hbm, 118, rfl⟩
abbrev main_cst_9 : Ref sig .tc := ⟨.hbm, 119, rfl⟩
abbrev main_v65 : Ref sig .tc := ⟨.hbm, 120, rfl⟩
abbrev main_v66 : Ref sig .tc := ⟨.hbm, 121, rfl⟩
abbrev main_c_10 : Ref sig .tc := ⟨.hbm, 122, rfl⟩
abbrev main_call4_cst : Ref sig .tc := ⟨.hbm, 123, rfl⟩
abbrev main_call4_v0 : Ref sig .tc := ⟨.hbm, 124, rfl⟩
abbrev main_call4_v1 : Ref sig .tc := ⟨.hbm, 125, rfl⟩
abbrev main_call4_cst_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_v6 : Ref sig .tc := ⟨.hbm, 131, rfl⟩
abbrev main_call4_v7 : Ref sig .tc := ⟨.hbm, 132, rfl⟩
abbrev main_call4_cst_1 : Ref sig .tc := ⟨.hbm, 133, rfl⟩
abbrev main_call4_v8 : Ref sig .tc := ⟨.hbm, 134, rfl⟩
abbrev main_call4_cst_2 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_cst_3 : Ref sig .tc := ⟨.hbm, 139, rfl⟩
abbrev main_call4_v12 : Ref sig .tc := ⟨.hbm, 140, rfl⟩
abbrev main_call4_cst_4 : Ref sig .tc := ⟨.hbm, 141, rfl⟩
abbrev main_call4_call0_v0 : Ref sig .tc := ⟨.hbm, 142, rfl⟩
abbrev main_call4_call0_v1 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_cst_11 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_call5_cst : Ref sig .tc := ⟨.hbm, 161, rfl⟩
abbrev main_call5_v0 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_call6_v0 : Ref sig .tc := ⟨.hbm, 168, rfl⟩
abbrev main_call6_cst : Ref sig .tc := ⟨.hbm, 169, rfl⟩
abbrev main_call6_v1 : Ref sig .tc := ⟨.hbm, 170, rfl⟩
abbrev main_call6_v2 : Ref sig .tc := ⟨.hbm, 171, rfl⟩
abbrev main_v88 : Ref sig .tc := ⟨.hbm, 172, rfl⟩
abbrev main_cst_12 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.K.Run0.lean ====
/-
  Region 0: the statistics kernel, one run of its body per control case. Each grid point takes a block of 4000 rows
  of the node features and of the neighbour sums, the two weight matrices and bias rows, computes the perceptron's
  output block t, stores it, and adds the column sums of t and of t·t to two running rows kept in scratch buffers
  between grid points, copying the running rows to the two small outputs. At the first grid point the running rows
  are zeroed first. Stated here, per case: the pieces the body's stores leave in each output and each scratch
  buffer (found by running the body), with the proof that the body runs to them.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the grid position is zero. -/
abbrev cond0 (i : grid0.Coords) : Prop :=
  (Scalar.cmpi .ne (Scalar.extui (Scalar.cmpi .eq (BitVec.ofNat 32 (i 0).val) 0#32)) 0#32) = 1#1

/-- It holds exactly at the first grid point (decided over the grid). -/
theorem hcond0 : ∀ t : Fin cfg0.N, cond0 (grid0.coords t) ↔ t.val = 0 :=
  (by decide +kernel : ∀ t : Fin grid0.N, cond0 (grid0.coords t) ↔ t.val = 0)

set_option maxHeartbeats 8000000 in
/-- THE FIRST POINT (the branch taken): inputs at their contents, outputs and both scratch rows at anything. -/
noncomputable def kernelRun0_A (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i)
    (x0 : Vec F S4000x128 .f32) (x1 : Vec F S4000x128 .f32) (x2 : Vec F S128x128 .f32) (x3 : Vec F S1x128 .f32) (x4 : Vec F S128x128 .f32) (x5 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

set_option maxHeartbeats 8000000 in
/-- A LATER POINT (the branch not taken): inputs at their contents, both scratch rows at what the point before
    left, outputs at anything. -/
noncomputable def kernelRun0_B (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i)
    (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Region0.lean ====
/-
  Region 0: the statistics kernel as a pipeline. What the three output buffers and the two scratch rows hold after
  the body at each grid point is defined by recursion over the points: at the first point the first case's stores
  (the running rows start from zero), at every later point the later case's stores over what the point before left
  in the scratch rows. The invariant between points carries the two scratch rows at those contents; before the
  first point and after the last they are at anything. From this: the proof data of the pipeline over any entry
  contents of the arrays, and the body's obligation at every grid point.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import proofs.«143586_j39599598469629_2_alg».proof.Proof.K.Run0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body, and the two scratch rows. -/
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev scM0_0 : Memref sig .tc .vmem S1x128 .f32 := Memref.whole cc0_scratch0
abbrev scM0_1 : Memref sig .tc .vmem S1x128 .f32 := Memref.whole cc0_scratch1

/-- In each case the stores into each buffer tile it, so they cover it. -/
theorem cover0_A_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S4000x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).1, y ∈ pc.1.set :=
  View.cover_of_tiledL _ S4000x128.size (by sl_kernel_rfl) y
theorem cover0_A_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.1, y ∈ pc.1.set :=
  View.cover_of_tiledL _ S1x128.size (by sl_kernel_rfl) y
theorem cover0_A_8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.2.1, y ∈ pc.1.set :=
  View.cover_of_tiledL _ S1x128.size (by sl_kernel_rfl) y
theorem cover0_A_S0 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.2.2.1, y ∈ pc.1.set :=
  View.cover_of_tiledL _ S1x128.size (by sl_kernel_rfl) y
theorem cover0_A_S1 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.2.2.2.1, y ∈ pc.1.set :=
  View.cover_of_tiledL _ S1x128.size (by sl_kernel_rfl) y
theorem cover0_B_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S4000x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).1, y ∈ pc.1.set :=
  View.cover_of_tiledL _ S4000x128.size (by sl_kernel_rfl) y
theorem cover0_B_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.1, y ∈ pc.1.set :=
  View.cover_of_tiledL _ S1x128.size (by sl_kernel_rfl) y
theorem cover0_B_8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.2.1, y ∈ pc.1.set :=
  View.cover_of_tiledL _ S1x128.size (by sl_kernel_rfl) y
theorem cover0_B_S0 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.1, y ∈ pc.1.set :=
  View.cover_of_tiledL _ S1x128.size (by sl_kernel_rfl) y
theorem cover0_B_S1 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.2.1, y ∈ pc.1.set :=
  View.cover_of_tiledL _ S1x128.size (by sl_kernel_rfl) y

/-- What the first case leaves at point `t`: output block, the two small outputs, the two scratch rows. -/
def outA0 (c : Dev nD) (t : Fin cfg0.N) (hc : cond0 (grid0.coords t)) : Vec F S4000x128 .f32 × Vec F S1x128 .f32 × Vec F S1x128 .f32 × Vec F S1x128 .f32 × Vec F S1x128 .f32 :=
  (View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.2.1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.2.2.1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.2.2.2.1)

/-- What the later case leaves at point `t`, over the scratch rows `xs0`, `xs1` the point before left. -/
def outB0 (c : Dev nD) (t : Fin cfg0.N) (hc : ¬cond0 (grid0.coords t)) (xs0 xs1 : Vec F S1x128 .f32) : Vec F S4000x128 .f32 × Vec F S1x128 .f32 × Vec F S1x128 .f32 × Vec F S1x128 .f32 × Vec F S1x128 .f32 :=
  (View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.2.1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.2.2.1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.2.2.2.1)

/-- THE ACCUMULATION over grid points. -/
def outsAt0 (c : Dev nD) : (n : ℕ) → n < cfg0.N → Vec F S4000x128 .f32 × Vec F S1x128 .f32 × Vec F S1x128 .f32 × Vec F S1x128 .f32 × Vec F S1x128 .f32
  | 0, hn => outA0 V c ⟨0, hn⟩ ((hcond0 ⟨0, hn⟩).mpr rfl)
  | n + 1, hn => outB0 V c ⟨n + 1, hn⟩ (fun h => Nat.succ_ne_zero n ((hcond0 ⟨n + 1, hn⟩).mp h))
      (outsAt0 c n (Nat.lt_of_succ_lt hn)).2.2.2.1 (outsAt0 c n (Nat.lt_of_succ_lt hn)).2.2.2.2

theorem outsAt0_A (c : Dev nD) (t : Fin cfg0.N) (hz : t.val = 0) :
    outsAt0 V c t.val t.isLt = outA0 V c t ((hcond0 t).mpr hz) := by
  obtain ⟨n, hn⟩ := t
  cases n with
  | zero => rfl
  | succ n => exact absurd hz (Nat.succ_ne_zero n)

theorem outsAt0_B (c : Dev nD) (t : Fin cfg0.N) (hz : t.val ≠ 0) :
    outsAt0 V c t.val t.isLt = outB0 V c t (fun h => hz ((hcond0 t).mp h))
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl hz
  | succ n => rfl

/-- The invariant before position `n`: before the first point the scoped rest with both scratch rows at anything;
    afterwards both scratch rows at what the point before left, the other scoped buffers unopened, the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class's invariant with the two scratch rows as buffers owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 8000000 in
/-- The body at any point: the inputs' buffers hold their blocks; the point is the first or a later one; the
    invariant hands the body the scratch rows (at anything at the first point, at what the point before left
    afterwards) and takes them back at this point's contents; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  by_cases hz : t.val = 0
  · rw [outsAt0_A V c t hz]
    unfold outA0; dsimp only
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0 t).mpr hz) (iblk0 V c 0 t) (iblk0 V c 1 t) (iblk0 V c 2 t) (iblk0 V c 3 t) (iblk0 V c 4 t) (iblk0 V c 5 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover0_A_S0 c _ _ _ _ _ _ _ _ _ _ _ _ _ _ _ _ _ _ _ _ _ _ _ _ _ _ _ _ _ _)
          unfold owns; iexists _; isplitr
          swap; · iexact HS1
          ipureintro; exact View.read_writes_eq_canon _ _ _ (cover0_A_S1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_A_6 c _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover0_A_7 c _ _ _ _ _ _ _ _ _ _ _ _ _ _ _ _ _ _ _ _ _ _ _ _ _ _ _ _ _ _)
    unfold owns; iexists _; isplitr
    swap; · iexact H8
    ipureintro; exact View.read_writes_eq_canon _ _ _ (cover0_A_8 c _ _ _ _ _ _ _ _ _ _ _ _ _ _ _ _ _ _ _ _ _ _ _ _ _ _ _ _ _ _)
  · rw [outsAt0_B V c t hz]
    unfold outB0; dsimp only
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => hz ((hcond0 t).mp h)) (iblk0 V c 0 t) (iblk0 V c 1 t) (iblk0 V c 2 t) (iblk0 V c 3 t) (iblk0 V c 4 t) (iblk0 V c 5 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover0_B_S0 c _ _ _ _ _ _ _ _ _ _ _ _ _ _ _ _ _ _ _ _ _ _ _ _ _ _ _ _ _ _ _ _)
          unfold owns; iexists _; isplitr
          swap; · iexact HS1
          ipureintro; exact View.read_writes_eq_canon _ _ _ (cover0_B_S1 c _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_B_6 c _ _ _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover0_B_7 c _ _ _ _ _ _ _ _ _ _ _ _ _ _ _ _ _ _ _ _ _ _ _ _ _ _ _ _ _ _ _ _)
    unfold owns; iexists _; isplitr
    swap; · iexact H8
    ipureintro; exact View.read_writes_eq_canon _ _ _ (cover0_B_8 c _ _ _ _ _ _ _ _ _ _ _ _ _ _ _ _ _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch rows' named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 25 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region0

end Cert.Kernel.Hand

end
-- ==== Proof.K.Region1.lean ====
/-
  Region 1: the normalisation kernel. Each grid point takes one block of 4000 rows of the pre-activations and the
  four per-feature rows (mean, variance, scale, shift), and leaves in its two output blocks the rectified
  normalisation max((t − mean)·rsqrt(var + ε)·scale + shift, 0), once at full width and once narrowed. Stated here:
  what one run of the body leaves in its output buffers as a function of its input buffers, the proof data of the
  pipeline over any entry contents of the arrays, and the body's obligation at every grid point.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (unfetched, its index has
    not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rc1_S4000x128 : Rect S4000x128 := Rect.unit (s := S4000x128) ![0, 0] S4000x128.size inb_S4000x128_S4000x128_0_0
abbrev rc1_S1x128 : Rect S1x128 := Rect.unit (s := S1x128) ![0, 0] S1x128.size inb_S1x128_S1x128_0_0

/-- Output window 5's block after the body, from the input blocks. -/
def out1_5 (x0 : Vec F S4000x128 .f32) (x1 : Vec F S1x128 .f32) (x2 : Vec F S1x128 .f32) (x3 : Vec F S1x128 .f32) (x4 : Vec F S1x128 .f32) : Vec F S4000x128 .f32 :=
  View.canon [⟨rc1_S4000x128, k1_pay1 (View.ld x0 rc1_S4000x128) (View.ld x2 rc1_S1x128) (View.ld x1 rc1_S1x128) (View.ld x3 rc1_S1x128) (View.ld x4 rc1_S1x128)⟩]
theorem cover1_5 (p0 : Vec F S4000x128 .f32) (y : S4000x128.Idx) :
    ∃ pc ∈ ([⟨rc1_S4000x128, p0⟩] : List (View.Piece (Elt F) S4000x128 .f32)), y ∈ pc.1.set :=
  View.cover_of_tiled [⟨rc1_S4000x128, p0⟩] S4000x128.size (by rfl) y
/-- Output window 6's block after the body, from the input blocks. -/
def out1_6 (x0 : Vec F S4000x128 .f32) (x1 : Vec F S1x128 .f32) (x2 : Vec F S1x128 .f32) (x3 : Vec F S1x128 .f32) (x4 : Vec F S1x128 .f32) : Vec F S4000x128 .bf16 :=
  View.canon [⟨rc1_S4000x128, k1_pay2 (View.ld x0 rc1_S4000x128) (View.ld x2 rc1_S1x128) (View.ld x1 rc1_S1x128) (View.ld x3 rc1_S1x128) (View.ld x4 rc1_S1x128)⟩]
theorem cover1_6 (p0 : Vec F S4000x128 .bf16) (y : S4000x128.Idx) :
    ∃ pc ∈ ([⟨rc1_S4000x128, p0⟩] : List (View.Piece (Elt F) S4000x128 .bf16)), y ∈ pc.1.set :=
  View.cover_of_tiled [⟨rc1_S4000x128, p0⟩] S4000x128.size (by rfl) y

set_option maxHeartbeats 4000000 in
/-- One run of the body on whole staging buffers: the inputs keep their contents, each output ends at its function of
    the inputs. -/
theorem sound_kernel1 (c : Dev nD) (E : Set ℕ) (i : grid1.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .bf16) (harg7 : arg7.IsWhole)
    (x0 : Vec F S4000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__bn_relu_bf16_kernel i arg1 harg1 arg2 harg2 arg3 harg3 arg4 harg4 arg5 harg5 arg6 harg6 arg7 harg7) K := by
  simp only [cc1__bn_relu_bf16_kernel_eq_skeleton]; unfold cc1__bn_relu_bf16_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-- The proof data of this pipeline on core `c`: the arrays as the region finds them; after the body at point `t` each
    input's buffer at its block and each output's at its function of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so one run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run2.lean ====
/-
  Region 2: the statistics kernel, one run of its body per control case. Each grid point takes a block of 4000 rows
  of the node features and of the neighbour sums, the two weight matrices and bias rows, computes the perceptron's
  output block t, stores it, and adds the column sums of t and of t·t to two running rows kept in scratch buffers
  between grid points, copying the running rows to the two small outputs. At the first grid point the running rows
  are zeroed first. Stated here, per case: the pieces the body's stores leave in each output and each scratch
  buffer (found by running the body), with the proof that the body runs to them.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the grid position is zero. -/
abbrev cond2 (i : grid2.Coords) : Prop :=
  (Scalar.cmpi .ne (Scalar.extui (Scalar.cmpi .eq (BitVec.ofNat 32 (i 0).val) 0#32)) 0#32) = 1#1

/-- It holds exactly at the first grid point (decided over the grid). -/
theorem hcond2 : ∀ t : Fin cfg2.N, cond2 (grid2.coords t) ↔ t.val = 0 :=
  (by decide +kernel : ∀ t : Fin grid2.N, cond2 (grid2.coords t) ↔ t.val = 0)

set_option maxHeartbeats 8000000 in
/-- THE FIRST POINT (the branch taken): inputs at their contents, outputs and both scratch rows at anything. -/
noncomputable def kernelRun2_A (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i)
    (x0 : Vec F S4000x128 .f32) (x1 : Vec F S4000x128 .f32) (x2 : Vec F S128x128 .f32) (x3 : Vec F S1x128 .f32) (x4 : Vec F S128x128 .f32) (x5 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

set_option maxHeartbeats 8000000 in
/-- A LATER POINT (the branch not taken): inputs at their contents, both scratch rows at what the point before
    left, outputs at anything. -/
noncomputable def kernelRun2_B (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i)
    (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Region2.lean ====
/-
  Region 2: the statistics kernel as a pipeline. What the three output buffers and the two scratch rows hold after
  the body at each grid point is defined by recursion over the points: at the first point the first case's stores
  (the running rows start from zero), at every later point the later case's stores over what the point before left
  in the scratch rows. The invariant between points carries the two scratch rows at those contents; before the
  first point and after the last they are at anything. From this: the proof data of the pipeline over any entry
  contents of the arrays, and the body's obligation at every grid point.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import proofs.«143586_j39599598469629_2_alg».proof.Proof.K.Run2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging buffer at point `t`, as the pipeline passes it to the body, and the two scratch rows. -/
abbrev ms2_0 (t : Fin cfg2.N) : Memref sig .tc .vmem S4000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S4000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev scM2_0 : Memref sig .tc .vmem S1x128 .f32 := Memref.whole cc2_scratch0
abbrev scM2_1 : Memref sig .tc .vmem S1x128 .f32 := Memref.whole cc2_scratch1

/-- In each case the stores into each buffer tile it, so they cover it. -/
theorem cover2_A_6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S4000x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).1, y ∈ pc.1.set :=
  View.cover_of_tiledL _ S4000x128.size (by sl_kernel_rfl) y
theorem cover2_A_7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.1, y ∈ pc.1.set :=
  View.cover_of_tiledL _ S1x128.size (by sl_kernel_rfl) y
theorem cover2_A_8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.2.1, y ∈ pc.1.set :=
  View.cover_of_tiledL _ S1x128.size (by sl_kernel_rfl) y
theorem cover2_A_S0 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.2.2.1, y ∈ pc.1.set :=
  View.cover_of_tiledL _ S1x128.size (by sl_kernel_rfl) y
theorem cover2_A_S1 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.2.2.2.1, y ∈ pc.1.set :=
  View.cover_of_tiledL _ S1x128.size (by sl_kernel_rfl) y
theorem cover2_B_6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S4000x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).1, y ∈ pc.1.set :=
  View.cover_of_tiledL _ S4000x128.size (by sl_kernel_rfl) y
theorem cover2_B_7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.1, y ∈ pc.1.set :=
  View.cover_of_tiledL _ S1x128.size (by sl_kernel_rfl) y
theorem cover2_B_8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.2.1, y ∈ pc.1.set :=
  View.cover_of_tiledL _ S1x128.size (by sl_kernel_rfl) y
theorem cover2_B_S0 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.1, y ∈ pc.1.set :=
  View.cover_of_tiledL _ S1x128.size (by sl_kernel_rfl) y
theorem cover2_B_S1 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.2.1, y ∈ pc.1.set :=
  View.cover_of_tiledL _ S1x128.size (by sl_kernel_rfl) y

/-- What the first case leaves at point `t`: output block, the two small outputs, the two scratch rows. -/
def outA2 (c : Dev nD) (t : Fin cfg2.N) (hc : cond2 (grid2.coords t)) : Vec F S4000x128 .f32 × Vec F S1x128 .f32 × Vec F S1x128 .f32 × Vec F S1x128 .f32 × Vec F S1x128 .f32 :=
  (View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.2.1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.2.2.1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.2.2.2.1)

/-- What the later case leaves at point `t`, over the scratch rows `xs0`, `xs1` the point before left. -/
def outB2 (c : Dev nD) (t : Fin cfg2.N) (hc : ¬cond2 (grid2.coords t)) (xs0 xs1 : Vec F S1x128 .f32) : Vec F S4000x128 .f32 × Vec F S1x128 .f32 × Vec F S1x128 .f32 × Vec F S1x128 .f32 × Vec F S1x128 .f32 :=
  (View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.2.1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.2.2.1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.2.2.2.1)

/-- THE ACCUMULATION over grid points. -/
def outsAt2 (c : Dev nD) : (n : ℕ) → n < cfg2.N → Vec F S4000x128 .f32 × Vec F S1x128 .f32 × Vec F S1x128 .f32 × Vec F S1x128 .f32 × Vec F S1x128 .f32
  | 0, hn => outA2 V c ⟨0, hn⟩ ((hcond2 ⟨0, hn⟩).mpr rfl)
  | n + 1, hn => outB2 V c ⟨n + 1, hn⟩ (fun h => Nat.succ_ne_zero n ((hcond2 ⟨n + 1, hn⟩).mp h))
      (outsAt2 c n (Nat.lt_of_succ_lt hn)).2.2.2.1 (outsAt2 c n (Nat.lt_of_succ_lt hn)).2.2.2.2

theorem outsAt2_A (c : Dev nD) (t : Fin cfg2.N) (hz : t.val = 0) :
    outsAt2 V c t.val t.isLt = outA2 V c t ((hcond2 t).mpr hz) := by
  obtain ⟨n, hn⟩ := t
  cases n with
  | zero => rfl
  | succ n => exact absurd hz (Nat.succ_ne_zero n)

theorem outsAt2_B (c : Dev nD) (t : Fin cfg2.N) (hz : t.val ≠ 0) :
    outsAt2 V c t.val t.isLt = outB2 V c t (fun h => hz ((hcond2 t).mp h))
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd rfl hz
  | succ n => rfl

/-- The invariant before position `n`: before the first point the scoped rest with both scratch rows at anything;
    afterwards both scratch rows at what the point before left, the other scoped buffers unopened, the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class's invariant with the two scratch rows as buffers owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 8000000 in
/-- The body at any point: the inputs' buffers hold their blocks; the point is the first or a later one; the
    invariant hands the body the scratch rows (at anything at the first point, at what the point before left
    afterwards) and takes them back at this point's contents; the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7, after2_8]
  by_cases hz : t.val = 0
  · rw [outsAt2_A V c t hz]
    unfold outA2; dsimp only
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2 t).mpr hz) (iblk2 V c 0 t) (iblk2 V c 1 t) (iblk2 V c 2 t) (iblk2 V c 3 t) (iblk2 V c 4 t) (iblk2 V c 5 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover2_A_S0 c _ _ _ _ _ _ _ _ _ _ _ _ _ _ _ _ _ _ _ _ _ _ _ _ _ _ _ _ _ _)
          unfold owns; iexists _; isplitr
          swap; · iexact HS1
          ipureintro; exact View.read_writes_eq_canon _ _ _ (cover2_A_S1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover2_A_6 c _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover2_A_7 c _ _ _ _ _ _ _ _ _ _ _ _ _ _ _ _ _ _ _ _ _ _ _ _ _ _ _ _ _ _)
    unfold owns; iexists _; isplitr
    swap; · iexact H8
    ipureintro; exact View.read_writes_eq_canon _ _ _ (cover2_A_8 c _ _ _ _ _ _ _ _ _ _ _ _ _ _ _ _ _ _ _ _ _ _ _ _ _ _ _ _ _ _)
  · rw [outsAt2_B V c t hz]
    unfold outB2; dsimp only
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ _ _ _ _ (fun h => hz ((hcond2 t).mp h)) (iblk2 V c 0 t) (iblk2 V c 1 t) (iblk2 V c 2 t) (iblk2 V c 3 t) (iblk2 V c 4 t) (iblk2 V c 5 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover2_B_S0 c _ _ _ _ _ _ _ _ _ _ _ _ _ _ _ _ _ _ _ _ _ _ _ _ _ _ _ _ _ _ _ _)
          unfold owns; iexists _; isplitr
          swap; · iexact HS1
          ipureintro; exact View.read_writes_eq_canon _ _ _ (cover2_B_S1 c _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover2_B_6 c _ _ _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover2_B_7 c _ _ _ _ _ _ _ _ _ _ _ _ _ _ _ _ _ _ _ _ _ _ _ _ _ _ _ _ _ _ _ _)
    unfold owns; iexists _; isplitr
    swap; · iexact H8
    ipureintro; exact View.read_writes_eq_canon _ _ _ (cover2_B_8 c _ _ _ _ _ _ _ _ _ _ _ _ _ _ _ _ _ _ _ _ _ _ _ _ _ _ _ _ _ _ _ _)

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch rows' named contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 25 := N_2; omega
  rw [show (dat2 V c).Φ (Fin.last cfg2.N) = PhiS2 V c (Fin.last cfg2.N).val (Nat.le_of_lt_succ (Fin.last cfg2.N).isLt) from rfl,
    PhiS2_pos V c _ _ hN, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region2

end Cert.Kernel.Hand

end
-- ==== Proof.K.Region3.lean ====
/-
  Region 3: the projection kernel. Each grid point takes one block of 4000 rows of the second layer's
  pre-activations, the four per-feature rows (mean, variance, scale, shift), the projection matrix and its bias row,
  and leaves in its output block the rectified normalisation of the rows, projected to 64 features, each row divided by
  its Euclidean norm floored at a tiny constant. Stated here: what one run of the body leaves in its output buffer as a
  function of its input buffers, the proof data of the pipeline over any entry contents of the arrays, and the
  body's obligation at every grid point.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (unfetched, its index has
    not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev rc3_S4000x128 : Rect S4000x128 := Rect.unit (s := S4000x128) ![0, 0] S4000x128.size inb_S4000x128_S4000x128_0_0
abbrev rc3_S1x128 : Rect S1x128 := Rect.unit (s := S1x128) ![0, 0] S1x128.size inb_S1x128_S1x128_0_0
abbrev rc3_S128x64 : Rect S128x64 := Rect.unit (s := S128x64) ![0, 0] S128x64.size inb_S128x64_S128x64_0_0
abbrev rc3_S1x64 : Rect S1x64 := Rect.unit (s := S1x64) ![0, 0] S1x64.size inb_S1x64_S1x64_0_0
abbrev rc3_S4000x64 : Rect S4000x64 := Rect.unit (s := S4000x64) ![0, 0] S4000x64.size inb_S4000x64_S4000x64_0_0

/-- Output window 7's block after the body, from the input blocks. -/
def out3_7 (x0 : Vec F S4000x128 .f32) (x1 : Vec F S1x128 .f32) (x2 : Vec F S1x128 .f32) (x3 : Vec F S1x128 .f32) (x4 : Vec F S1x128 .f32) (x5 : Vec F S128x64 .f32) (x6 : Vec F S1x64 .f32) : Vec F S4000x64 .f32 :=
  View.canon [⟨rc3_S4000x64, k3_pay1 (View.ld x0 rc3_S4000x128) (View.ld x2 rc3_S1x128) (View.ld x1 rc3_S1x128) (View.ld x3 rc3_S1x128) (View.ld x4 rc3_S1x128) (View.ld x5 rc3_S128x64) (View.ld x6 rc3_S1x64)⟩]
theorem cover3_7 (p0 : Vec F S4000x64 .f32) (y : S4000x64.Idx) :
    ∃ pc ∈ ([⟨rc3_S4000x64, p0⟩] : List (View.Piece (Elt F) S4000x64 .f32)), y ∈ pc.1.set :=
  View.cover_of_tiled [⟨rc3_S4000x64, p0⟩] S4000x64.size (by rfl) y

set_option maxHeartbeats 4000000 in
/-- One run of the body on whole staging buffers: the inputs keep their contents, each output ends at its function of
    the inputs. -/
theorem sound_kernel3 (c : Dev nD) (E : Set ℕ) (i : grid3.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S4000x64 .f32) (harg8 : arg8.IsWhole)
    (x0 : Vec F S4000x128 .f32) (x1 : Vec F S1x128 .f32) (x2 : Vec F S1x128 .f32) (x3 : Vec F S1x128 .f32) (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__bn_relu_proj_kernel i arg1 harg1 arg2 harg2 arg3 harg3 arg4 harg4 arg5 harg5 arg6 harg6 arg7 harg7 arg8 harg8) K := by
  simp only [cc3__bn_relu_proj_kernel_eq_skeleton]; unfold cc3__bn_relu_proj_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The proof data of this pipeline on core `c`: the arrays as the region finds them; after the body at point `t` each
    input's buffer at its block and each output's at its function of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so one run applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Chain.lean ====
/-
  The whole program as a chain of segments: four stretches of host operations and four kernel regions, in turn.
  Between two segments every unscoped buffer of the core is held at named contents: the launch memory, then each
  stretch's operations applied, then each region's arrays at what its pipeline leaves (the inputs as entered, each
  output's blocks written back) and every other buffer as entered. The run: from any memory with zero counters every
  weakly fair execution terminates, nothing faulting, and every unscoped buffer ends at the last boundary's contents.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import proofs.«143586_j39599598469629_2_alg».proof.Proof.K.Region0
import proofs.«143586_j39599598469629_2_alg».proof.Proof.K.Region1
import proofs.«143586_j39599598469629_2_alg».proof.Proof.K.Region2
import proofs.«143586_j39599598469629_2_alg».proof.Proof.K.Region3
import proofs.«143586_j39599598469629_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch before region 0 (the region's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (U1 m ρ) c).arrAt w cfg0.N = W2 m ρ c (Pipeline.arrRef spec0 w) :=
  (W2_arr m ρ c w).symm
theorem hrest0 (c : Dev nD) : ∀ b, b ∉ Finset.univ.image (Pipeline.arrRef spec0) → W2 m ρ c b = U1 m ρ c b :=
  fun b hb => W2_of_ne m ρ c b fun w e => hb (Finset.mem_image.mpr ⟨w, Finset.mem_univ _, e⟩)

/-- After the host stretch before region 1 (the region's entry). -/
abbrev W3 : Dev nD → Valuation τ sig (Elt F) := fun c => StableHlo.after hostOps1 (W2 m ρ c)
/-- The same read at the TensorCore's references (what region 1's proof data take). -/
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (U3 m ρ) c).arrAt w cfg1.N = W4 m ρ c (Pipeline.arrRef spec1 w) :=
  (W4_arr m ρ c w).symm
theorem hrest1 (c : Dev nD) : ∀ b, b ∉ Finset.univ.image (Pipeline.arrRef spec1) → W4 m ρ c b = U3 m ρ c b :=
  fun b hb => W4_of_ne m ρ c b fun w e => hb (Finset.mem_image.mpr ⟨w, Finset.mem_univ _, e⟩)

/-- After the host stretch before region 2 (the region's entry). -/
abbrev W5 : Dev nD → Valuation τ sig (Elt F) := fun c => StableHlo.after hostOps2 (W4 m ρ c)
/-- The same read at the TensorCore's references (what region 2's proof data take). -/
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (dat2 (U5 m ρ) c).arrAt w cfg2.N = W6 m ρ c (Pipeline.arrRef spec2 w) :=
  (W6_arr m ρ c w).symm
theorem hrest2 (c : Dev nD) : ∀ b, b ∉ Finset.univ.image (Pipeline.arrRef spec2) → W6 m ρ c b = U5 m ρ c b :=
  fun b hb => W6_of_ne m ρ c b fun w e => hb (Finset.mem_image.mpr ⟨w, Finset.mem_univ _, e⟩)

/-- After the host stretch before region 3 (the region's entry). -/
abbrev W7 : Dev nD → Valuation τ sig (Elt F) := fun c => StableHlo.after hostOps3 (W6 m ρ c)
/-- The same read at the TensorCore's references (what region 3's proof data take). -/
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem hF3 (c : Dev nD) (w : Fin cfg3.W) : (dat3 (U7 m ρ) c).arrAt w cfg3.N = W8 m ρ c (Pipeline.arrRef spec3 w) :=
  (W8_arr m ρ c w).symm
theorem hrest3 (c : Dev nD) : ∀ b, b ∉ Finset.univ.image (Pipeline.arrRef spec3) → W8 m ρ c b = U7 m ρ c b :=
  fun b hb => W8_of_ne m ρ c b fun w e => hb (Finset.mem_image.mpr ⟨w, Finset.mem_univ _, e⟩)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- REGION 0 over the thread state: entered from every unscoped buffer at `W1`, left at `W2`. Its arrays are
    split out of the unscoped buffers and put back at the exit contents; the generator register goes into the region's
    invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the region's
    invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Entails.of_eq (show (pdats m ρ 1 c).Φ (Fin.last _) = Pipeline.ΦA spec1 c from rfl)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the region's
    invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (U5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (fun b => W6 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers and put back at the exit contents; the generator register goes into the region's
    invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (Entails.of_eq (show (pdats m ρ 3 c).Φ (Fin.last _) = Pipeline.ΦA spec3 c from rfl)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (fun b => W8 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program IS the run of the segments. -/
theorem main_run (c : Dev nD) : main (F := F) c = Pipeline.Seg.run (segs m ρ) := (main_chain c).trans (by chain_rfl)

set_option backward.isDefEq.respectTransparency.types false in
/-- THE RUN: every weakly fair execution from memory `m` with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.K.Kept.lean ====
/-
  The sixteen argument arrays at the last boundary are the launch contents: no host operation writes an argument, and a
  region either stages it through an input window (whose array the pipeline leaves as entered) or never touches it.
-/
import proofs.«143586_j39599598469629_2_alg».proof.Proof.Gen.Kernel.Launch
import proofs.«143586_j39599598469629_2_alg».proof.Proof.Gen.Kernel.Skeleton
import proofs.«143586_j39599598469629_2_alg».proof.Proof.Gen.Kernel.Points
import proofs.«143586_j39599598469629_2_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 2).trans (((dat0 (U1 m ρ) c).arrAt_in 2 rfl _).trans (A_eq0 (U1 m ρ) c 2))
    _ = W0 m ρ c (Proc.devRef .tc main_arg2) := StableHlo.after_of_writes_sub hostOps0 _ hostOps0_writes (by decide : main_arg2 ∉ hostOps0_W)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := StableHlo.after_of_writes_sub hostOps0 _ hostOps0_writes (by decide : main_arg4 ∉ hostOps0_W)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide : main_arg8 ∉ hostOps3_W)
    _ = W5 m ρ c (Proc.devRef .tc main_arg8) := (W6_arr m ρ c 2).trans (((dat2 (U5 m ρ) c).arrAt_in 2 rfl _).trans (A_eq2 (U5 m ρ) c 2))
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_writes_sub hostOps3 _ hostOps3_writes (by decide : main_arg9 ∉ hostOps3_W)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_writes_sub hostOps3 _ hostOps3_writes (by decide : main_arg10 ∉ hostOps3_W)
    _ = W5 m ρ c (Proc.devRef .tc main_arg10) := (W6_arr m ρ c 4).trans (((dat2 (U5 m ρ) c).arrAt_in 4 rfl _).trans (A_eq2 (U5 m ρ) c 4))
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_writes_sub hostOps3 _ hostOps3_writes (by decide : main_arg11 ∉ hostOps3_W)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_writes_sub hostOps3 _ hostOps3_writes (by decide : main_arg12 ∉ hostOps3_W)
    _ = W5 m ρ c (Proc.devRef .tc main_arg12) := W6_of_ne m ρ c main_arg12 (by decide)
    _ = W4 m ρ c (Proc.devRef .tc main_arg12) := StableHlo.after_of_writes_sub hostOps2 _ hostOps2_writes (by decide : main_arg12 ∉ hostOps2_W)
    _ = W3 m ρ c (Proc.devRef .tc main_arg12) := W4_of_ne m ρ c main_arg12 (by decide)
    _ = W2 m ρ c (Proc.devRef .tc main_arg12) := StableHlo.after_of_writes_sub hostOps1 _ hostOps1_writes (by decide : main_arg12 ∉ hostOps1_W)
    _ = W1 m ρ c (Proc.devRef .tc main_arg12) := W2_of_ne m ρ c main_arg12 (by decide)
    _ = W0 m ρ c (Proc.devRef .tc main_arg12) := StableHlo.after_of_writes_sub hostOps0 _ hostOps0_writes (by decide : main_arg12 ∉ hostOps0_W)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_writes_sub hostOps3 _ hostOps3_writes (by decide : main_arg13 ∉ hostOps3_W)
    _ = W5 m ρ c (Proc.devRef .tc main_arg13) := W6_of_ne m ρ c main_arg13 (by decide)
    _ = W4 m ρ c (Proc.devRef .tc main_arg13) := StableHlo.after_of_writes_sub hostOps2 _ hostOps2_writes (by decide : main_arg13 ∉ hostOps2_W)
    _ = W3 m ρ c (Proc.devRef .tc main_arg13) := W4_of_ne m ρ c main_arg13 (by decide)
    _ = W2 m ρ c (Proc.devRef .tc main_arg13) := StableHlo.after_of_writes_sub hostOps1 _ hostOps1_writes (by decide : main_arg13 ∉ hostOps1_W)
    _ = W1 m ρ c (Proc.devRef .tc main_arg13) := W2_of_ne m ρ c main_arg13 (by decide)
    _ = W0 m ρ c (Proc.devRef .tc main_arg13) := StableHlo.after_of_writes_sub hostOps0 _ hostOps0_writes (by decide : main_arg13 ∉ hostOps0_W)
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := (W8_arr m ρ c 5).trans (((dat3 (U7 m ρ) c).arrAt_in 5 rfl _).trans (A_eq3 (U7 m ρ) c 5))
    _ = W6 m ρ c (Proc.devRef .tc main_arg14) := StableHlo.after_of_writes_sub hostOps3 _ hostOps3_writes (by decide : main_arg14 ∉ hostOps3_W)
    _ = W5 m ρ c (Proc.devRef .tc main_arg14) := W6_of_ne m ρ c main_arg14 (by decide)
    _ = W4 m ρ c (Proc.devRef .tc main_arg14) := StableHlo.after_of_writes_sub hostOps2 _ hostOps2_writes (by decide : main_arg14 ∉ hostOps2_W)
    _ = W3 m ρ c (Proc.devRef .tc main_arg14) := W4_of_ne m ρ c main_arg14 (by decide)
    _ = W2 m ρ c (Proc.devRef .tc main_arg14) := StableHlo.after_of_writes_sub hostOps1 _ hostOps1_writes (by decide : main_arg14 ∉ hostOps1_W)
    _ = W1 m ρ c (Proc.devRef .tc main_arg14) := W2_of_ne m ρ c main_arg14 (by decide)
    _ = W0 m ρ c (Proc.devRef .tc main_arg14) := StableHlo.after_of_writes_sub hostOps0 _ hostOps0_writes (by decide : main_arg14 ∉ hostOps0_W)
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_writes_sub hostOps3 _ hostOps3_writes (by decide : main_arg15 ∉ hostOps3_W)
    _ = W5 m ρ c (Proc.devRef .tc main_arg15) := W6_of_ne m ρ c main_arg15 (by decide)
    _ = W4 m ρ c (Proc.devRef .tc main_arg15) := StableHlo.after_of_writes_sub hostOps2 _ hostOps2_writes (by decide : main_arg15 ∉ hostOps2_W)
    _ = W3 m ρ c (Proc.devRef .tc main_arg15) := W4_of_ne m ρ c main_arg15 (by decide)
    _ = W2 m ρ c (Proc.devRef .tc main_arg15) := StableHlo.after_of_writes_sub hostOps1 _ hostOps1_writes (by decide : main_arg15 ∉ hostOps1_W)
    _ = W1 m ρ c (Proc.devRef .tc main_arg15) := W2_of_ne m ρ c main_arg15 (by decide)
    _ = W0 m ρ c (Proc.devRef .tc main_arg15) := StableHlo.after_of_writes_sub hostOps0 _ hostOps0_writes (by decide : main_arg15 ∉ hostOps0_W)
    _ = m ((c : Thread nD τ).loc main_arg15) := rfl

/-- THE FRAME: every weakly fair execution terminates, nothing faulting, and the sixteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩)
    (run_all m ρ)

end Cert.Kernel.Hand

end
-- ==== Proof.KI.Run0.lean ====
/-
  Region 0: the statistics kernel, one run of its body per control case. Each grid point takes a block of 4000 rows
  of the node features and of the neighbour sums, the two weight matrices and bias rows, computes the perceptron's
  output block t, stores it, and adds the column sums of t and of t·t to two running rows kept in scratch buffers
  between grid points, copying the running rows to the two small outputs. At the first grid point the running rows
  are zeroed first. Stated here, per case: the pieces the body's stores leave in each output and each scratch
  buffer (found by running the body), with the proof that the body runs to them.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the grid position is zero. -/
abbrev cond0 (i : grid0.Coords) : Prop :=
  (Scalar.cmpi .ne (Scalar.extui (Scalar.cmpi .eq (BitVec.ofNat 32 (i 0).val) 0#32)) 0#32) = 1#1

/-- It holds exactly at the first grid point (decided over the grid). -/
theorem hcond0 : ∀ t : Fin cfg0.N, cond0 (grid0.coords t) ↔ t.val = 0 :=
  (by decide +kernel : ∀ t : Fin grid0.N, cond0 (grid0.coords t) ↔ t.val = 0)

set_option maxHeartbeats 8000000 in
/-- THE FIRST POINT (the branch taken): inputs at their contents, outputs and both scratch rows at anything. -/
noncomputable def kernelRun0_A (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i)
    (x0 : Vec F S4000x128 .f32) (x1 : Vec F S4000x128 .f32) (x2 : Vec F S128x128 .f32) (x3 : Vec F S1x128 .f32) (x4 : Vec F S128x128 .f32) (x5 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

set_option maxHeartbeats 8000000 in
/-- A LATER POINT (the branch not taken): inputs at their contents, both scratch rows at what the point before
    left, outputs at anything. -/
noncomputable def kernelRun0_B (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i)
    (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Region0.lean ====
/-
  Region 0: the statistics kernel as a pipeline. What the three output buffers and the two scratch rows hold after
  the body at each grid point is defined by recursion over the points: at the first point the first case's stores
  (the running rows start from zero), at every later point the later case's stores over what the point before left
  in the scratch rows. The invariant between points carries the two scratch rows at those contents; before the
  first point and after the last they are at anything. From this: the proof data of the pipeline over any entry
  contents of the arrays, and the body's obligation at every grid point.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import proofs.«143586_j39599598469629_2_alg».proof.Proof.KI.Run0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body, and the two scratch rows. -/
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev scM0_0 : Memref sig .tc .vmem S1x128 .f32 := Memref.whole cc0_scratch0
abbrev scM0_1 : Memref sig .tc .vmem S1x128 .f32 := Memref.whole cc0_scratch1

/-- In each case the stores into each buffer tile it, so they cover it. -/
theorem cover0_A_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S4000x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).1, y ∈ pc.1.set :=
  View.cover_of_tiledL _ S4000x128.size (by sl_kernel_rfl) y
theorem cover0_A_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.1, y ∈ pc.1.set :=
  View.cover_of_tiledL _ S1x128.size (by sl_kernel_rfl) y
theorem cover0_A_8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.2.1, y ∈ pc.1.set :=
  View.cover_of_tiledL _ S1x128.size (by sl_kernel_rfl) y
theorem cover0_A_S0 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.2.2.1, y ∈ pc.1.set :=
  View.cover_of_tiledL _ S1x128.size (by sl_kernel_rfl) y
theorem cover0_A_S1 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5).2.2.2.2.1, y ∈ pc.1.set :=
  View.cover_of_tiledL _ S1x128.size (by sl_kernel_rfl) y
theorem cover0_B_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S4000x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).1, y ∈ pc.1.set :=
  View.cover_of_tiledL _ S4000x128.size (by sl_kernel_rfl) y
theorem cover0_B_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.1, y ∈ pc.1.set :=
  View.cover_of_tiledL _ S1x128.size (by sl_kernel_rfl) y
theorem cover0_B_8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.2.1, y ∈ pc.1.set :=
  View.cover_of_tiledL _ S1x128.size (by sl_kernel_rfl) y
theorem cover0_B_S0 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.1, y ∈ pc.1.set :=
  View.cover_of_tiledL _ S1x128.size (by sl_kernel_rfl) y
theorem cover0_B_S1 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.2.1, y ∈ pc.1.set :=
  View.cover_of_tiledL _ S1x128.size (by sl_kernel_rfl) y

/-- What the first case leaves at point `t`: output block, the two small outputs, the two scratch rows. -/
def outA0 (c : Dev nD) (t : Fin cfg0.N) (hc : cond0 (grid0.coords t)) : Vec F S4000x128 .f32 × Vec F S1x128 .f32 × Vec F S1x128 .f32 × Vec F S1x128 .f32 × Vec F S1x128 .f32 :=
  (View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.2.1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.2.2.1,
   View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t)).2.2.2.2.1)

/-- What the later case leaves at point `t`, over the scratch rows `xs0`, `xs1` the point before left. -/
def outB0 (c : Dev nD) (t : Fin cfg0.N) (hc : ¬cond0 (grid0.coords t)) (xs0 xs1 : Vec F S1x128 .f32) : Vec F S4000x128 .f32 × Vec F S1x128 .f32 × Vec F S1x128 .f32 × Vec F S1x128 .f32 × Vec F S1x128 .f32 :=
  (View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.2.1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.2.2.1,
   View.canon (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc (iblk0 V c 0 t) (iblk0 V c 1 t) (iblk0 V c 2 t) (iblk0 V c 3 t) (iblk0 V c 4 t) (iblk0 V c 5 t) xs0 xs1).2.2.2.2.1)

/-- THE ACCUMULATION over grid points. -/
def outsAt0 (c : Dev nD) : (n : ℕ) → n < cfg0.N → Vec F S4000x128 .f32 × Vec F S1x128 .f32 × Vec F S1x128 .f32 × Vec F S1x128 .f32 × Vec F S1x128 .f32
  | 0, hn => outA0 V c ⟨0, hn⟩ ((hcond0 ⟨0, hn⟩).mpr rfl)
  | n + 1, hn => outB0 V c ⟨n + 1, hn⟩ (fun h => Nat.succ_ne_zero n ((hcond0 ⟨n + 1, hn⟩).mp h))
      (outsAt0 c n (Nat.lt_of_succ_lt hn)).2.2.2.1 (outsAt0 c n (Nat.lt_of_succ_lt hn)).2.2.2.2

theorem outsAt0_A (c : Dev nD) (t : Fin cfg0.N) (hz : t.val = 0) :
    outsAt0 V c t.val t.isLt = outA0 V c t ((hcond0 t).mpr hz) := by
  obtain ⟨n, hn⟩ := t
  cases n with
  | zero => rfl
  | succ n => exact absurd hz (Nat.succ_ne_zero n)

theorem outsAt0_B (c : Dev nD) (t : Fin cfg0.N) (hz : t.val ≠ 0) :
    outsAt0 V c t.val t.isLt = outB0 V c t (fun h => hz ((hcond0 t).mp h))
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl hz
  | succ n => rfl

/-- The invariant before position `n`: before the first point the scoped rest with both scratch rows at anything;
    afterwards both scratch rows at what the point before left, the other scoped buffers unopened, the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class's invariant with the two scratch rows as buffers owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 8000000 in
/-- The body at any point: the inputs' buffers hold their blocks; the point is the first or a later one; the
    invariant hands the body the scratch rows (at anything at the first point, at what the point before left
    afterwards) and takes them back at this point's contents; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  by_cases hz : t.val = 0
  · rw [outsAt0_A V c t hz]
    unfold outA0; dsimp only
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0 t).mpr hz) (iblk0 V c 0 t) (iblk0 V c 1 t) (iblk0 V c 2 t) (iblk0 V c 3 t) (iblk0 V c 4 t) (iblk0 V c 5 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover0_A_S0 c _ _ _ _ _ _ _ _ _ _ _ _ _ _ _ _ _ _ _ _ _ _ _ _ _ _ _ _ _ _)
          unfold owns; iexists _; isplitr
          swap; · iexact HS1
          ipureintro; exact View.read_writes_eq_canon _ _ _ (cover0_A_S1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_A_6 c _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover0_A_7 c _ _ _ _ _ _ _ _ _ _ _ _ _ _ _ _ _ _ _ _ _ _ _ _ _ _ _ _ _ _)
    unfold owns; iexists _; isplitr
    swap; · iexact H8
    ipureintro; exact View.read_writes_eq_canon _ _ _ (cover0_A_8 c _ _ _ _ _ _ _ _ _ _ _ _ _ _ _ _ _ _ _ _ _ _ _ _ _ _ _ _ _ _)
  · rw [outsAt0_B V c t hz]
    unfold outB0; dsimp only
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => hz ((hcond0 t).mp h)) (iblk0 V c 0 t) (iblk0 V c 1 t) (iblk0 V c 2 t) (iblk0 V c 3 t) (iblk0 V c 4 t) (iblk0 V c 5 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover0_B_S0 c _ _ _ _ _ _ _ _ _ _ _ _ _ _ _ _ _ _ _ _ _ _ _ _ _ _ _ _ _ _ _ _)
          unfold owns; iexists _; isplitr
          swap; · iexact HS1
          ipureintro; exact View.read_writes_eq_canon _ _ _ (cover0_B_S1 c _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_B_6 c _ _ _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover0_B_7 c _ _ _ _ _ _ _ _ _ _ _ _ _ _ _ _ _ _ _ _ _ _ _ _ _ _ _ _ _ _ _ _)
    unfold owns; iexists _; isplitr
    swap; · iexact H8
    ipureintro; exact View.read_writes_eq_canon _ _ _ (cover0_B_8 c _ _ _ _ _ _ _ _ _ _ _ _ _ _ _ _ _ _ _ _ _ _ _ _ _ _ _ _ _ _ _ _)

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch rows' named contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 25 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region0

end Cert.KernelIdeal.Hand

end
-- ==== Proof.KI.Region1.lean ====
/-
  Region 1: the normalisation kernel. Each grid point takes one block of 4000 rows of the pre-activations and the
  four per-feature rows (mean, variance, scale, shift), and leaves in its two output blocks the rectified
  normalisation max((t − mean)·rsqrt(var + ε)·scale + shift, 0), once at full width and once narrowed. Stated here:
  what one run of the body leaves in its output buffers as a function of its input buffers, the proof data of the
  pipeline over any entry contents of the arrays, and the body's obligation at every grid point.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (unfetched, its index has
    not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rc1_S4000x128 : Rect S4000x128 := Rect.unit (s := S4000x128) ![0, 0] S4000x128.size inb_S4000x128_S4000x128_0_0
abbrev rc1_S1x128 : Rect S1x128 := Rect.unit (s := S1x128) ![0, 0] S1x128.size inb_S1x128_S1x128_0_0

/-- Output window 5's block after the body, from the input blocks. -/
def out1_5 (x0 : Vec F S4000x128 .f32) (x1 : Vec F S1x128 .f32) (x2 : Vec F S1x128 .f32) (x3 : Vec F S1x128 .f32) (x4 : Vec F S1x128 .f32) : Vec F S4000x128 .f32 :=
  View.canon [⟨rc1_S4000x128, k1_pay1 (View.ld x0 rc1_S4000x128) (View.ld x2 rc1_S1x128) (View.ld x1 rc1_S1x128) (View.ld x3 rc1_S1x128) (View.ld x4 rc1_S1x128)⟩]
theorem cover1_5 (p0 : Vec F S4000x128 .f32) (y : S4000x128.Idx) :
    ∃ pc ∈ ([⟨rc1_S4000x128, p0⟩] : List (View.Piece (Elt F) S4000x128 .f32)), y ∈ pc.1.set :=
  View.cover_of_tiled [⟨rc1_S4000x128, p0⟩] S4000x128.size (by rfl) y
/-- Output window 6's block after the body, from the input blocks. -/
def out1_6 (x0 : Vec F S4000x128 .f32) (x1 : Vec F S1x128 .f32) (x2 : Vec F S1x128 .f32) (x3 : Vec F S1x128 .f32) (x4 : Vec F S1x128 .f32) : Vec F S4000x128 .bf16 :=
  View.canon [⟨rc1_S4000x128, k1_pay2 (View.ld x0 rc1_S4000x128) (View.ld x2 rc1_S1x128) (View.ld x1 rc1_S1x128) (View.ld x3 rc1_S1x128) (View.ld x4 rc1_S1x128)⟩]
theorem cover1_6 (p0 : Vec F S4000x128 .bf16) (y : S4000x128.Idx) :
    ∃ pc ∈ ([⟨rc1_S4000x128, p0⟩] : List (View.Piece (Elt F) S4000x128 .bf16)), y ∈ pc.1.set :=
  View.cover_of_tiled [⟨rc1_S4000x128, p0⟩] S4000x128.size (by rfl) y

set_option maxHeartbeats 4000000 in
/-- One run of the body on whole staging buffers: the inputs keep their contents, each output ends at its function of
    the inputs. -/
theorem sound_kernel1 (c : Dev nD) (E : Set ℕ) (i : grid1.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .bf16) (harg7 : arg7.IsWhole)
    (x0 : Vec F S4000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__bn_relu_bf16_kernel i arg1 harg1 arg2 harg2 arg3 harg3 arg4 harg4 arg5 harg5 arg6 harg6 arg7 harg7) K := by
  simp only [cc1__bn_relu_bf16_kernel_eq_skeleton]; unfold cc1__bn_relu_bf16_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-- The proof data of this pipeline on core `c`: the arrays as the region finds them; after the body at point `t` each
    input's buffer at its block and each output's at its function of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so one run applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run2.lean ====
/-
  Region 2: the statistics kernel, one run of its body per control case. Each grid point takes a block of 4000 rows
  of the node features and of the neighbour sums, the two weight matrices and bias rows, computes the perceptron's
  output block t, stores it, and adds the column sums of t and of t·t to two running rows kept in scratch buffers
  between grid points, copying the running rows to the two small outputs. At the first grid point the running rows
  are zeroed first. Stated here, per case: the pieces the body's stores leave in each output and each scratch
  buffer (found by running the body), with the proof that the body runs to them.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the grid position is zero. -/
abbrev cond2 (i : grid2.Coords) : Prop :=
  (Scalar.cmpi .ne (Scalar.extui (Scalar.cmpi .eq (BitVec.ofNat 32 (i 0).val) 0#32)) 0#32) = 1#1

/-- It holds exactly at the first grid point (decided over the grid). -/
theorem hcond2 : ∀ t : Fin cfg2.N, cond2 (grid2.coords t) ↔ t.val = 0 :=
  (by decide +kernel : ∀ t : Fin grid2.N, cond2 (grid2.coords t) ↔ t.val = 0)

set_option maxHeartbeats 8000000 in
/-- THE FIRST POINT (the branch taken): inputs at their contents, outputs and both scratch rows at anything. -/
noncomputable def kernelRun2_A (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i)
    (x0 : Vec F S4000x128 .f32) (x1 : Vec F S4000x128 .f32) (x2 : Vec F S128x128 .f32) (x3 : Vec F S1x128 .f32) (x4 : Vec F S128x128 .f32) (x5 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

set_option maxHeartbeats 8000000 in
/-- A LATER POINT (the branch not taken): inputs at their contents, both scratch rows at what the point before
    left, outputs at anything. -/
noncomputable def kernelRun2_B (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i)
    (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    Σ' (L6 : List (View.Piece (Elt F) S4000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hfs0; obtain rfl := harg11.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Region2.lean ====
/-
  Region 2: the statistics kernel as a pipeline. What the three output buffers and the two scratch rows hold after
  the body at each grid point is defined by recursion over the points: at the first point the first case's stores
  (the running rows start from zero), at every later point the later case's stores over what the point before left
  in the scratch rows. The invariant between points carries the two scratch rows at those contents; before the
  first point and after the last they are at anything. From this: the proof data of the pipeline over any entry
  contents of the arrays, and the body's obligation at every grid point.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import proofs.«143586_j39599598469629_2_alg».proof.Proof.KI.Run2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging buffer at point `t`, as the pipeline passes it to the body, and the two scratch rows. -/
abbrev ms2_0 (t : Fin cfg2.N) : Memref sig .tc .vmem S4000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S4000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev scM2_0 : Memref sig .tc .vmem S1x128 .f32 := Memref.whole cc2_scratch0
abbrev scM2_1 : Memref sig .tc .vmem S1x128 .f32 := Memref.whole cc2_scratch1

/-- In each case the stores into each buffer tile it, so they cover it. -/
theorem cover2_A_6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S4000x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).1, y ∈ pc.1.set :=
  View.cover_of_tiledL _ S4000x128.size (by sl_kernel_rfl) y
theorem cover2_A_7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.1, y ∈ pc.1.set :=
  View.cover_of_tiledL _ S1x128.size (by sl_kernel_rfl) y
theorem cover2_A_8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.2.1, y ∈ pc.1.set :=
  View.cover_of_tiledL _ S1x128.size (by sl_kernel_rfl) y
theorem cover2_A_S0 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.2.2.1, y ∈ pc.1.set :=
  View.cover_of_tiledL _ S1x128.size (by sl_kernel_rfl) y
theorem cover2_A_S1 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc x0 x1 x2 x3 x4 x5).2.2.2.2.1, y ∈ pc.1.set :=
  View.cover_of_tiledL _ S1x128.size (by sl_kernel_rfl) y
theorem cover2_B_6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S4000x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).1, y ∈ pc.1.set :=
  View.cover_of_tiledL _ S4000x128.size (by sl_kernel_rfl) y
theorem cover2_B_7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.1, y ∈ pc.1.set :=
  View.cover_of_tiledL _ S1x128.size (by sl_kernel_rfl) y
theorem cover2_B_8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.2.1, y ∈ pc.1.set :=
  View.cover_of_tiledL _ S1x128.size (by sl_kernel_rfl) y
theorem cover2_B_S0 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.1, y ∈ pc.1.set :=
  View.cover_of_tiledL _ S1x128.size (by sl_kernel_rfl) y
theorem cover2_B_S1 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc x0 x1 x2 x3 x4 x5 xs0 xs1).2.2.2.2.1, y ∈ pc.1.set :=
  View.cover_of_tiledL _ S1x128.size (by sl_kernel_rfl) y

/-- What the first case leaves at point `t`: output block, the two small outputs, the two scratch rows. -/
def outA2 (c : Dev nD) (t : Fin cfg2.N) (hc : cond2 (grid2.coords t)) : Vec F S4000x128 .f32 × Vec F S1x128 .f32 × Vec F S1x128 .f32 × Vec F S1x128 .f32 × Vec F S1x128 .f32 :=
  (View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.2.1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.2.2.1,
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t)).2.2.2.2.1)

/-- What the later case leaves at point `t`, over the scratch rows `xs0`, `xs1` the point before left. -/
def outB2 (c : Dev nD) (t : Fin cfg2.N) (hc : ¬cond2 (grid2.coords t)) (xs0 xs1 : Vec F S1x128 .f32) : Vec F S4000x128 .f32 × Vec F S1x128 .f32 × Vec F S1x128 .f32 × Vec F S1x128 .f32 × Vec F S1x128 .f32 :=
  (View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.2.1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.2.2.1,
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) hc (iblk2 V c 0 t) (iblk2 V c 1 t) (iblk2 V c 2 t) (iblk2 V c 3 t) (iblk2 V c 4 t) (iblk2 V c 5 t) xs0 xs1).2.2.2.2.1)

/-- THE ACCUMULATION over grid points. -/
def outsAt2 (c : Dev nD) : (n : ℕ) → n < cfg2.N → Vec F S4000x128 .f32 × Vec F S1x128 .f32 × Vec F S1x128 .f32 × Vec F S1x128 .f32 × Vec F S1x128 .f32
  | 0, hn => outA2 V c ⟨0, hn⟩ ((hcond2 ⟨0, hn⟩).mpr rfl)
  | n + 1, hn => outB2 V c ⟨n + 1, hn⟩ (fun h => Nat.succ_ne_zero n ((hcond2 ⟨n + 1, hn⟩).mp h))
      (outsAt2 c n (Nat.lt_of_succ_lt hn)).2.2.2.1 (outsAt2 c n (Nat.lt_of_succ_lt hn)).2.2.2.2

theorem outsAt2_A (c : Dev nD) (t : Fin cfg2.N) (hz : t.val = 0) :
    outsAt2 V c t.val t.isLt = outA2 V c t ((hcond2 t).mpr hz) := by
  obtain ⟨n, hn⟩ := t
  cases n with
  | zero => rfl
  | succ n => exact absurd hz (Nat.succ_ne_zero n)

theorem outsAt2_B (c : Dev nD) (t : Fin cfg2.N) (hz : t.val ≠ 0) :
    outsAt2 V c t.val t.isLt = outB2 V c t (fun h => hz ((hcond2 t).mp h))
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd rfl hz
  | succ n => rfl

/-- The invariant before position `n`: before the first point the scoped rest with both scratch rows at anything;
    afterwards both scratch rows at what the point before left, the other scoped buffers unopened, the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class's invariant with the two scratch rows as buffers owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 8000000 in
/-- The body at any point: the inputs' buffers hold their blocks; the point is the first or a later one; the
    invariant hands the body the scratch rows (at anything at the first point, at what the point before left
    afterwards) and takes them back at this point's contents; the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7, after2_8]
  by_cases hz : t.val = 0
  · rw [outsAt2_A V c t hz]
    unfold outA2; dsimp only
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2 t).mpr hz) (iblk2 V c 0 t) (iblk2 V c 1 t) (iblk2 V c 2 t) (iblk2 V c 3 t) (iblk2 V c 4 t) (iblk2 V c 5 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover2_A_S0 c _ _ _ _ _ _ _ _ _ _ _ _ _ _ _ _ _ _ _ _ _ _ _ _ _ _ _ _ _ _)
          unfold owns; iexists _; isplitr
          swap; · iexact HS1
          ipureintro; exact View.read_writes_eq_canon _ _ _ (cover2_A_S1 c _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover2_A_6 c _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover2_A_7 c _ _ _ _ _ _ _ _ _ _ _ _ _ _ _ _ _ _ _ _ _ _ _ _ _ _ _ _ _ _)
    unfold owns; iexists _; isplitr
    swap; · iexact H8
    ipureintro; exact View.read_writes_eq_canon _ _ _ (cover2_A_8 c _ _ _ _ _ _ _ _ _ _ _ _ _ _ _ _ _ _ _ _ _ _ _ _ _ _ _ _ _ _)
  · rw [outsAt2_B V c t hz]
    unfold outB2; dsimp only
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ _ _ _ _ (fun h => hz ((hcond2 t).mp h)) (iblk2 V c 0 t) (iblk2 V c 1 t) (iblk2 V c 2 t) (iblk2 V c 3 t) (iblk2 V c 4 t) (iblk2 V c 5 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover2_B_S0 c _ _ _ _ _ _ _ _ _ _ _ _ _ _ _ _ _ _ _ _ _ _ _ _ _ _ _ _ _ _ _ _)
          unfold owns; iexists _; isplitr
          swap; · iexact HS1
          ipureintro; exact View.read_writes_eq_canon _ _ _ (cover2_B_S1 c _ _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover2_B_6 c _ _ _ _ _ _ _ _ _ _ _ _ _ _ _ _ _ _ _ _ _ _ _ _ _ _ _ _ _ _ _ _)
    isplitl [H7]
    · unfold owns; iexists _; isplitr
      swap; · iexact H7
      ipureintro; exact View.read_writes_eq_canon _ _ _ (cover2_B_7 c _ _ _ _ _ _ _ _ _ _ _ _ _ _ _ _ _ _ _ _ _ _ _ _ _ _ _ _ _ _ _ _)
    unfold owns; iexists _; isplitr
    swap; · iexact H8
    ipureintro; exact View.read_writes_eq_canon _ _ _ (cover2_B_8 c _ _ _ _ _ _ _ _ _ _ _ _ _ _ _ _ _ _ _ _ _ _ _ _ _ _ _ _ _ _ _ _)

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch rows' named contents are forgotten. -/
theorem hout2 (c : Dev nD) : (dat2 V c).Φ (Fin.last cfg2.N) ⊢ Pipeline.ΦA spec2 c := by
  have hN : (Fin.last cfg2.N).val ≠ 0 := by rw [Fin.val_last]; have : cfg2.N = 25 := N_2; omega
  rw [show (dat2 V c).Φ (Fin.last cfg2.N) = PhiS2 V c (Fin.last cfg2.N).val (Nat.le_of_lt_succ (Fin.last cfg2.N).isLt) from rfl,
    PhiS2_pos V c _ _ hN, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region2

end Cert.KernelIdeal.Hand

end
-- ==== Proof.KI.Region3.lean ====
/-
  Region 3: the projection kernel. Each grid point takes one block of 4000 rows of the second layer's
  pre-activations, the four per-feature rows (mean, variance, scale, shift), the projection matrix and its bias row,
  and leaves in its output block the rectified normalisation of the rows, projected to 64 features, each row divided by
  its Euclidean norm floored at a tiny constant. Stated here: what one run of the body leaves in its output buffer as a
  function of its input buffers, the proof data of the pipeline over any entry contents of the arrays, and the
  body's obligation at every grid point.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (unfetched, its index has
    not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev rc3_S4000x128 : Rect S4000x128 := Rect.unit (s := S4000x128) ![0, 0] S4000x128.size inb_S4000x128_S4000x128_0_0
abbrev rc3_S1x128 : Rect S1x128 := Rect.unit (s := S1x128) ![0, 0] S1x128.size inb_S1x128_S1x128_0_0
abbrev rc3_S128x64 : Rect S128x64 := Rect.unit (s := S128x64) ![0, 0] S128x64.size inb_S128x64_S128x64_0_0
abbrev rc3_S1x64 : Rect S1x64 := Rect.unit (s := S1x64) ![0, 0] S1x64.size inb_S1x64_S1x64_0_0
abbrev rc3_S4000x64 : Rect S4000x64 := Rect.unit (s := S4000x64) ![0, 0] S4000x64.size inb_S4000x64_S4000x64_0_0

/-- Output window 7's block after the body, from the input blocks. -/
def out3_7 (x0 : Vec F S4000x128 .f32) (x1 : Vec F S1x128 .f32) (x2 : Vec F S1x128 .f32) (x3 : Vec F S1x128 .f32) (x4 : Vec F S1x128 .f32) (x5 : Vec F S128x64 .f32) (x6 : Vec F S1x64 .f32) : Vec F S4000x64 .f32 :=
  View.canon [⟨rc3_S4000x64, k3_pay1 (View.ld x0 rc3_S4000x128) (View.ld x2 rc3_S1x128) (View.ld x1 rc3_S1x128) (View.ld x3 rc3_S1x128) (View.ld x4 rc3_S1x128) (View.ld x5 rc3_S128x64) (View.ld x6 rc3_S1x64)⟩]
theorem cover3_7 (p0 : Vec F S4000x64 .f32) (y : S4000x64.Idx) :
    ∃ pc ∈ ([⟨rc3_S4000x64, p0⟩] : List (View.Piece (Elt F) S4000x64 .f32)), y ∈ pc.1.set :=
  View.cover_of_tiled [⟨rc3_S4000x64, p0⟩] S4000x64.size (by rfl) y

set_option maxHeartbeats 4000000 in
/-- One run of the body on whole staging buffers: the inputs keep their contents, each output ends at its function of
    the inputs. -/
theorem sound_kernel3 (c : Dev nD) (E : Set ℕ) (i : grid3.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S4000x64 .f32) (harg8 : arg8.IsWhole)
    (x0 : Vec F S4000x128 .f32) (x1 : Vec F S1x128 .f32) (x2 : Vec F S1x128 .f32) (x3 : Vec F S1x128 .f32) (x4 : Vec F S1x128 .f32) (x5 : Vec F S128x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__bn_relu_proj_kernel i arg1 harg1 arg2 harg2 arg3 harg3 arg4 harg4 arg5 harg5 arg6 harg6 arg7 harg7 arg8 harg8) K := by
  simp only [cc3__bn_relu_proj_kernel_eq_skeleton]; unfold cc3__bn_relu_proj_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The proof data of this pipeline on core `c`: the arrays as the region finds them; after the body at point `t` each
    input's buffer at its block and each output's at its function of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so one run applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Chain.lean ====
/-
  The whole program as a chain of segments: four stretches of host operations and four kernel regions, in turn.
  Between two segments every unscoped buffer of the core is held at named contents: the launch memory, then each
  stretch's operations applied, then each region's arrays at what its pipeline leaves (the inputs as entered, each
  output's blocks written back) and every other buffer as entered. The run: from any memory with zero counters every
  weakly fair execution terminates, nothing faulting, and every unscoped buffer ends at the last boundary's contents.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import proofs.«143586_j39599598469629_2_alg».proof.Proof.KI.Region0
import proofs.«143586_j39599598469629_2_alg».proof.Proof.KI.Region1
import proofs.«143586_j39599598469629_2_alg».proof.Proof.KI.Region2
import proofs.«143586_j39599598469629_2_alg».proof.Proof.KI.Region3
import proofs.«143586_j39599598469629_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch before region 0 (the region's entry). -/
abbrev W1 : Dev nD → Valuation τ sig (Elt F) := fun c => StableHlo.after hostOps0 (W0 m ρ c)
/-- The same read at the TensorCore's references (what region 0's proof data take). -/
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (U1 m ρ) c).arrAt w cfg0.N = W2 m ρ c (Pipeline.arrRef spec0 w) :=
  (W2_arr m ρ c w).symm
theorem hrest0 (c : Dev nD) : ∀ b, b ∉ Finset.univ.image (Pipeline.arrRef spec0) → W2 m ρ c b = U1 m ρ c b :=
  fun b hb => W2_of_ne m ρ c b fun w e => hb (Finset.mem_image.mpr ⟨w, Finset.mem_univ _, e⟩)

/-- After the host stretch before region 1 (the region's entry). -/
abbrev W3 : Dev nD → Valuation τ sig (Elt F) := fun c => StableHlo.after hostOps1 (W2 m ρ c)
/-- The same read at the TensorCore's references (what region 1's proof data take). -/
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (U3 m ρ) c).arrAt w cfg1.N = W4 m ρ c (Pipeline.arrRef spec1 w) :=
  (W4_arr m ρ c w).symm
theorem hrest1 (c : Dev nD) : ∀ b, b ∉ Finset.univ.image (Pipeline.arrRef spec1) → W4 m ρ c b = U3 m ρ c b :=
  fun b hb => W4_of_ne m ρ c b fun w e => hb (Finset.mem_image.mpr ⟨w, Finset.mem_univ _, e⟩)

/-- After the host stretch before region 2 (the region's entry). -/
abbrev W5 : Dev nD → Valuation τ sig (Elt F) := fun c => StableHlo.after hostOps2 (W4 m ρ c)
/-- The same read at the TensorCore's references (what region 2's proof data take). -/
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (dat2 (U5 m ρ) c).arrAt w cfg2.N = W6 m ρ c (Pipeline.arrRef spec2 w) :=
  (W6_arr m ρ c w).symm
theorem hrest2 (c : Dev nD) : ∀ b, b ∉ Finset.univ.image (Pipeline.arrRef spec2) → W6 m ρ c b = U5 m ρ c b :=
  fun b hb => W6_of_ne m ρ c b fun w e => hb (Finset.mem_image.mpr ⟨w, Finset.mem_univ _, e⟩)

/-- After the host stretch before region 3 (the region's entry). -/
abbrev W7 : Dev nD → Valuation τ sig (Elt F) := fun c => StableHlo.after hostOps3 (W6 m ρ c)
/-- The same read at the TensorCore's references (what region 3's proof data take). -/
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem hF3 (c : Dev nD) (w : Fin cfg3.W) : (dat3 (U7 m ρ) c).arrAt w cfg3.N = W8 m ρ c (Pipeline.arrRef spec3 w) :=
  (W8_arr m ρ c w).symm
theorem hrest3 (c : Dev nD) : ∀ b, b ∉ Finset.univ.image (Pipeline.arrRef spec3) → W8 m ρ c b = U7 m ρ c b :=
  fun b hb => W8_of_ne m ρ c b fun w e => hb (Finset.mem_image.mpr ⟨w, Finset.mem_univ _, e⟩)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- REGION 0 over the thread state: entered from every unscoped buffer at `W1`, left at `W2`. Its arrays are
    split out of the unscoped buffers and put back at the exit contents; the generator register goes into the region's
    invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register goes into the region's
    invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Entails.of_eq (show (pdats m ρ 1 c).Φ (Fin.last _) = Pipeline.ΦA spec1 c from rfl)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are
    split out of the unscoped buffers and put back at the exit contents; the generator register goes into the region's
    invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (U5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (fun b => W6 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays are
    split out of the unscoped buffers and put back at the exit contents; the generator register goes into the region's
    invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (Entails.of_eq (show (pdats m ρ 3 c).Φ (Fin.last _) = Pipeline.ΦA spec3 c from rfl)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (fun b => W8 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program IS the run of the segments. -/
theorem main_run (c : Dev nD) : main (F := F) c = Pipeline.Seg.run (segs m ρ) := (main_chain c).trans (by chain_rfl)

set_option backward.isDefEq.respectTransparency.types false in
/-- THE RUN: every weakly fair execution from memory `m` with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Kept.lean ====
/-
  The sixteen argument arrays at the last boundary are the launch contents: no host operation writes an argument, and a
  region either stages it through an input window (whose array the pipeline leaves as entered) or never touches it.
-/
import proofs.«143586_j39599598469629_2_alg».proof.Proof.Gen.KernelIdeal.Launch
import proofs.«143586_j39599598469629_2_alg».proof.Proof.Gen.KernelIdeal.Skeleton
import proofs.«143586_j39599598469629_2_alg».proof.Proof.Gen.KernelIdeal.Points
import proofs.«143586_j39599598469629_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 2).trans (((dat0 (U1 m ρ) c).arrAt_in 2 rfl _).trans (A_eq0 (U1 m ρ) c 2))
    _ = W0 m ρ c (Proc.devRef .tc main_arg2) := StableHlo.after_of_writes_sub hostOps0 _ hostOps0_writes (by decide : main_arg2 ∉ hostOps0_W)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := (W2_arr m ρ c 4).trans (((dat0 (U1 m ρ) c).arrAt_in 4 rfl _).trans (A_eq0 (U1 m ρ) c 4))
    _ = W0 m ρ c (Proc.devRef .tc main_arg4) := StableHlo.after_of_writes_sub hostOps0 _ hostOps0_writes (by decide : main_arg4 ∉ hostOps0_W)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide : main_arg8 ∉ hostOps3_W)
    _ = W5 m ρ c (Proc.devRef .tc main_arg8) := (W6_arr m ρ c 2).trans (((dat2 (U5 m ρ) c).arrAt_in 2 rfl _).trans (A_eq2 (U5 m ρ) c 2))
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_writes_sub hostOps3 _ hostOps3_writes (by decide : main_arg9 ∉ hostOps3_W)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_writes_sub hostOps3 _ hostOps3_writes (by decide : main_arg10 ∉ hostOps3_W)
    _ = W5 m ρ c (Proc.devRef .tc main_arg10) := (W6_arr m ρ c 4).trans (((dat2 (U5 m ρ) c).arrAt_in 4 rfl _).trans (A_eq2 (U5 m ρ) c 4))
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_writes_sub hostOps3 _ hostOps3_writes (by decide : main_arg11 ∉ hostOps3_W)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_writes_sub hostOps3 _ hostOps3_writes (by decide : main_arg12 ∉ hostOps3_W)
    _ = W5 m ρ c (Proc.devRef .tc main_arg12) := W6_of_ne m ρ c main_arg12 (by decide)
    _ = W4 m ρ c (Proc.devRef .tc main_arg12) := StableHlo.after_of_writes_sub hostOps2 _ hostOps2_writes (by decide : main_arg12 ∉ hostOps2_W)
    _ = W3 m ρ c (Proc.devRef .tc main_arg12) := W4_of_ne m ρ c main_arg12 (by decide)
    _ = W2 m ρ c (Proc.devRef .tc main_arg12) := StableHlo.after_of_writes_sub hostOps1 _ hostOps1_writes (by decide : main_arg12 ∉ hostOps1_W)
    _ = W1 m ρ c (Proc.devRef .tc main_arg12) := W2_of_ne m ρ c main_arg12 (by decide)
    _ = W0 m ρ c (Proc.devRef .tc main_arg12) := StableHlo.after_of_writes_sub hostOps0 _ hostOps0_writes (by decide : main_arg12 ∉ hostOps0_W)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_writes_sub hostOps3 _ hostOps3_writes (by decide : main_arg13 ∉ hostOps3_W)
    _ = W5 m ρ c (Proc.devRef .tc main_arg13) := W6_of_ne m ρ c main_arg13 (by decide)
    _ = W4 m ρ c (Proc.devRef .tc main_arg13) := StableHlo.after_of_writes_sub hostOps2 _ hostOps2_writes (by decide : main_arg13 ∉ hostOps2_W)
    _ = W3 m ρ c (Proc.devRef .tc main_arg13) := W4_of_ne m ρ c main_arg13 (by decide)
    _ = W2 m ρ c (Proc.devRef .tc main_arg13) := StableHlo.after_of_writes_sub hostOps1 _ hostOps1_writes (by decide : main_arg13 ∉ hostOps1_W)
    _ = W1 m ρ c (Proc.devRef .tc main_arg13) := W2_of_ne m ρ c main_arg13 (by decide)
    _ = W0 m ρ c (Proc.devRef .tc main_arg13) := StableHlo.after_of_writes_sub hostOps0 _ hostOps0_writes (by decide : main_arg13 ∉ hostOps0_W)
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := (W8_arr m ρ c 5).trans (((dat3 (U7 m ρ) c).arrAt_in 5 rfl _).trans (A_eq3 (U7 m ρ) c 5))
    _ = W6 m ρ c (Proc.devRef .tc main_arg14) := StableHlo.after_of_writes_sub hostOps3 _ hostOps3_writes (by decide : main_arg14 ∉ hostOps3_W)
    _ = W5 m ρ c (Proc.devRef .tc main_arg14) := W6_of_ne m ρ c main_arg14 (by decide)
    _ = W4 m ρ c (Proc.devRef .tc main_arg14) := StableHlo.after_of_writes_sub hostOps2 _ hostOps2_writes (by decide : main_arg14 ∉ hostOps2_W)
    _ = W3 m ρ c (Proc.devRef .tc main_arg14) := W4_of_ne m ρ c main_arg14 (by decide)
    _ = W2 m ρ c (Proc.devRef .tc main_arg14) := StableHlo.after_of_writes_sub hostOps1 _ hostOps1_writes (by decide : main_arg14 ∉ hostOps1_W)
    _ = W1 m ρ c (Proc.devRef .tc main_arg14) := W2_of_ne m ρ c main_arg14 (by decide)
    _ = W0 m ρ c (Proc.devRef .tc main_arg14) := StableHlo.after_of_writes_sub hostOps0 _ hostOps0_writes (by decide : main_arg14 ∉ hostOps0_W)
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_writes_sub hostOps3 _ hostOps3_writes (by decide : main_arg15 ∉ hostOps3_W)
    _ = W5 m ρ c (Proc.devRef .tc main_arg15) := W6_of_ne m ρ c main_arg15 (by decide)
    _ = W4 m ρ c (Proc.devRef .tc main_arg15) := StableHlo.after_of_writes_sub hostOps2 _ hostOps2_writes (by decide : main_arg15 ∉ hostOps2_W)
    _ = W3 m ρ c (Proc.devRef .tc main_arg15) := W4_of_ne m ρ c main_arg15 (by decide)
    _ = W2 m ρ c (Proc.devRef .tc main_arg15) := StableHlo.after_of_writes_sub hostOps1 _ hostOps1_writes (by decide : main_arg15 ∉ hostOps1_W)
    _ = W1 m ρ c (Proc.devRef .tc main_arg15) := W2_of_ne m ρ c main_arg15 (by decide)
    _ = W0 m ρ c (Proc.devRef .tc main_arg15) := StableHlo.after_of_writes_sub hostOps0 _ hostOps0_writes (by decide : main_arg15 ∉ hostOps0_W)
    _ = m ((c : Thread nD τ).loc main_arg15) := rfl

/-- THE FRAME: every weakly fair execution terminates, nothing faulting, and the sixteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩)
    (run_all m ρ)

end Cert.KernelIdeal.Hand

end
-- ==== Proof.LibCoveredLoad.lean ====
/-
  A load of a whole buffer after a store that covered all of it.

  A buffer's contents are kept as the list of the stores made into it, newest first, each a rectangle and the
  values put there.  If the newest store covered the whole buffer, then a load of the whole buffer reads exactly the
  values of that store, whatever the older stores were: an accumulator that is overwritten whole and then read back.
-/
import Idealize.ShloMosaic.Lib.Pipeline.Value

noncomputable section

namespace Idealize.ShloMosaic.View

variable {Val : EltTy → Type} {S : Shape} {e : EltTy}

/-- The whole-buffer load after a newest store through the whole-buffer rectangle reads that store's values. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons.mpr (Or.inl rfl), by
    show y ∈ (Rect.whole S).set; rw [Rect.set_whole]; exact Finset.mem_univ y⟩), canon_cons_unit_zero rfl, ld_unit_zero rfl]

end Idealize.ShloMosaic.View

end
-- ==== Proof.KI.Pieces0.lean ====
/-
  Region 0: what the body's stores leave, case by case, as the payload terms. Each output and each scratch row is
  stored whole; a row that is stored and then loaded again within the body reads the values just stored. So after the
  first case the block holds the perceptron's output, and the two running rows hold its column sums and the column
  sums of its squares ADDED TO ZERO ROWS; after a later case the same added to what the point before left.
-/
import proofs.«143586_j39599598469629_2_alg».proof.Proof.KI.Region0
import proofs.«143586_j39599598469629_2_alg».proof.Proof.LibCoveredLoad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem hz2_0 : (![0, 0] : Fin 2 → Nat) = fun _ => 0 := funext fun a => by fin_cases a <;> rfl

theorem canonA0_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5).1 = k0_pay4 x0 x1 x2 x3 x4 x5 := by
  unfold kernelRun0_A
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread,
    View.ld_unit_zero (S := S4000x128) hz2_0, View.ld_unit_zero (S := S128x128) hz2_0, View.ld_unit_zero (S := S1x128) hz2_0]

theorem canonA0_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5).2.1 = k0_pay5 x0 x1 x2 x3 x4 x5 k0_pay2 := by
  unfold kernelRun0_A
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread,
    View.ld_unit_zero (S := S4000x128) hz2_0, View.ld_unit_zero (S := S128x128) hz2_0, View.ld_unit_zero (S := S1x128) hz2_0]

theorem canonA0_8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5).2.2.1 = k0_pay1 (k0_pay4 x0 x1 x2 x3 x4 x5) k0_pay3 := by
  unfold kernelRun0_A
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread,
    View.ld_unit_zero (S := S4000x128) hz2_0, View.ld_unit_zero (S := S128x128) hz2_0, View.ld_unit_zero (S := S1x128) hz2_0]

theorem canonA0_S0 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5).2.2.2.1 = k0_pay5 x0 x1 x2 x3 x4 x5 k0_pay2 := by
  unfold kernelRun0_A
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread,
    View.ld_unit_zero (S := S4000x128) hz2_0, View.ld_unit_zero (S := S128x128) hz2_0, View.ld_unit_zero (S := S1x128) hz2_0]

theorem canonA0_S1 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond0 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun0_A (F := F) c i arg1 harg1 arg2 harg2 arg3 harg3 arg4 harg4 arg5 harg5 arg6 harg6 arg7 harg7 arg8 harg8 arg9 harg9 arg10 harg10 arg11 harg11 hc x0 x1 x2 x3 x4 x5).2.2.2.2.1 = k0_pay1 (k0_pay4 x0 x1 x2 x3 x4 x5) k0_pay3 := by
  unfold kernelRun0_A
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread,
    View.ld_unit_zero (S := S4000x128) hz2_0, View.ld_unit_zero (S := S128x128) hz2_0, View.ld_unit_zero (S := S1x128) hz2_0]

theorem canonB0_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun0_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).1 = k0_pay4 x0 x1 x2 x3 x4 x5 := by
  unfold kernelRun0_B
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread, harg10.read_unread, harg11.read_unread,
    View.ld_unit_zero (S := S4000x128) hz2_0, View.ld_unit_zero (S := S128x128) hz2_0, View.ld_unit_zero (S := S1x128) hz2_0]

theorem canonB0_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun0_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.1 = k0_pay5 x0 x1 x2 x3 x4 x5 xs0 := by
  unfold kernelRun0_B
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread, harg10.read_unread, harg11.read_unread,
    View.ld_unit_zero (S := S4000x128) hz2_0, View.ld_unit_zero (S := S128x128) hz2_0, View.ld_unit_zero (S := S1x128) hz2_0]

theorem canonB0_8 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun0_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.2.1 = k0_pay1 (k0_pay4 x0 x1 x2 x3 x4 x5) xs1 := by
  unfold kernelRun0_B
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread, harg10.read_unread, harg11.read_unread,
    View.ld_unit_zero (S := S4000x128) hz2_0, View.ld_unit_zero (S := S128x128) hz2_0, View.ld_unit_zero (S := S1x128) hz2_0]

theorem canonB0_S0 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun0_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.2.2.1 = k0_pay5 x0 x1 x2 x3 x4 x5 xs0 := by
  unfold kernelRun0_B
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread, harg10.read_unread, harg11.read_unread,
    View.ld_unit_zero (S := S4000x128) hz2_0, View.ld_unit_zero (S := S128x128) hz2_0, View.ld_unit_zero (S := S1x128) hz2_0]

theorem canonB0_S1 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond0 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun0_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.2.2.2.1 = k0_pay1 (k0_pay4 x0 x1 x2 x3 x4 x5) xs1 := by
  unfold kernelRun0_B
  dsimp only
  sl_unfold_words
  first
    | rw [View.canon_unit_zero hz2_0]
    | rw [View.canon_cons_unit_zero hz2_0]
  simp only [View.readCov_cons_unit_zero (S := S1x128) _ hz2_0, View.readAt_eq_ld, harg1.read_unread, harg2.read_unread, harg3.read_unread, harg4.read_unread, harg5.read_unread, harg6.read_unread, harg10.read_unread, harg11.read_unread,
    View.ld_unit_zero (S := S4000x128) hz2_0, View.ld_unit_zero (S := S128x128) hz2_0, View.ld_unit_zero (S := S1x128) hz2_0]

end Cert.KernelIdeal.Hand

end
-- ==== Proof.KI.PayOps.lean ====
/-
  The operations a block's value is built from, read at a row and a column, at the exact values.

  Each lemma reads ONE operation that is not lane-by-lane at an index written by its coordinates: the sum of a
  [4000, 128] block down its rows; the sum of a [4000, 64] block along each row; the product of a [4000, 128] block
  with a [128, 128] or [128, 64] matrix accumulated onto zero; a vector recast as one column; a column repeated along
  each row; and the two roots, which are lane-by-lane. With these a block's value at (row, column) is a formula in the entries of the arrays it was computed from.
-/
import proofs.«143586_j39599598469629_2_alg».proof.Proof.Gen.KernelIdeal.Skeleton
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-! ### Sums along one axis -/

/-- The sum of a [4000, 128] block down its rows, at column `q`: the sum over the 4000 rows of the entries of that
    column. -/
theorem sumRows_apply (t : FVec Ideal S4000x128 .f32) (h : S4000x128.Reduces [0] S128) (hφ : FKind.Formats .f32)
    (hacc : (0x00000000#32 : BitVec 32) = 0x00000000#32) (q : Fin 128) :
    multiReduction (F := Ideal) .add [0] S128 t 0x00000000#32 h hφ hacc (ix1 q) = ∑ p : Fin 4000, t (ix2 p q) := by
  refine (Ideal.multiReduction_add_single t 0x00000000#32 h hφ hacc (ix1 q)).trans ?_
  refine Finset.sum_congr rfl fun p _ => congrArg t (funext fun a => Fin.ext ?_)
  match a with
  | ⟨0, _⟩ => rfl
  | ⟨1, _⟩ => rfl

/-- The sum of a [4000, 64] block along each row, at row `p`: the sum over the 64 columns of the entries of that
    row. -/
theorem sumCols_apply (t : FVec Ideal S4000x64 .f32) (h : S4000x64.Reduces [1] S4000) (hφ : FKind.Formats .f32)
    (hacc : (0x00000000#32 : BitVec 32) = 0x00000000#32) (p : Fin 4000) :
    multiReduction (F := Ideal) .add [1] S4000 t 0x00000000#32 h hφ hacc (ix1 p) = ∑ c : Fin 64, t (ix2 p c) := by
  refine (Ideal.multiReduction_add_single t 0x00000000#32 h hφ hacc (ix1 p)).trans ?_
  refine Finset.sum_congr rfl fun c _ => congrArg t (funext fun a => Fin.ext ?_)
  match a with
  | ⟨0, _⟩ => rfl
  | ⟨1, _⟩ => rfl

/-! ### Products with a matrix, accumulated onto zero -/

/-- The left operand's row of the [4000, 128] × [128, 128] product is the result's row. -/
theorem lhs128_0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The right operand's column of the [4000, 128] × [128, 128] product is the result's column. -/
theorem rhs128_1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A [4000, 128] block times a [128, 128] matrix, accumulated onto zero, at (`p`, `q`): the sum over the 128 inner
    positions of the products of row `p` of the block with column `q` of the matrix. -/
theorem matmul128_apply {φ₁ φ₂ : FTy} (a : FVec Ideal S4000x128 φ₁) (w : FVec Ideal S128x128 φ₂) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k :=
    funext fun c => Fin.ext (by
      match c with
      | ⟨0, _⟩ => exact lhs128_0 _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 p q)
      ((contrEquiv1 dot_S4000x128_S128x128_S4000x128_1_0_0_1_n_n 128 rfl rfl).symm k) = ix2 k q :=
    funext fun c => Fin.ext (by
      match c with
      | ⟨0, _⟩ => exact (dot_S4000x128_S128x128_S4000x128_1_0_0_1_n_n.rhsIdx_val_of_single rfl _ _).trans hk
      | ⟨1, _⟩ => exact rhs128_1 _ _)
  rw [el, er]

/-- The left operand's row of the [4000, 128] × [128, 64] product is the result's row. -/
theorem lhs64_0 (i : S4000x64.Idx) (k : dot_S4000x128_S128x64_S4000x64_1_0_0_1_n_n.contr.Idx) :
    (dot_S4000x128_S128x64_S4000x64_1_0_0_1_n_n.lhsIdx i k 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

/-- The right operand's column of the [4000, 128] × [128, 64] product is the result's column. -/
theorem rhs64_1 (i : S4000x64.Idx) (k : dot_S4000x128_S128x64_S4000x64_1_0_0_1_n_n.contr.Idx) :
    (dot_S4000x128_S128x64_S4000x64_1_0_0_1_n_n.rhsIdx i k 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- A [4000, 128] block times a [128, 64] matrix, accumulated onto zero, at (`p`, `j`): the sum over the 128 inner
    positions of the products of row `p` of the block with column `j` of the matrix. -/
theorem matmul64_apply {φ₁ φ₂ : FTy} (a : FVec Ideal S4000x128 φ₁) (w : FVec Ideal S128x64 φ₂) (p : Fin 4000) (j : Fin 64) :
    matmul dot_S4000x128_S128x64_S4000x64_1_0_0_1_n_n none a w (constant (F := Ideal) S4000x64 .f32 0x00000000#32) (ix2 p j)
      = ∑ k : Fin 128, a (ix2 p k) * w (ix2 k j) := by
  refine (Ideal.matmul_constant_zero_apply dot_S4000x128_S128x64_S4000x64_1_0_0_1_n_n none a w (ix2 p j)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p j)
      ((contrEquiv1 dot_S4000x128_S128x64_S4000x64_1_0_0_1_n_n 128 rfl rfl).symm k) = ix2 p k :=
    funext fun c => Fin.ext (by
      match c with
      | ⟨0, _⟩ => exact lhs64_0 _ _
      | ⟨1, _⟩ => exact (dot_S4000x128_S128x64_S4000x64_1_0_0_1_n_n.lhsIdx_val_of_single rfl _ _).trans hk)
  have er : dot_S4000x128_S128x64_S4000x64_1_0_0_1_n_n.rhsIdx (ix2 p j)
      ((contrEquiv1 dot_S4000x128_S128x64_S4000x64_1_0_0_1_n_n 128 rfl rfl).symm k) = ix2 k j :=
    funext fun c => Fin.ext (by
      match c with
      | ⟨0, _⟩ => exact (dot_S4000x128_S128x64_S4000x64_1_0_0_1_n_n.rhsIdx_val_of_single rfl _ _).trans hk
      | ⟨1, _⟩ => exact rhs64_1 _ _)
  rw [el, er]

/-! ### The two roots, lane by lane -/

/-- The reciprocal square root of a vector reads, at an index, the exact reciprocal square root of the entry. -/
theorem rsqrt_apply {s : Shape} {φ : FTy} (a : FVec Ideal s φ) (i : s.Idx) : rsqrt a i = Ideal.rsqrt (a i) := rfl

/-- The square root of a vector reads, at an index, the exact square root of the entry. -/
theorem sqrt_apply {s : Shape} {φ : FTy} (a : FVec Ideal s φ) (i : s.Idx) : sqrt a i = Ideal.sqrt (a i) := rfl

/-! ### A vector as one column, and a column repeated along each row -/

/-- An `[a]` array recast as the one column `[a, 1]` reads, at (`i`, `u`), the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along each row of `[a, b]` reads, at (`p`, `c`), the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Hand

end
-- ==== Proof.Spec.lean ====
/-
  The function both programs compute, on extended reals, over arrays indexed by plain coordinates.

  A graph-isomorphism layer takes node features `x` (100000 rows of 128), adds to each row the sum of its neighbours'
  rows (`Agg x`: a gather along the edges' sources followed by a segment sum over their targets — kept as ONE
  function of `x`, the same on both sides), applies a two-layer perceptron with a rectification in the middle, and
  normalises every feature over the 100000 rows (subtract the mean, multiply by the reciprocal square root of the
  variance plus ε, scale, shift), rectified. Two such layers, then a linear projection to 64 features whose rows are
  divided by their Euclidean norm floored at a tiny constant.

  The two programs differ in ONE place: the variance. One keeps the running sum `S` and sum of squares `Q` and
  uses max(Q/n − (S/n)², 0) (`varRaw`); the other subtracts the mean first and averages the squared deviations
  (`varCentered`). `kernelForm` and `referenceForm` are the whole function with the one and with the other.
-/
import Idealize.ShloMosaic.PureOps.Ideal

noncomputable section

namespace Cert.Spec

open Idealize.ShloMosaic

/-- An array of 100000 rows and `q` columns. -/
abbrev Arr (q : ℕ) := Fin 100000 → Fin q → EReal

/-- The number of rows as the programs spell it (the word of 100000.0). -/
def wN : EReal := Ideal.ofBits .f32 0x47C35000#32
/-- The ε of the normalisation (the word both programs carry). -/
def wEps : EReal := Ideal.ofBits .f32 0x3727C5AC#32
/-- The floor of the row norm (the word both programs carry). -/
def wTiny : EReal := Ideal.ofBits .f32 0x2B8CBCCC#32

/-- A linear layer: rows of `a` times `w`, plus the bias row. -/
def lin {p q : ℕ} (a : Arr p) (w : Fin p → Fin q → EReal) (b : Fin q → EReal) : Arr q :=
  fun i j => (∑ k, a i k * w k j) + b j

/-- The rectification. -/
def relu (v : EReal) : EReal := max v 0

/-- The two-layer perceptron. -/
def mlp (a : Arr 128) (w1 : Fin 128 → Fin 128 → EReal) (b1 : Fin 128 → EReal) (w2 : Fin 128 → Fin 128 → EReal)
    (b2 : Fin 128 → EReal) : Arr 128 :=
  lin (fun i k => relu (lin a w1 b1 i k)) w2 b2

/-- The mean of each column. -/
def colMean (t : Arr 128) : Fin 128 → EReal := fun j => Ideal.div (∑ i, t i j) wN

/-- The variance of each column from the raw moments, floored at zero. -/
def varRaw (t : Arr 128) : Fin 128 → EReal :=
  fun j => max (Ideal.div (∑ i, t i j * t i j) wN - colMean t j * colMean t j) 0

/-- The variance of each column as the mean of the squared deviations. -/
def varCentered (t : Arr 128) : Fin 128 → EReal :=
  fun j => Ideal.div (∑ i, (t i j - colMean t j) * (t i j - colMean t j)) wN

/-- Normalise, scale, shift, rectify. -/
def normRelu (t : Arr 128) (mean var g be : Fin 128 → EReal) : Arr 128 :=
  fun i j => relu ((t i j - mean j) * Ideal.rsqrt (var j + wEps) * g j + be j)

/-- What the perceptron is applied to: each row plus the sum of its neighbours' rows. -/
def withNeighbours (Agg : Arr 128 → Arr 128) (x : Arr 128) : Arr 128 := fun i j => x i j + Agg x i j

/-- One layer, the variance from the raw moments. -/
def layerRaw (Agg : Arr 128 → Arr 128) (x : Arr 128) (w1 : Fin 128 → Fin 128 → EReal) (b1 : Fin 128 → EReal)
    (w2 : Fin 128 → Fin 128 → EReal) (b2 g be : Fin 128 → EReal) : Arr 128 :=
  normRelu (mlp (withNeighbours Agg x) w1 b1 w2 b2) (colMean (mlp (withNeighbours Agg x) w1 b1 w2 b2))
    (varRaw (mlp (withNeighbours Agg x) w1 b1 w2 b2)) g be

/-- One layer, the variance from the squared deviations. -/
def layerCentered (Agg : Arr 128 → Arr 128) (x : Arr 128) (w1 : Fin 128 → Fin 128 → EReal) (b1 : Fin 128 → EReal)
    (w2 : Fin 128 → Fin 128 → EReal) (b2 g be : Fin 128 → EReal) : Arr 128 :=
  normRelu (mlp (withNeighbours Agg x) w1 b1 w2 b2) (colMean (mlp (withNeighbours Agg x) w1 b1 w2 b2))
    (varCentered (mlp (withNeighbours Agg x) w1 b1 w2 b2)) g be

/-- The projection with unit rows: each row of `h·wp + bp` over its norm floored at `wTiny`. -/
def project (h : Arr 128) (wp : Fin 128 → Fin 64 → EReal) (bp : Fin 64 → EReal) : Arr 64 :=
  fun i j => Ideal.div (lin h wp bp i j) (max (Ideal.sqrt (∑ c, lin h wp bp i c * lin h wp bp i c)) wTiny)

/-- The whole function with the raw-moment variance. -/
def kernelForm (Agg : Arr 128 → Arr 128) (x : Arr 128)
    (w1_0 : Fin 128 → Fin 128 → EReal) (b1_0 : Fin 128 → EReal) (w2_0 : Fin 128 → Fin 128 → EReal) (b2_0 g0 be0 : Fin 128 → EReal)
    (w1_1 : Fin 128 → Fin 128 → EReal) (b1_1 : Fin 128 → EReal) (w2_1 : Fin 128 → Fin 128 → EReal) (b2_1 g1 be1 : Fin 128 → EReal)
    (wp : Fin 128 → Fin 64 → EReal) (bp : Fin 64 → EReal) : Arr 64 :=
  project (layerRaw Agg (layerRaw Agg x w1_0 b1_0 w2_0 b2_0 g0 be0) w1_1 b1_1 w2_1 b2_1 g1 be1) wp bp

/-- The whole function with the squared-deviation variance. -/
def referenceForm (Agg : Arr 128 → Arr 128) (x : Arr 128)
    (w1_0 : Fin 128 → Fin 128 → EReal) (b1_0 : Fin 128 → EReal) (w2_0 : Fin 128 → Fin 128 → EReal) (b2_0 g0 be0 : Fin 128 → EReal)
    (w1_1 : Fin 128 → Fin 128 → EReal) (b1_1 : Fin 128 → EReal) (w2_1 : Fin 128 → Fin 128 → EReal) (b2_1 g1 be1 : Fin 128 → EReal)
    (wp : Fin 128 → Fin 64 → EReal) (bp : Fin 64 → EReal) : Arr 64 :=
  project (layerCentered Agg (layerCentered Agg x w1_0 b1_0 w2_0 b2_0 g0 be0) w1_1 b1_1 w2_1 b2_1 g1 be1) wp bp

end Cert.Spec

end
-- ==== Proof.KI.Pay0.lean ====
/-
  Region 0 (the first layer's perceptron and its column moments): the values it writes, at a row and a column.

  The block written is, at (row `p`, column `q`), the two-layer perceptron of the row `x p + agg p`:
  ∑ₖ max(∑ₗ (x p l + agg p l) · w1 l k + b1 k, 0) · w2 k q + b2 q. The two accumulator rows start at zero; one gains the
  block's column sums, the other the column sums of the squares of a block's entries.
-/
import proofs.«143586_j39599598469629_2_alg».proof.Proof.KI.PayOps
import proofs.«143586_j39599598469629_2_alg».proof.Proof.Spec

noncomputable section

namespace Cert.KernelIdeal.Hand

open Idealize.ShloMosaic Idealize.ShloMosaic.ValueIdx Cert.KernelIdeal Cert.KernelIdeal.Gen

/-- The block of region 0 at (`p`, `q`): the perceptron of row `p` of `x + agg`, at column `q`. -/
theorem pay0_pre (x agg : FVec Ideal S4000x128 .f32) (w1 : FVec Ideal S128x128 .f32) (b1 : FVec Ideal S1x128 .f32)
    (w2 : FVec Ideal S128x128 .f32) (b2 : FVec Ideal S1x128 .f32) (p : Fin 4000) (q : Fin 128) :
    k0_pay4 x agg w1 b1 w2 b2 (ix2 p q)
      = (∑ k : Fin 128, max ((∑ l : Fin 128, (x (ix2 p l) + agg (ix2 p l)) * w1 (ix2 l k)) + b1 (ix2 0 k)) 0 * w2 (ix2 k q))
          + b2 (ix2 0 q) := by
  unfold k0_pay4
  simp only [addf_apply, maximumf_apply, truncf_apply, broadcast_apply, shapeCast_self, matmul128_apply,
    broadcastTo_1b_ab_apply, Ideal.ofBits_def, Ideal.ofBits_zero_f32]

/-- The running column sums of region 0 at column `q`: the row read plus the sum of the block's column `q`. -/
theorem pay0_sum (x agg : FVec Ideal S4000x128 .f32) (w1 : FVec Ideal S128x128 .f32) (b1 : FVec Ideal S1x128 .f32)
    (w2 : FVec Ideal S128x128 .f32) (b2 : FVec Ideal S1x128 .f32) (s : FVec Ideal S1x128 .f32) (q : Fin 128) :
    k0_pay5 x agg w1 b1 w2 b2 s (ix2 0 q) = s (ix2 0 q) + ∑ p : Fin 4000, k0_pay4 x agg w1 b1 w2 b2 (ix2 p q) := by
  unfold k0_pay5
  rw [shapeCast_self, addf_apply, shapeCast_a_1a_apply]
  exact congrArg (s (ix2 0 q) + ·) (sumRows_apply _ _ _ _ q)

/-- The running column sums of squares of region 0 at column `q`: the row read plus the sum of the squares of the
    block's column `q`. -/
theorem pay0_sumsq (t : FVec Ideal S4000x128 .f32) (s : FVec Ideal S1x128 .f32) (q : Fin 128) :
    k0_pay1 t s (ix2 0 q) = s (ix2 0 q) + ∑ p : Fin 4000, t (ix2 p q) * t (ix2 p q) := by
  unfold k0_pay1
  rw [shapeCast_self, addf_apply, shapeCast_a_1a_apply]
  exact congrArg (s (ix2 0 q) + ·)
    ((sumRows_apply _ _ _ _ q).trans (Finset.sum_congr rfl fun p _ => mulf_apply t t (ix2 p q)))

/-- The first accumulator row of region 0 starts at zero. -/
theorem pay0_zero_a (q : Fin 128) : k0_pay2 (F := Ideal) (ix2 0 q) = 0 := by
  unfold k0_pay2
  rw [shapeCast_self, broadcast_apply]
  exact Ideal.ofBits_zero_f32

/-- The second accumulator row of region 0 starts at zero. -/
theorem pay0_zero_b (q : Fin 128) : k0_pay3 (F := Ideal) (ix2 0 q) = 0 := by
  unfold k0_pay3
  rw [shapeCast_self, broadcast_apply]
  exact Ideal.ofBits_zero_f32

end Cert.KernelIdeal.Hand

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.KI.Value0.lean ====
/-
  Region 0: the values. Grid point t handles rows 4000·t … 4000·t + 3999 of the two big inputs and of the big output,
  and the whole of the four small inputs. So the big output ends holding, row by row, the perceptron's output of the
  rows of the inputs; and the two running rows, which add one block's column sums per grid point starting from zero
  rows, end holding the column sums over all 100000 rows of that output and of its squares — a sum taken block by block
  is the whole sum, by associativity and commutativity alone.
-/
import proofs.«143586_j39599598469629_2_alg».proof.Proof.KI.Pieces0
import proofs.«143586_j39599598469629_2_alg».proof.Proof.KI.Pay0
import proofs.«143586_j39599598469629_2_alg».proof.Proof.LibBlockedSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open BlockedSum

section Value0

variable (V : (c : Dev nD) → (b : Ref sig .tc) → Buf (Elt Ideal) ((c : Thread nD τ).loc b))

theorem h100k_0 : 0 < 100000 := by norm_num
theorem hblocks_0 : 25 * 4000 = 100000 := by norm_num

/-- The printed index maps over the grid: the big windows' block index is the grid position on the row axis, the small
    windows' is zero. -/
theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The perceptron's output at row `p`, column `q`, of given arrays. -/
def preOf0 (X A : S100000x128.Idx → EReal) (W1 : S128x128.Idx → EReal) (B1 : S1x128.Idx → EReal) (W2 : S128x128.Idx → EReal)
    (B2 : S1x128.Idx → EReal) (p : Fin 100000) (q : Fin 128) : EReal :=
  (∑ k : Fin 128, max ((∑ l : Fin 128, (X (ix2 p l) + A (ix2 p l)) * W1 (ix2 l k)) + B1 (ix2 0 k)) 0 * W2 (ix2 k q)) + B2 (ix2 0 q)

/-- The same from the arrays as the region finds them. -/
def pre0 (c : Dev nD) (p : Fin 100000) (q : Fin 128) : EReal :=
  preOf0 (V c main_arg0) (V c main_v15) (V c main_arg2) (V c main_v16) (V c main_arg4) (V c main_v17) p q

/-- A big input's block at point `t` is rows 4000·t … of its array. -/
theorem blk0_0 (c : Dev nD) (t : Fin cfg0.N) (r : Fin 4000) (l : Fin 128) :
    (iblk0 V c 0 t : S4000x128.Idx → EReal) (ix2 r l) = (V c main_arg0 : S100000x128.Idx → EReal) (ix2 (blkIdx h100k_0 4000 t.val r) l) := by
  have ht : t.val < 25 := lt_of_lt_of_eq t.isLt N_0
  obtain ⟨e0, e1, -⟩ := idx0_facts t
  show (V c main_arg0 : S100000x128.Idx → EReal) (((cfg0.win 0).blk t).view.emb (ix2 r l)) = _
  refine congrArg _ ?_
  funext a; apply Fin.ext
  match a with
  | ⟨0, _⟩ => show win0_0.index t (0 : Fin 2) * 4000 + 1 * r.val = (blkIdx h100k_0 4000 t.val r).val; rw [blkIdx_val h100k_0 hblocks_0 ht r, e0]; omega
  | ⟨1, _⟩ => show win0_0.index t (1 : Fin 2) * 128 + 1 * l.val = l.val; rw [e1]; omega

theorem blk0_1 (c : Dev nD) (t : Fin cfg0.N) (r : Fin 4000) (l : Fin 128) :
    (iblk0 V c 1 t : S4000x128.Idx → EReal) (ix2 r l) = (V c main_v15 : S100000x128.Idx → EReal) (ix2 (blkIdx h100k_0 4000 t.val r) l) := by
  have ht : t.val < 25 := lt_of_lt_of_eq t.isLt N_0
  obtain ⟨-, -, e0, e1, -⟩ := idx0_facts t
  show (V c main_v15 : S100000x128.Idx → EReal) (((cfg0.win 1).blk t).view.emb (ix2 r l)) = _
  refine congrArg _ ?_
  funext a; apply Fin.ext
  match a with
  | ⟨0, _⟩ => show win0_1.index t (0 : Fin 2) * 4000 + 1 * r.val = (blkIdx h100k_0 4000 t.val r).val; rw [blkIdx_val h100k_0 hblocks_0 ht r, e0]; omega
  | ⟨1, _⟩ => show win0_1.index t (1 : Fin 2) * 128 + 1 * l.val = l.val; rw [e1]; omega

/-- A small input's block at every point is its whole array. -/
theorem blk0_2 (c : Dev nD) (t : Fin cfg0.N) (a : Fin 128) (b : Fin 128) :
    (iblk0 V c 2 t : S128x128.Idx → EReal) (ix2 a b) = (V c main_arg2 : S128x128.Idx → EReal) (ix2 a b) := by
  obtain ⟨-, -, -, -, e0, e1, -⟩ := idx0_facts t
  show (V c main_arg2 : S128x128.Idx → EReal) (((cfg0.win 2).blk t).view.emb (ix2 a b)) = _
  refine congrArg _ ?_
  funext d; apply Fin.ext
  match d with
  | ⟨0, _⟩ => show win0_2.index t (0 : Fin 2) * 128 + 1 * a.val = a.val; rw [e0]; omega
  | ⟨1, _⟩ => show win0_2.index t (1 : Fin 2) * 128 + 1 * b.val = b.val; rw [e1]; omega

theorem blk0_3 (c : Dev nD) (t : Fin cfg0.N) (a : Fin 1) (b : Fin 128) :
    (iblk0 V c 3 t : S1x128.Idx → EReal) (ix2 a b) = (V c main_v16 : S1x128.Idx → EReal) (ix2 a b) := by
  obtain ⟨-, -, -, -, -, -, e0, e1, -⟩ := idx0_facts t
  show (V c main_v16 : S1x128.Idx → EReal) (((cfg0.win 3).blk t).view.emb (ix2 a b)) = _
  refine congrArg _ ?_
  funext d; apply Fin.ext
  match d with
  | ⟨0, _⟩ => show win0_3.index t (0 : Fin 2) * 1 + 1 * a.val = a.val; rw [e0]; omega
  | ⟨1, _⟩ => show win0_3.index t (1 : Fin 2) * 128 + 1 * b.val = b.val; rw [e1]; omega

theorem blk0_4 (c : Dev nD) (t : Fin cfg0.N) (a : Fin 128) (b : Fin 128) :
    (iblk0 V c 4 t : S128x128.Idx → EReal) (ix2 a b) = (V c main_arg4 : S128x128.Idx → EReal) (ix2 a b) := by
  obtain ⟨-, -, -, -, -, -, -, -, e0, e1, -⟩ := idx0_facts t
  show (V c main_arg4 : S128x128.Idx → EReal) (((cfg0.win 4).blk t).view.emb (ix2 a b)) = _
  refine congrArg _ ?_
  funext d; apply Fin.ext
  match d with
  | ⟨0, _⟩ => show win0_4.index t (0 : Fin 2) * 128 + 1 * a.val = a.val; rw [e0]; omega
  | ⟨1, _⟩ => show win0_4.index t (1 : Fin 2) * 128 + 1 * b.val = b.val; rw [e1]; omega

theorem blk0_5 (c : Dev nD) (t : Fin cfg0.N) (a : Fin 1) (b : Fin 128) :
    (iblk0 V c 5 t : S1x128.Idx → EReal) (ix2 a b) = (V c main_v17 : S1x128.Idx → EReal) (ix2 a b) := by
  obtain ⟨-, -, -, -, -, -, -, -, -, -, e0, e1, -⟩ := idx0_facts t
  show (V c main_v17 : S1x128.Idx → EReal) (((cfg0.win 5).blk t).view.emb (ix2 a b)) = _
  refine congrArg _ ?_
  funext d; apply Fin.ext
  match d with
  | ⟨0, _⟩ => show win0_5.index t (0 : Fin 2) * 1 + 1 * a.val = a.val; rw [e0]; omega
  | ⟨1, _⟩ => show win0_5.index t (1 : Fin 2) * 128 + 1 * b.val = b.val; rw [e1]; omega

/-- The perceptron's block at point `t`, row `r`, is the perceptron's output at row 4000·t + r. -/
theorem payblk0 (c : Dev nD) (t : Fin cfg0.N) (r : Fin 4000) (q : Fin 128) :
    k0_pay4 (F := Ideal) (iblk0 V c 0 t) (iblk0 V c 1 t) (iblk0 V c 2 t) (iblk0 V c 3 t) (iblk0 V c 4 t) (iblk0 V c 5 t) (ix2 r q)
      = pre0 V c (blkIdx h100k_0 4000 t.val r) q := by
  refine (pay0_pre (iblk0 V c 0 t) (iblk0 V c 1 t) (iblk0 V c 2 t) (iblk0 V c 3 t) (iblk0 V c 4 t) (iblk0 V c 5 t) r q).trans ?_
  unfold pre0 preOf0
  simp only [blk0_0 V c t, blk0_1 V c t, blk0_2 V c t, blk0_3 V c t, blk0_4 V c t, blk0_5 V c t]

/-- The output block after the body at point `t`: the perceptron's output at rows 4000·t …. -/
theorem outs6_0 (c : Dev nD) (t : Fin cfg0.N) (r : Fin 4000) (q : Fin 128) :
    ((outsAt0 V c t.val t.isLt).1 : S4000x128.Idx → EReal) (ix2 r q) = pre0 V c (blkIdx h100k_0 4000 t.val r) q := by
  by_cases hz : t.val = 0
  · rw [outsAt0_A V c t hz]; unfold outA0; dsimp only
    rw [canonA0_6]
    exact payblk0 V c t r q
  · rw [outsAt0_B V c t hz]; unfold outB0; dsimp only
    rw [canonB0_6]
    exact payblk0 V c t r q

/-- The first running row after point `n`: the column sums of the perceptron's output over the blocks 0 … n. -/
theorem scrSum_0 (c : Dev nD) : ∀ (n : ℕ) (hn : n < cfg0.N) (q : Fin 128),
    ((outsAt0 V c n hn).2.2.2.1 : S1x128.Idx → EReal) (ix2 0 q) = partialSum h100k_0 4000 (fun p => pre0 V c p q) n
  | 0, hn, q => by
    show ((outA0 V c ⟨0, hn⟩ ((hcond0 ⟨0, hn⟩).mpr rfl)).2.2.2.1 : S1x128.Idx → EReal) (ix2 0 q) = _
    unfold outA0; dsimp only
    rw [canonA0_S0]
    refine (pay0_sum (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (k0_pay2 (F := Ideal)) q).trans ?_
    rw [pay0_zero_a, zero_add, partialSum_zero]
    unfold blockSum
    exact Finset.sum_congr rfl fun r _ => payblk0 V c ⟨0, hn⟩ r q
  | n + 1, hn, q => by
    show ((outB0 V c ⟨n + 1, hn⟩ (fun h => Nat.succ_ne_zero n ((hcond0 ⟨n + 1, hn⟩).mp h))
      (outsAt0 V c n (Nat.lt_of_succ_lt hn)).2.2.2.1 (outsAt0 V c n (Nat.lt_of_succ_lt hn)).2.2.2.2).2.2.2.1 : S1x128.Idx → EReal) (ix2 0 q) = _
    unfold outB0; dsimp only
    rw [canonB0_S0]
    refine (pay0_sum (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2.2.2.1 q).trans ?_
    rw [scrSum_0 c n (Nat.lt_of_succ_lt hn) q, partialSum_succ]
    unfold blockSum
    exact congrArg _ (Finset.sum_congr rfl fun r _ => payblk0 V c ⟨n + 1, hn⟩ r q)

/-- The second running row after point `n`: the column sums of the squares over the blocks 0 … n. -/
theorem scrSq_0 (c : Dev nD) : ∀ (n : ℕ) (hn : n < cfg0.N) (q : Fin 128),
    ((outsAt0 V c n hn).2.2.2.2 : S1x128.Idx → EReal) (ix2 0 q) = partialSum h100k_0 4000 (fun p => pre0 V c p q * pre0 V c p q) n
  | 0, hn, q => by
    show ((outA0 V c ⟨0, hn⟩ ((hcond0 ⟨0, hn⟩).mpr rfl)).2.2.2.2 : S1x128.Idx → EReal) (ix2 0 q) = _
    unfold outA0; dsimp only
    rw [canonA0_S1]
    refine (pay0_sumsq (k0_pay4 (F := Ideal) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (k0_pay3 (F := Ideal)) q).trans ?_
    rw [pay0_zero_b, zero_add, partialSum_zero]
    unfold blockSum
    exact Finset.sum_congr rfl fun r _ => by rw [payblk0 V c ⟨0, hn⟩ r q]
  | n + 1, hn, q => by
    show ((outB0 V c ⟨n + 1, hn⟩ (fun h => Nat.succ_ne_zero n ((hcond0 ⟨n + 1, hn⟩).mp h))
      (outsAt0 V c n (Nat.lt_of_succ_lt hn)).2.2.2.1 (outsAt0 V c n (Nat.lt_of_succ_lt hn)).2.2.2.2).2.2.2.2 : S1x128.Idx → EReal) (ix2 0 q) = _
    unfold outB0; dsimp only
    rw [canonB0_S1]
    refine (pay0_sumsq (k0_pay4 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (outsAt0 V c n (Nat.lt_of_succ_lt hn)).2.2.2.2 q).trans ?_
    rw [scrSq_0 c n (Nat.lt_of_succ_lt hn) q, partialSum_succ]
    unfold blockSum
    exact congrArg _ (Finset.sum_congr rfl fun r _ => by rw [payblk0 V c ⟨n + 1, hn⟩ r q])

set_option maxHeartbeats 4000000 in
/-- The two small outputs hold the same rows as the running rows (each is a copy of the row just stored). -/
theorem out7_eq_0 (c : Dev nD) (n : ℕ) (hn : n < cfg0.N) : (outsAt0 V c n hn).2.1 = (outsAt0 V c n hn).2.2.2.1 := by
  by_cases hz : n = 0
  · rw [(outsAt0_A V c ⟨n, hn⟩ hz : outsAt0 V c n hn = _)]
    unfold outA0; dsimp only
    rw [canonA0_7, canonA0_S0]
  · rw [(outsAt0_B V c ⟨n, hn⟩ hz : outsAt0 V c n hn = _)]
    unfold outB0; dsimp only
    rw [canonB0_7, canonB0_S0]

set_option maxHeartbeats 4000000 in
theorem out8_eq_0 (c : Dev nD) (n : ℕ) (hn : n < cfg0.N) : (outsAt0 V c n hn).2.2.1 = (outsAt0 V c n hn).2.2.2.2 := by
  by_cases hz : n = 0
  · rw [(outsAt0_A V c ⟨n, hn⟩ hz : outsAt0 V c n hn = _)]
    unfold outA0; dsimp only
    rw [canonA0_8, canonA0_S1]
  · rw [(outsAt0_B V c ⟨n, hn⟩ hz : outsAt0 V c n hn = _)]
    unfold outB0; dsimp only
    rw [canonB0_8, canonB0_S1]

/-- After the last point the running rows hold the column sums over all the rows. -/
theorem lastSum_0 (c : Dev nD) (n : ℕ) (hn : n < cfg0.N) (hlast : n + 1 = 25) (q : Fin 128) :
    ((outsAt0 V c n hn).2.1 : S1x128.Idx → EReal) (ix2 0 q) = ∑ p : Fin 100000, pre0 V c p q := by
  rw [out7_eq_0, scrSum_0 V c n hn q]
  exact partialSum_last h100k_0 hblocks_0 _ hlast

theorem lastSq_0 (c : Dev nD) (n : ℕ) (hn : n < cfg0.N) (hlast : n + 1 = 25) (q : Fin 128) :
    ((outsAt0 V c n hn).2.2.1 : S1x128.Idx → EReal) (ix2 0 q) = ∑ p : Fin 100000, pre0 V c p q * pre0 V c p q := by
  rw [out8_eq_0, scrSq_0 V c n hn q]
  exact partialSum_last h100k_0 hblocks_0 _ hlast

/-! ### The arrays after the region -/

/-- The perceptron's output as an array, and the column sums of it and of its squares as rows. -/
def preArr0 (c : Dev nD) : S100000x128.Idx → EReal := fun i => pre0 V c (i 0) (i 1)
def sumArr0 (c : Dev nD) : S1x128.Idx → EReal := fun i => ∑ p : Fin 100000, pre0 V c p (i 1)
def sqArr0 (c : Dev nD) : S1x128.Idx → EReal := fun i => ∑ p : Fin 100000, pre0 V c p (i 1) * pre0 V c p (i 1)

/-- Entry (`a`, `b`) of point `t`'s block of the big output is entry (4000·t + a, b) of the array. -/
theorem emb0_6 (t : Fin cfg0.N) (a : Fin 4000) (b : Fin 128) :
    (((cfg0.win 6).blk t).view.emb (ix2 a b) : S100000x128.Idx) = ix2 (blkIdx h100k_0 4000 t.val a) b := by
  have ht : t.val < 25 := lt_of_lt_of_eq t.isLt N_0
  obtain ⟨-, -, -, -, -, -, -, -, -, -, -, -, e0, e1, -⟩ := idx0_facts t
  refine funext fun ax => Fin.ext ?_
  match ax with
  | ⟨0, _⟩ => show win0_6.index t (0 : Fin 2) * 4000 + 1 * a.val = (blkIdx h100k_0 4000 t.val a).val; rw [blkIdx_val h100k_0 hblocks_0 ht a, e0]; omega
  | ⟨1, _⟩ => show win0_6.index t (1 : Fin 2) * 128 + 1 * b.val = b.val; omega

/-- What point `t` writes back to the big output is its block of the perceptron's output. -/
theorem flushed0_6_eq (c : Dev nD) (t : Fin cfg0.N) :
    (dat0 V c).flushed 6 t = ((cfg0.win 6).blk t).view.read (Elt Ideal) (preArr0 V c) := by
  show (cfg0.win 6).cut (grid0.coords t) ((dat0 V c).after 6 t) = _
  rw [after0_6]
  funext j
  obtain ⟨a, b, rfl⟩ : ∃ (a : Fin 4000) (b : Fin 128), j = ix2 a b := ⟨j 0, j 1, eq_ix2 j⟩
  show ((outsAt0 V c t.val t.isLt).1 : S4000x128.Idx → EReal) (ix2 a b) = preArr0 V c (((cfg0.win 6).blk t).view.emb (ix2 a b))
  rw [emb0_6 t a b]
  exact outs6_0 V c t a b

theorem mem_blk0_6 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v18_0).slice (win0_6.rect t)).set ↔ _
  rw [View.set_slice_whole, Rect.mem_set_unit]
  exact Iff.rfl

/-- Row r is in block r / 4000. -/
theorem covered0_6 (i : S100000x128.Idx) :
    ∃ t : Fin cfg0.N, (cfg0.win 6).flush t = true ∧ i ∈ ((cfg0.win 6).blk t).view.set := by
  have hN : cfg0.N = 25 := N_0
  have hi0 : (i 0).val < 100000 := (i 0).isLt
  have hi1 : (i 1).val < 128 := (i 1).isLt
  obtain ⟨t, ht⟩ : ∃ t : Fin cfg0.N, t.val = (i 0).val / 4000 := ⟨⟨(i 0).val / 4000, by omega⟩, rfl⟩
  obtain ⟨-, -, -, -, -, -, -, -, -, -, -, -, e0, e1, -⟩ := idx0_facts t
  refine ⟨t, flush0_6 t, ?_⟩
  rw [mem_blk0_6]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

theorem arr0_6 (c : Dev nD) : (dat0 V c).arrAt 6 cfg0.N = preArr0 V c :=
  (dat0 V c).arrAt_eq_of_cover 6 (preArr0 V c) (fun t _ => flushed0_6_eq V c t) covered0_6

theorem final0_6 (c : Dev nD) (p : Fin 100000) (q : Fin 128) :
    ((dat0 V c).arrAt 6 cfg0.N : S100000x128.Idx → EReal) (ix2 p q) = pre0 V c p q := by
  rw [arr0_6]; rfl

theorem sumArr0_apply (c : Dev nD) (q : Fin 128) : sumArr0 V c (ix2 (0 : Fin 1) q) = ∑ p : Fin 100000, pre0 V c p q := rfl

/-- Entry (0, `b`) of a point's block of small output 7 is entry (0, `b`) of the array. -/
theorem emb0_7 (t : Fin cfg0.N) (b : Fin 128) :
    (((cfg0.win 7).blk t).view.emb (ix2 0 b) : S1x128.Idx) = ix2 0 b := by
  obtain ⟨-, -, -, -, -, -, -, -, -, -, -, -, -, -, e0, e1, -⟩ := idx0_facts t
  refine funext fun ax => Fin.ext ?_
  match ax with
  | ⟨0, _⟩ => show win0_7.index t (0 : Fin 2) * 1 + 1 * 0 = 0; omega
  | ⟨1, _⟩ => show win0_7.index t (1 : Fin 2) * 128 + 1 * b.val = b.val; omega

set_option maxRecDepth 400000 in
/-- It is written back only after the last point, and then holds the column sums over all the rows. -/
theorem flushed0_7_eq (c : Dev nD) (t : Fin cfg0.N) (hf : (cfg0.win 7).flush t = true) :
    (dat0 V c).flushed 7 t = ((cfg0.win 7).blk t).view.read (Elt Ideal) (sumArr0 V c) := by
  have hN : cfg0.N = 25 := N_0
  have ht : t.val + 1 = 25 := by have h1 := (flush0_7 t).mp hf; have h2 := t.isLt; omega
  show (cfg0.win 7).cut (grid0.coords t) ((dat0 V c).after 7 t) = _
  rw [after0_7]
  funext j
  obtain ⟨a, b, rfl⟩ : ∃ (a : Fin 1) (b : Fin 128), j = ix2 a b := ⟨j 0, j 1, eq_ix2 j⟩
  obtain rfl : a = 0 := Subsingleton.elim _ _
  have h2 : ((outsAt0 V c t.val t.isLt).2.1 : S1x128.Idx → EReal) (ix2 (0 : Fin 1) b) = ∑ p : Fin 100000, pre0 V c p b := lastSum_0 V c t.val t.isLt ht b
  have h3 : sumArr0 V c (((cfg0.win 7).blk t).view.emb (ix2 (0 : Fin 1) b)) = ∑ p : Fin 100000, pre0 V c p b :=
    (congrArg (sumArr0 V c) (emb0_7 t b)).trans (sumArr0_apply V c b)
  exact h2.trans h3.symm

theorem mem_blk0_7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v18_1).slice (win0_7.rect t)).set ↔ _
  rw [View.set_slice_whole, Rect.mem_set_unit]
  exact Iff.rfl

theorem covered0_7 (i : S1x128.Idx) :
    ∃ t : Fin cfg0.N, (cfg0.win 7).flush t = true ∧ i ∈ ((cfg0.win 7).blk t).view.set := by
  have hN : cfg0.N = 25 := N_0
  have hi0 : (i 0).val < 1 := (i 0).isLt
  have hi1 : (i 1).val < 128 := (i 1).isLt
  obtain ⟨t, ht⟩ : ∃ t : Fin cfg0.N, t.val = 24 := ⟨⟨24, by omega⟩, rfl⟩
  obtain ⟨-, -, -, -, -, -, -, -, -, -, -, -, -, -, e0, e1, -⟩ := idx0_facts t
  refine ⟨t, (flush0_7 t).mpr (by omega), ?_⟩
  rw [mem_blk0_7]
  intro a
  match a with
  | ⟨0, _⟩ =>
    show win0_7.index t (0 : Fin 2) * 1 ≤ (i 0).val ∧ (i 0).val < win0_7.index t (0 : Fin 2) * 1 + 1
    omega
  | ⟨1, _⟩ =>
    show win0_7.index t (1 : Fin 2) * 128 ≤ (i 1).val ∧ (i 1).val < win0_7.index t (1 : Fin 2) * 128 + 128
    omega

theorem arr0_7 (c : Dev nD) : (dat0 V c).arrAt 7 cfg0.N = sumArr0 V c :=
  (dat0 V c).arrAt_eq_of_cover 7 (sumArr0 V c) (fun t hf => flushed0_7_eq V c t hf) covered0_7

theorem final0_7 (c : Dev nD) (q : Fin 128) :
    ((dat0 V c).arrAt 7 cfg0.N : S1x128.Idx → EReal) (ix2 0 q) = ∑ p : Fin 100000, pre0 V c p q := by
  rw [arr0_7]; rfl

theorem sqArr0_apply (c : Dev nD) (q : Fin 128) : sqArr0 V c (ix2 (0 : Fin 1) q) = ∑ p : Fin 100000, pre0 V c p q * pre0 V c p q := rfl

/-- Entry (0, `b`) of a point's block of small output 8 is entry (0, `b`) of the array. -/
theorem emb0_8 (t : Fin cfg0.N) (b : Fin 128) :
    (((cfg0.win 8).blk t).view.emb (ix2 0 b) : S1x128.Idx) = ix2 0 b := by
  obtain ⟨-, -, -, -, -, -, -, -, -, -, -, -, -, -, -, -, e0, e1⟩ := idx0_facts t
  refine funext fun ax => Fin.ext ?_
  match ax with
  | ⟨0, _⟩ => show win0_8.index t (0 : Fin 2) * 1 + 1 * 0 = 0; omega
  | ⟨1, _⟩ => show win0_8.index t (1 : Fin 2) * 128 + 1 * b.val = b.val; omega

set_option maxRecDepth 400000 in
/-- It is written back only after the last point, and then holds the column sums of the squares over all the rows. -/
theorem flushed0_8_eq (c : Dev nD) (t : Fin cfg0.N) (hf : (cfg0.win 8).flush t = true) :
    (dat0 V c).flushed 8 t = ((cfg0.win 8).blk t).view.read (Elt Ideal) (sqArr0 V c) := by
  have hN : cfg0.N = 25 := N_0
  have ht : t.val + 1 = 25 := by have h1 := (flush0_8 t).mp hf; have h2 := t.isLt; omega
  show (cfg0.win 8).cut (grid0.coords t) ((dat0 V c).after 8 t) = _
  rw [after0_8]
  funext j
  obtain ⟨a, b, rfl⟩ : ∃ (a : Fin 1) (b : Fin 128), j = ix2 a b := ⟨j 0, j 1, eq_ix2 j⟩
  obtain rfl : a = 0 := Subsingleton.elim _ _
  have h2 : ((outsAt0 V c t.val t.isLt).2.2.1 : S1x128.Idx → EReal) (ix2 (0 : Fin 1) b) = ∑ p : Fin 100000, pre0 V c p b * pre0 V c p b := lastSq_0 V c t.val t.isLt ht b
  have h3 : sqArr0 V c (((cfg0.win 8).blk t).view.emb (ix2 (0 : Fin 1) b)) = ∑ p : Fin 100000, pre0 V c p b * pre0 V c p b :=
    (congrArg (sqArr0 V c) (emb0_8 t b)).trans (sqArr0_apply V c b)
  exact h2.trans h3.symm

theorem mem_blk0_8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v18_2).slice (win0_8.rect t)).set ↔ _
  rw [View.set_slice_whole, Rect.mem_set_unit]
  exact Iff.rfl

theorem covered0_8 (i : S1x128.Idx) :
    ∃ t : Fin cfg0.N, (cfg0.win 8).flush t = true ∧ i ∈ ((cfg0.win 8).blk t).view.set := by
  have hN : cfg0.N = 25 := N_0
  have hi0 : (i 0).val < 1 := (i 0).isLt
  have hi1 : (i 1).val < 128 := (i 1).isLt
  obtain ⟨t, ht⟩ : ∃ t : Fin cfg0.N, t.val = 24 := ⟨⟨24, by omega⟩, rfl⟩
  obtain ⟨-, -, -, -, -, -, -, -, -, -, -, -, -, -, -, -, e0, e1⟩ := idx0_facts t
  refine ⟨t, (flush0_8 t).mpr (by omega), ?_⟩
  rw [mem_blk0_8]
  intro a
  match a with
  | ⟨0, _⟩ =>
    show win0_8.index t (0 : Fin 2) * 1 ≤ (i 0).val ∧ (i 0).val < win0_8.index t (0 : Fin 2) * 1 + 1
    omega
  | ⟨1, _⟩ =>
    show win0_8.index t (1 : Fin 2) * 128 ≤ (i 1).val ∧ (i 1).val < win0_8.index t (1 : Fin 2) * 128 + 128
    omega

theorem arr0_8 (c : Dev nD) : (dat0 V c).arrAt 8 cfg0.N = sqArr0 V c :=
  (dat0 V c).arrAt_eq_of_cover 8 (sqArr0 V c) (fun t hf => flushed0_8_eq V c t hf) covered0_8

theorem final0_8 (c : Dev nD) (q : Fin 128) :
    ((dat0 V c).arrAt 8 cfg0.N : S1x128.Idx → EReal) (ix2 0 q) = ∑ p : Fin 100000, pre0 V c p q * pre0 V c p q := by
  rw [arr0_8]; rfl

/-- The input arrays are as the region found them. -/
theorem kept0_0 (c : Dev nD) : (dat0 V c).arrAt 0 cfg0.N = V c (Pipeline.arrRef spec0 0) :=
  ((dat0 V c).arrAt_in 0 rfl _).trans (A_eq0 V c 0)
theorem kept0_1 (c : Dev nD) : (dat0 V c).arrAt 1 cfg0.N = V c (Pipeline.arrRef spec0 1) :=
  ((dat0 V c).arrAt_in 1 rfl _).trans (A_eq0 V c 1)
theorem kept0_2 (c : Dev nD) : (dat0 V c).arrAt 2 cfg0.N = V c (Pipeline.arrRef spec0 2) :=
  ((dat0 V c).arrAt_in 2 rfl _).trans (A_eq0 V c 2)
theorem kept0_3 (c : Dev nD) : (dat0 V c).arrAt 3 cfg0.N = V c (Pipeline.arrRef spec0 3) :=
  ((dat0 V c).arrAt_in 3 rfl _).trans (A_eq0 V c 3)
theorem kept0_4 (c : Dev nD) : (dat0 V c).arrAt 4 cfg0.N = V c (Pipeline.arrRef spec0 4) :=
  ((dat0 V c).arrAt_in 4 rfl _).trans (A_eq0 V c 4)
theorem kept0_5 (c : Dev nD) : (dat0 V c).arrAt 5 cfg0.N = V c (Pipeline.arrRef spec0 5) :=
  ((dat0 V c).arrAt_in 5 rfl _).trans (A_eq0 V c 5)

end Value0

end Cert.KernelIdeal.Hand

end
-- ==== Proof.Ref.Fns.lean ====
/-
  The reference program's value as pure functions of its sixteen argument arrays, in the program's own operations:
  the neighbour aggregation (gather along the edges' sources, sum over their targets), the two-layer perceptron, the
  per-feature normalisation over the rows, and the projection whose rows are divided by their norm.
-/
import proofs.«143586_j39599598469629_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edges' sources: row 0 of the edge array as a vector. -/
def row0 (ei : IVec S2x1600000 32) : IVec S1600000 32 :=
  shapeCast S1600000 (extractStridedSlice S1x1600000 ![0, 0] ei slices_S2x1600000_S1x1600000_0_0) shapeCasts_S1x1600000_S1600000

/-- The edges' targets: row 1 of the edge array as a vector. -/
def row1 (ei : IVec S2x1600000 32) : IVec S1600000 32 :=
  shapeCast S1600000 (extractStridedSlice S1x1600000 ![1, 0] ei slices_S2x1600000_S1x1600000_1_0) shapeCasts_S1x1600000_S1600000

/-- A negative node number counts from the end: `select(idx < 0, idx + 100000, idx)`. -/
def wrapIdx (r : IVec S1600000 32) : IVec S1600000 32 :=
  select (cmpi .slt r (broadcastInDim S1600000 ![] bcast_S_S1600000 (constantI S_ 32 0#32)))
    (addi r (broadcastInDim S1600000 ![] bcast_S_S1600000 (constantI S_ 32 100000#32))) r

/-- A vector of node numbers as a column of one-element index vectors. -/
def col (r : IVec S1600000 32) : IVec S1600000x1 32 :=
  broadcastInDim S1600000x1 ![0] bcast_S1600000_S1600000x1_0 r

/-- The array of zeros. -/
def zeros128 : FVec F S100000x128 .f32 :=
  broadcastInDim S100000x128 ![] bcast_S_S100000x128 (constant S_ .f32 0x00000000#32)

/-- The neighbour aggregation: the rows of `a` gathered along the edges' sources (negative numbers wrapped), added
    into an array of zeros at the edges' targets. -/
def AggIdx (ei : IVec S2x1600000 32) (a : FVec F S100000x128 .f32) : FVec F S100000x128 .f32 :=
  Host.scatterAdd scatter_S100000x128_S1600000x1_S1600000x128_1_0_0_1 zeros128 (col (row1 ei))
    (Host.gather gather_S100000x128_S1600000x1_S1600000x128_1_0_n_n_0_1_1128 a (col (wrapIdx (row0 ei))))

/-- A row vector repeated down the 100000 rows. -/
def rows128 (b : FVec F S128 .f32) : FVec F S100000x128 .f32 :=
  broadcastInDim S100000x128 ![0, 1] bcast_S1x128_S100000x128_0_1 (broadcastInDim S1x128 ![1] bcast_S128_S1x128_1 b)

/-- A linear layer: `x · w` plus the bias row. -/
def lin128 (x : FVec F S100000x128 .f32) (w : FVec F S128x128 .f32) (b : FVec F S128 .f32) : FVec F S100000x128 .f32 :=
  addf (Host.dotGeneral dot_S100000x128_S128x128_S100000x128_1_0_0_1_n_n none x w) (rows128 b)

/-- The rectification: the maximum with zero. -/
def relu128 (x : FVec F S100000x128 .f32) : FVec F S100000x128 .f32 :=
  maximumf x zeros128

/-- The two-layer perceptron. -/
def mlpF (h : FVec F S100000x128 .f32) (w1 : FVec F S128x128 .f32) (b1 : FVec F S128 .f32) (w2 : FVec F S128x128 .f32)
    (b2 : FVec F S128 .f32) : FVec F S100000x128 .f32 :=
  lin128 (relu128 (lin128 h w1 b1)) w2 b2

/-- The perceptron's input and output of one layer: each row plus its neighbours' sum, through the perceptron. -/
def preF (ei : IVec S2x1600000 32) (x : FVec F S100000x128 .f32) (w1 : FVec F S128x128 .f32) (b1 : FVec F S128 .f32)
    (w2 : FVec F S128x128 .f32) (b2 : FVec F S128 .f32) : FVec F S100000x128 .f32 :=
  mlpF (addf x (AggIdx ei x)) w1 b1 w2 b2

/-- The sum of each column, from zero. -/
def colSum (t : FVec F S100000x128 .f32) : FVec F S128 .f32 :=
  Host.reduceAdd t (constant S_ .f32 0x00000000#32) reducesTo_S100000x128_S128_d0 h_S_

/-- The mean of each column: the sum over 100000. -/
def meanF (t : FVec F S100000x128 .f32) : FVec F S128 .f32 :=
  Host.divf (colSum t) (broadcastInDim S128 ![] bcast_S_S128 (constant S_ .f32 0x47C35000#32))

/-- The number of rows less the correction `float(0)`, as the variance's divisor. -/
def nCorr : FVec F S_ .f32 :=
  subf (constant S_ .f32 0x47C35000#32) (sitofp .f32 (constantI S_ 32 0#32))

/-- The deviations from the column means (the mean formed a second time, as a row). -/
def devF (t : FVec F S100000x128 .f32) : FVec F S100000x128 .f32 :=
  subf t (broadcastInDim S100000x128 ![0, 1] bcast_S1x128_S100000x128_0_1
    (Host.divf (broadcastInDim S1x128 ![1] bcast_S128_S1x128_1 (colSum t))
      (broadcastInDim S1x128 ![] bcast_S_S1x128 (constant S_ .f32 0x47C35000#32))))

/-- The variance of each column: the mean squared deviation where the divisor is positive, else not-a-number. -/
def varF (t : FVec F S100000x128 .f32) : FVec F S128 .f32 :=
  select (broadcastInDim S128 ![] bcast_S_S128 (cmpf .ogt (nCorr (F := F)) (constant (F := F) S_ .f32 0x00000000#32)))
    (Host.divf (colSum (mulf (devF t) (devF t))) (broadcastInDim S128 ![] bcast_S_S128 (nCorr (F := F))))
    (broadcastInDim S128 ![] bcast_S_S128 (id (constant (F := F) S_ .f32 0x7FC00000#32)))

/-- Normalise by the given column means and variances, scale, shift. -/
def normF (t : FVec F S100000x128 .f32) (mean var g be : FVec F S128 .f32) : FVec F S100000x128 .f32 :=
  addf (mulf (mulf (subf t (rows128 mean))
      (rows128 (Host.rsqrt (addf var (broadcastInDim S128 ![] bcast_S_S128 (constant S_ .f32 0x3727C5AC#32))))))
    (rows128 g)) (rows128 be)

/-- Normalise over the rows, scale, shift, rectify. -/
def bnF (t : FVec F S100000x128 .f32) (g be : FVec F S128 .f32) : FVec F S100000x128 .f32 :=
  relu128 (normF t (meanF t) (varF t) g be)

/-- One layer. -/
def layerF (ei : IVec S2x1600000 32) (x : FVec F S100000x128 .f32) (w1 : FVec F S128x128 .f32) (b1 : FVec F S128 .f32)
    (w2 : FVec F S128x128 .f32) (b2 g be : FVec F S128 .f32) : FVec F S100000x128 .f32 :=
  bnF (preF ei x w1 b1 w2 b2) g be

/-- The projection to 64 features. -/
def projF (h : FVec F S100000x128 .f32) (wp : FVec F S128x64 .f32) (bp : FVec F S64 .f32) : FVec F S100000x64 .f32 :=
  addf (Host.dotGeneral dot_S100000x128_S128x64_S100000x64_1_0_0_1_n_n none h wp)
    (broadcastInDim S100000x64 ![0, 1] bcast_S1x64_S100000x64_0_1 (broadcastInDim S1x64 ![1] bcast_S64_S1x64_1 bp))

/-- The Euclidean norm of each row, as a column: the square root of the row's sum of squares. -/
def rowNorm (p : FVec F S100000x64 .f32) : FVec F S100000x1 .f32 :=
  Host.sqrt (broadcastInDim S100000x1 ![0] bcast_S100000_S100000x1_0
    (Host.reduceAdd (mulf p p) (constant S_ .f32 0x00000000#32) reducesTo_S100000x64_S100000_d1 h_S_))

/-- Each row over its norm floored at the tiny constant. -/
def unitRows (p : FVec F S100000x64 .f32) : FVec F S100000x64 .f32 :=
  Host.divf p (broadcastInDim S100000x64 ![0, 1] bcast_S100000x1_S100000x64_0_1
    (maximumf (rowNorm p) (broadcastInDim S100000x1 ![] bcast_S_S100000x1 (constant S_ .f32 0x2B8CBCCC#32))))

/-- The reference's result as a function of its sixteen arguments. -/
def refResult (a0 : FVec F S100000x128 .f32) (a1 : IVec S2x1600000 32)
    (a2 : FVec F S128x128 .f32) (a3 : FVec F S128 .f32) (a4 : FVec F S128x128 .f32) (a5 a6 a7 : FVec F S128 .f32)
    (a8 : FVec F S128x128 .f32) (a9 : FVec F S128 .f32) (a10 : FVec F S128x128 .f32) (a11 a12 a13 : FVec F S128 .f32)
    (a14 : FVec F S128x64 .f32) (a15 : FVec F S64 .f32) : FVec F S100000x64 .f32 :=
  unitRows (projF (layerF a1 (layerF a1 a0 a2 a3 a4 a5 a6 a7) a8 a9 a10 a11 a12 a13) a14 a15)

end Cert.ReferenceIdeal.Hand

end
-- ==== Proof.KI.Host0.lean ====
/-
  The stretch of host operations before the first region, read as values: it forms the neighbour aggregation of the
  rows (the rows gathered along the edges' sources, negative node numbers counted from the end, and added into zeros
  at the edges' targets) with the same operations as the reference, except that the rows are narrowed before the
  gather and widened after it, which changes nothing at the exact values; the two bias rows are the arguments as
  launched, reshaped; the rows and the two weight matrices are left as launched.
-/
import proofs.«143586_j39599598469629_2_alg».proof.Proof.KI.Chain
import proofs.«143586_j39599598469629_2_alg».proof.Proof.Ref.Fns
import proofs.«143586_j39599598469629_2_alg».proof.Proof.Spec
import Idealize.ShloMosaic.Lib.StableHlo.Run
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- The aggregated array after the first stretch, as the stretch's operations applied to the contents before it. -/
theorem host0_agg_arr (X : Valuation τ sig (Elt Ideal)) :
    (StableHlo.after hostOps0 X (Proc.devRef .tc main_v15) : S100000x128.Idx → EReal)
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (shapeCast S1600000 (extractStridedSlice S1x1600000 ![1, 0] (X (Proc.devRef .tc main_arg1)) slices_S2x1600000_S1x1600000_1_0) shapeCasts_S1x1600000_S1600000))
          (extf .f32 (Host.gather gather_S100000x128_S1600000x1_S1600000x128_1_0_n_n_0_1_1128 (truncf .bf16 (X (Proc.devRef .tc main_arg0)) bitsLt_bf16_f32)
            (broadcastInDim S1600000x1 ![0] bcast_S1600000_S1600000x1_0
            (select (cmpi .slt (shapeCast S1600000 (extractStridedSlice S1x1600000 ![0, 0] (X (Proc.devRef .tc main_arg1)) slices_S2x1600000_S1x1600000_0_0) shapeCasts_S1x1600000_S1600000) (broadcastInDim S1600000 ![] bcast_S_S1600000 (constantI S_ 32 0#32)))
              (addi (shapeCast S1600000 (extractStridedSlice S1x1600000 ![0, 0] (X (Proc.devRef .tc main_arg1)) slices_S2x1600000_S1x1600000_0_0) shapeCasts_S1x1600000_S1600000) (broadcastInDim S1600000 ![] bcast_S_S1600000 (constantI S_ 32 100000#32))) (shapeCast S1600000 (extractStridedSlice S1x1600000 ![0, 0] (X (Proc.devRef .tc main_arg1)) slices_S2x1600000_S1x1600000_0_0) shapeCasts_S1x1600000_S1600000)))) bitsLt_bf16_f32) := by
  after_results_simp
  rfl

/-- Narrowing an array before a gather and widening the result is the gather itself, at the exact values. -/
theorem gather_narrow_widen {s si t : Shape} {w : ℕ} (d : GatherDims s si t) (a : FVec Ideal s .f32) (idx : IVec si w)
    (h : FTy.bf16.bits < FTy.f32.bits) :
    extf .f32 (Host.gather d (truncf .bf16 a h) idx) h = Host.gather d a idx := rfl

/-- The stretch's aggregation, over any edge array and any array of rows, is the reference's. -/
theorem agg_eq (E : IVec S2x1600000 32) (A : FVec Ideal S100000x128 .f32) :
    Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (shapeCast S1600000 (extractStridedSlice S1x1600000 ![1, 0] E slices_S2x1600000_S1x1600000_1_0) shapeCasts_S1x1600000_S1600000))
          (extf .f32 (Host.gather gather_S100000x128_S1600000x1_S1600000x128_1_0_n_n_0_1_1128 (truncf .bf16 A bitsLt_bf16_f32)
            (broadcastInDim S1600000x1 ![0] bcast_S1600000_S1600000x1_0
            (select (cmpi .slt (shapeCast S1600000 (extractStridedSlice S1x1600000 ![0, 0] E slices_S2x1600000_S1x1600000_0_0) shapeCasts_S1x1600000_S1600000) (broadcastInDim S1600000 ![] bcast_S_S1600000 (constantI S_ 32 0#32)))
              (addi (shapeCast S1600000 (extractStridedSlice S1x1600000 ![0, 0] E slices_S2x1600000_S1x1600000_0_0) shapeCasts_S1x1600000_S1600000) (broadcastInDim S1600000 ![] bcast_S_S1600000 (constantI S_ 32 100000#32))) (shapeCast S1600000 (extractStridedSlice S1x1600000 ![0, 0] E slices_S2x1600000_S1x1600000_0_0) shapeCasts_S1x1600000_S1600000)))) bitsLt_bf16_f32)
      = Cert.ReferenceIdeal.Hand.AggIdx (F := Ideal) E A := by
  rw [gather_narrow_widen]
  unfold Cert.ReferenceIdeal.Hand.AggIdx Cert.ReferenceIdeal.Hand.row0 Cert.ReferenceIdeal.Hand.row1
    Cert.ReferenceIdeal.Hand.wrapIdx Cert.ReferenceIdeal.Hand.col Cert.ReferenceIdeal.Hand.zeros128
  rfl

/-- The aggregated array the first region reads: the reference's aggregation of the rows along the edges. -/
theorem host0_agg :
    (U1 m ρ c main_v15 : S100000x128.Idx → EReal)
      = Cert.ReferenceIdeal.Hand.AggIdx (F := Ideal) (m ((c : Thread nD τ).loc main_arg1)) (m ((c : Thread nD τ).loc main_arg0)) := by
  show (StableHlo.after hostOps0 (W0 m ρ c) (Proc.devRef .tc main_v15) : S100000x128.Idx → EReal) = _
  rw [host0_agg_arr, agg_eq]

/-- The first bias row is the fourth argument as launched. -/
theorem host0_b1 (k : Fin 128) :
    U1 m ρ c main_v16 (ix2 (0 : Fin 1) k) = m ((c : Thread nD τ).loc main_arg3) (ix1 k) := by
  have e : (StableHlo.after hostOps0 (W0 m ρ c) (Proc.devRef .tc main_v16) : S1x128.Idx → EReal)
      = shapeCast S1x128 (W0 m ρ c (Proc.devRef .tc main_arg3)) shapeCasts_S128_S1x128 := by
    generalize W0 m ρ c = X
    after_results_simp
    rfl
  show (StableHlo.after hostOps0 (W0 m ρ c) (Proc.devRef .tc main_v16) : S1x128.Idx → EReal) (ix2 (0 : Fin 1) k) = _
  rw [e, shapeCast_a_1a_apply]

/-- The second bias row is the sixth argument as launched. -/
theorem host0_b2 (k : Fin 128) :
    U1 m ρ c main_v17 (ix2 (0 : Fin 1) k) = m ((c : Thread nD τ).loc main_arg5) (ix1 k) := by
  have e : (StableHlo.after hostOps0 (W0 m ρ c) (Proc.devRef .tc main_v17) : S1x128.Idx → EReal)
      = shapeCast S1x128 (W0 m ρ c (Proc.devRef .tc main_arg5)) shapeCasts_S128_S1x128 := by
    generalize W0 m ρ c = X
    after_results_simp
    rfl
  show (StableHlo.after hostOps0 (W0 m ρ c) (Proc.devRef .tc main_v17) : S1x128.Idx → EReal) (ix2 (0 : Fin 1) k) = _
  rw [e, shapeCast_a_1a_apply]

/-- The array of rows is the first argument as launched. -/
theorem host0_x : U1 m ρ c main_arg0 = m ((c : Thread nD τ).loc main_arg0) :=
  StableHlo.after_of_writes_sub hostOps0 _ hostOps0_writes (by decide : main_arg0 ∉ hostOps0_W)

/-- The first weight matrix is the third argument as launched. -/
theorem host0_w1 : U1 m ρ c main_arg2 = m ((c : Thread nD τ).loc main_arg2) :=
  StableHlo.after_of_writes_sub hostOps0 _ hostOps0_writes (by decide : main_arg2 ∉ hostOps0_W)

/-- The second weight matrix is the fifth argument as launched. -/
theorem host0_w2 : U1 m ρ c main_arg4 = m ((c : Thread nD τ).loc main_arg4) :=
  StableHlo.after_of_writes_sub hostOps0 _ hostOps0_writes (by decide : main_arg4 ∉ hostOps0_W)

end Cert.KernelIdeal.Hand

end
-- ==== Proof.LibRealEntries.lean ====
/-
  Real entries. An extended real is REAL when it is neither infinity (`IsReal v : ∃ r : ℝ, v = r`). The exact
  operations on the extended reals keep real entries real: sums, differences, products, maxima and minima; a finite
  sum; the exact quotient by a nonzero real; the square root of a nonnegative real and the reciprocal square root of
  a positive real; a contraction (a matrix product onto a real accumulator); a sum along axes from a real initial
  value; and an accumulating scatter (each entry of the operand plus the sum of the update entries that land on it,
  whatever the indices are). With these a chain of linear layers, rectifications, segment sums and normalisations of
  finite inputs has real entries throughout — which is what distributivity and cancellation on the extended reals
  need.
-/
import Idealize.ShloMosaic.PureOps.Ideal

noncomputable section

namespace Cert.LibRealEntries

open Idealize.ShloMosaic

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {v : EReal} (h : IsReal v) : v ≠ ⊤ := by obtain ⟨r, rfl⟩ := h; exact EReal.coe_ne_top r
theorem IsReal.ne_bot {v : EReal} (h : IsReal v) : v ≠ ⊥ := by obtain ⟨r, rfl⟩ := h; exact EReal.coe_ne_bot r

/-- Real exactly when neither infinity. -/
theorem isReal_iff (v : EReal) : IsReal v ↔ v ≠ ⊤ ∧ v ≠ ⊥ :=
  ⟨fun h => ⟨h.ne_top, h.ne_bot⟩, fun h => ⟨v.toReal, (EReal.coe_toReal h.1 h.2).symm⟩⟩

/-- A real entry is the coercion of its own real part. -/
theorem IsReal.eq_coe_toReal {v : EReal} (h : IsReal v) : v = ((v.toReal : ℝ) : EReal) := by
  obtain ⟨r, rfl⟩ := h; rw [EReal.toReal_coe]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.max {a b : EReal} (ha : IsReal a) (hb : IsReal b) : IsReal (max a b) := by
  rcases max_cases a b with h | h <;> rw [h.1] <;> assumption
theorem IsReal.min {a b : EReal} (ha : IsReal a) (hb : IsReal b) : IsReal (min a b) := by
  rcases min_cases a b with h | h <;> rw [h.1] <;> assumption

/-- A finite sum of real entries is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real entry by a nonzero real is real. -/
theorem IsReal.div_coe {a : EReal} (ha : IsReal a) {n : ℝ} (hn : n ≠ 0) : IsReal (Ideal.div a (n : EReal)) := by
  rw [Ideal.div_coe hn]; exact ha.mul (isReal_coe _)

/-- The square root of a nonnegative real is real. -/
theorem isReal_sqrt {r : ℝ} (hr : 0 ≤ r) : IsReal (Ideal.sqrt (r : EReal)) := by
  rw [Ideal.sqrt_coe, if_neg (not_lt.mpr hr)]; exact isReal_coe _

/-- The reciprocal square root of a positive real is real. -/
theorem isReal_rsqrt {r : ℝ} (hr : 0 < r) : IsReal (Ideal.rsqrt (r : EReal)) := by
  rw [Ideal.rsqrt_coe, if_neg (not_lt.mpr hr.le), if_neg hr.ne']; exact isReal_coe _

/-- A contraction of real operands onto a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  (ha j).add (isReal_sum _ _ fun k _ => (hl _).mul (hr _))

/-- A host sum along axes of real entries from a real initial value has real entries. -/
theorem isReal_hostReduceAdd {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) :=
  hi.add (isReal_sum _ _ fun i _ => hx i)

/-- A lane sum along axes of real entries has real entries. -/
theorem isReal_reduceAdd {s : Shape} {axes : List (Fin s.rank)} {t : Shape} (h : s.Reduces axes t) (x : s.Idx → EReal)
    (hx : ∀ i, IsReal (x i)) (j : t.Idx) : IsReal (Ideal.reduceAdd h x j) :=
  isReal_sum _ _ fun i _ => hx i

/-- An accumulating scatter of real updates into a real operand has real entries, whatever the indices. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

end Cert.LibRealEntries

end
-- ==== Proof.Ref.Agg.lean ====
/-
  The neighbour aggregation over arrays indexed by plain coordinates, and its real entries: an accumulating scatter of
  gathered rows into zeros has real entries when the array gathered from has, whatever the edge list holds.
-/
import proofs.«143586_j39599598469629_2_alg».proof.Proof.Ref.Fns
import proofs.«143586_j39599598469629_2_alg».proof.Proof.Spec
import proofs.«143586_j39599598469629_2_alg».proof.Proof.LibRealEntries
import Idealize.ShloMosaic.Lib.ValueIdx
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.LibRealEntries Idealize.ShloMosaic.ValueIdx

/-- An accumulating host scatter of real updates into a real operand has real entries: each entry is the operand's
    plus a finite sum of updates. -/
theorem isReal_scatterAdd_host {s si su : Shape} {φ : FTy} {w : Nat} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

/-- A gather reads the operand at the gathered index. -/
theorem gather_apply {s si t : Shape} {α : Type} {w : Nat} (d : GatherDims s si t) (x : s.Idx → α) (idx : IVec si w)
    (j : t.Idx) : Host.gather d x idx j = x (d.operandIdx j idx) := rfl

/-- The array of zeros reads zero. -/
theorem zeros128_apply (i : S100000x128.Idx) : zeros128 (F := Ideal) i = 0 := by
  unfold zeros128
  rw [broadcastInDim_scalar_apply, constant_apply, Ideal.ofBits_zero_f32]

/-- Every entry of the aggregation of an array with real entries is real. -/
theorem AggIdx_real (ei : IVec S2x1600000 32) (a : FVec Ideal S100000x128 .f32) (ha : ∀ i, IsReal (a i))
    (i : S100000x128.Idx) : IsReal (AggIdx (F := Ideal) ei a i) := by
  unfold AggIdx
  apply isReal_scatterAdd_host
  · intro i; rw [zeros128_apply]; exact isReal_zero
  · intro j; rw [gather_apply]; exact ha _

/-- An array of rows as a vector over index pairs. -/
def uncurry128 (a : Cert.Spec.Arr 128) : FVec Ideal S100000x128 .f32 := fun idx => a (idx 0) (idx 1)

/-- A vector over index pairs as an array of rows. -/
def cur2 {n m : ℕ} (x : FVec Ideal ⟨2, ![n, m]⟩ .f32) : Fin n → Fin m → EReal := fun i j => x (ix2 i j)

/-- A vector over single indices as a row. -/
def cur1 {m : ℕ} (b : FVec Ideal ⟨1, ![m]⟩ .f32) : Fin m → EReal := fun j => b (ix1 j)

/-- The neighbour aggregation of an array of rows, read at a row and a column. -/
def AggOf (ei : IVec S2x1600000 32) (a : Cert.Spec.Arr 128) : Cert.Spec.Arr 128 :=
  fun i j => AggIdx (F := Ideal) ei (uncurry128 a) (ix2 i j)

theorem AggOf_eq (ei : IVec S2x1600000 32) (a : Cert.Spec.Arr 128) (i : Fin 100000) (j : Fin 128) :
    AggOf ei a i j = AggIdx (F := Ideal) ei (fun idx => a (idx 0) (idx 1)) (ix2 i j) := rfl

/-- The aggregation of an array with real entries has real entries. -/
theorem AggOf_real (ei : IVec S2x1600000 32) (a : Cert.Spec.Arr 128) (ha : ∀ i j, IsReal (a i j)) (i : Fin 100000)
    (j : Fin 128) : IsReal (AggOf ei a i j) :=
  AggIdx_real ei (uncurry128 a) (fun idx => ha (idx 0) (idx 1)) (ix2 i j)

/-- A vector over index pairs is the array of its rows, uncurried. -/
theorem uncurry128_cur2 (x : FVec Ideal S100000x128 .f32) : uncurry128 (cur2 x) = x := by
  funext idx
  exact congrArg x (eq_ix2 idx).symm

end Cert.ReferenceIdeal.Hand

end
-- ==== Proof.KI.StageA.lean ====
/-
  The first layer's perceptron. Region 0 reads the node features and, from the first stretch of host operations, their
  neighbour sums and the two bias rows; so its big output holds the perceptron of the specification applied to each row
  plus its neighbours' sum, and its two small outputs the column sums of that array and of its squares.
-/
import proofs.«143586_j39599598469629_2_alg».proof.Proof.KI.Chain
import proofs.«143586_j39599598469629_2_alg».proof.Proof.KI.Value0
import proofs.«143586_j39599598469629_2_alg».proof.Proof.KI.Host0
import proofs.«143586_j39599598469629_2_alg».proof.Proof.Ref.Agg
import proofs.«143586_j39599598469629_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (AggOf AggIdx cur1 cur2 uncurry128 uncurry128_cur2)

variable (m : (ℓ : Loc nD τ sig) → Buf (Elt Ideal) ℓ) (ρ : Dev nD → PrngReg) (c : Dev nD)

/-- The perceptron's output of the first layer, as the specification writes it. -/
def T0 : Cert.Spec.Arr 128 :=
  Cert.Spec.mlp (Cert.Spec.withNeighbours (AggOf (m ((c : Thread nD τ).loc main_arg1))) (cur2 (m ((c : Thread nD τ).loc main_arg0))))
    (cur2 (m ((c : Thread nD τ).loc main_arg2))) (cur1 (m ((c : Thread nD τ).loc main_arg3)))
    (cur2 (m ((c : Thread nD τ).loc main_arg4))) (cur1 (m ((c : Thread nD τ).loc main_arg5)))

/-- What region 0 computes from the arrays it finds is that perceptron. -/
theorem pre0_eq_T0 (p : Fin 100000) (q : Fin 128) : pre0 (U1 m ρ) c p q = T0 m c p q := by
  unfold pre0 preOf0 T0 Cert.Spec.mlp Cert.Spec.lin Cert.Spec.relu Cert.Spec.withNeighbours AggOf
  rw [uncurry128_cur2]
  unfold cur2 cur1
  simp only [host0_x m ρ c, host0_agg m ρ c, host0_w1 m ρ c, host0_w2 m ρ c, host0_b1 m ρ c, host0_b2 m ρ c]

/-- After region 0: the big output and the two rows of column sums. -/
theorem stageA :
    (∀ p q, W2 m ρ c main_v18_0 (ix2 p q) = T0 m c p q)
    ∧ (∀ q, W2 m ρ c main_v18_1 (ix2 (0 : Fin 1) q) = ∑ p : Fin 100000, T0 m c p q)
    ∧ (∀ q, W2 m ρ c main_v18_2 (ix2 (0 : Fin 1) q) = ∑ p : Fin 100000, T0 m c p q * T0 m c p q) := by
  refine ⟨fun p q => ?_, fun q => ?_, fun q => ?_⟩
  · have e : (W2 m ρ c main_v18_0 : S100000x128.Idx → EReal) = (dat0 (U1 m ρ) c).arrAt 6 cfg0.N := W2_arr m ρ c 6
    rw [e, final0_6, pre0_eq_T0]
  · have e : (W2 m ρ c main_v18_1 : S1x128.Idx → EReal) = (dat0 (U1 m ρ) c).arrAt 7 cfg0.N := W2_arr m ρ c 7
    rw [e, final0_7]
    simp only [pre0_eq_T0 m ρ c]
  · have e : (W2 m ρ c main_v18_2 : S1x128.Idx → EReal) = (dat0 (U1 m ρ) c).arrAt 8 cfg0.N := W2_arr m ρ c 8
    rw [e, final0_8]
    simp only [pre0_eq_T0 m ρ c]

end Cert.KernelIdeal.Hand

end
-- ==== Proof.KI.Pay1.lean ====
/-
  Region 1 (the first layer's normalisation): the values it writes, at a row and a column.

  The block written is, at (row `p`, column `q`), max((t p q − mean q) · rsqrt(var q + ε) · g q + be q, 0): the entry
  minus its column's mean, times the reciprocal square root of the column's variance plus ε, scaled, shifted and
  rectified. A second copy of the block is written in a narrower format; at the exact values it is the same block.
-/
import proofs.«143586_j39599598469629_2_alg».proof.Proof.KI.PayOps
import proofs.«143586_j39599598469629_2_alg».proof.Proof.Spec

noncomputable section

namespace Cert.KernelIdeal.Hand

open Idealize.ShloMosaic Idealize.ShloMosaic.ValueIdx Cert.KernelIdeal Cert.KernelIdeal.Gen

/-- The block of region 1 at (`p`, `q`): the entry normalised by its column's variance and mean, scaled, shifted and
    rectified. The rows are given in the order variance, mean, scale, shift. -/
theorem pay1_out (t : FVec Ideal S4000x128 .f32) (var mean g be : FVec Ideal S1x128 .f32) (p : Fin 4000) (q : Fin 128) :
    k1_pay1 (F := Ideal) t var mean g be (ix2 p q)
      = max ((t (ix2 p q) - mean (ix2 0 q)) * Ideal.rsqrt (var (ix2 0 q) + Cert.Spec.wEps) * g (ix2 0 q) + be (ix2 0 q)) 0 := by
  unfold k1_pay1 Cert.Spec.wEps
  simp only [addf_apply, subf_apply, mulf_apply, maximumf_apply, rsqrt_apply, broadcast_apply, shapeCast_self,
    broadcastTo_1b_ab_apply, Ideal.ofBits_def, Ideal.ofBits_zero_f32]

/-- The narrower copy of region 1's block is, at the exact values, the block itself. -/
theorem pay1_out_narrow (t : FVec Ideal S4000x128 .f32) (var mean g be : FVec Ideal S1x128 .f32) (p : Fin 4000) (q : Fin 128) :
    k1_pay2 (F := Ideal) t var mean g be (ix2 p q) = k1_pay1 (F := Ideal) t var mean g be (ix2 p q) := by
  unfold k1_pay2
  exact truncf_apply _ _ _

end Cert.KernelIdeal.Hand

end
-- ==== Proof.KI.Value1.lean ====
/-
  Region 1 over the whole arrays: after its 25 grid points the two output arrays hold, at every (row, column), the
  rectified normalisation of the input array's entry by the four per-feature rows; the five input arrays are as the
  region found them.

  Point `t` works on rows 4000·t … 4000·t + 3999 of the large arrays and on the whole of the four rows. What it
  writes back is its block of ONE function of the whole arrays; the 25 blocks cover every row; so the arrays end
  holding that function.
-/
import proofs.«143586_j39599598469629_2_alg».proof.Proof.KI.Region1
import proofs.«143586_j39599598469629_2_alg».proof.Proof.KI.Pay1
import proofs.«143586_j39599598469629_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Value1

variable (V : (c : Dev nD) → (b : Ref sig .tc) → Buf (Elt Ideal) ((c : Thread nD τ).loc b))

/-! ### Where each point's blocks sit -/

theorem zeroOffsets1 : (![0, 0] : Fin 2 → Nat) = fun _ => 0 := funext fun a => by fin_cases a <;> rfl

/-- The printed index maps, decided over the 25 points: the three large windows are at block row `t`, column block 0;
    the four row windows are at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Entry (`a`, `b`) of point `t`'s block of the input array is entry (4000·t + a, b) of the array. -/
theorem iblk1_0_apply (c : Dev nD) (t : Fin cfg1.N) (a : Fin 4000) (b : Fin 128) (r : Fin 100000)
    (hr : r.val = t.val * 4000 + a.val) :
    (iblk1 V c 0 t : S4000x128.Idx → EReal) (ix2 a b) = (V c main_v18_0 : S100000x128.Idx → EReal) (ix2 r b) := by
  obtain ⟨e0, e1, -⟩ := idx_facts1 t
  show (V c main_v18_0 : S100000x128.Idx → EReal) (((cfg1.win 0).blk t).view.emb (ix2 a b)) = _
  refine congrArg _ (funext fun ax => Fin.ext ?_)
  match ax with
  | ⟨0, _⟩ => show win1_0.index t (0 : Fin 2) * 4000 + 1 * a.val = r.val; omega
  | ⟨1, _⟩ => show win1_0.index t (1 : Fin 2) * 128 + 1 * b.val = b.val; omega

/-- Entry (0, `b`) of point `t`'s block of the row of means is entry (0, `b`) of the row. -/
theorem iblk1_1_apply (c : Dev nD) (t : Fin cfg1.N) (b : Fin 128) :
    (iblk1 V c 1 t : S1x128.Idx → EReal) (ix2 0 b) = (V c main_v29 : S1x128.Idx → EReal) (ix2 0 b) := by
  obtain ⟨-, -, e0, e1, -⟩ := idx_facts1 t
  show (V c main_v29 : S1x128.Idx → EReal) (((cfg1.win 1).blk t).view.emb (ix2 0 b)) = _
  refine congrArg _ (funext fun ax => Fin.ext ?_)
  match ax with
  | ⟨0, _⟩ => show win1_1.index t (0 : Fin 2) * 1 + 1 * 0 = 0; omega
  | ⟨1, _⟩ => show win1_1.index t (1 : Fin 2) * 128 + 1 * b.val = b.val; omega

/-- The same for the row of variances. -/
theorem iblk1_2_apply (c : Dev nD) (t : Fin cfg1.N) (b : Fin 128) :
    (iblk1 V c 2 t : S1x128.Idx → EReal) (ix2 0 b) = (V c main_v30 : S1x128.Idx → EReal) (ix2 0 b) := by
  obtain ⟨-, -, -, -, e0, e1, -⟩ := idx_facts1 t
  show (V c main_v30 : S1x128.Idx → EReal) (((cfg1.win 2).blk t).view.emb (ix2 0 b)) = _
  refine congrArg _ (funext fun ax => Fin.ext ?_)
  match ax with
  | ⟨0, _⟩ => show win1_2.index t (0 : Fin 2) * 1 + 1 * 0 = 0; omega
  | ⟨1, _⟩ => show win1_2.index t (1 : Fin 2) * 128 + 1 * b.val = b.val; omega

/-- The same for the row of scales. -/
theorem iblk1_3_apply (c : Dev nD) (t : Fin cfg1.N) (b : Fin 128) :
    (iblk1 V c 3 t : S1x128.Idx → EReal) (ix2 0 b) = (V c main_v31 : S1x128.Idx → EReal) (ix2 0 b) := by
  obtain ⟨-, -, -, -, -, -, e0, e1, -⟩ := idx_facts1 t
  show (V c main_v31 : S1x128.Idx → EReal) (((cfg1.win 3).blk t).view.emb (ix2 0 b)) = _
  refine congrArg _ (funext fun ax => Fin.ext ?_)
  match ax with
  | ⟨0, _⟩ => show win1_3.index t (0 : Fin 2) * 1 + 1 * 0 = 0; omega
  | ⟨1, _⟩ => show win1_3.index t (1 : Fin 2) * 128 + 1 * b.val = b.val; omega

/-- The same for the row of shifts. -/
theorem iblk1_4_apply (c : Dev nD) (t : Fin cfg1.N) (b : Fin 128) :
    (iblk1 V c 4 t : S1x128.Idx → EReal) (ix2 0 b) = (V c main_v32 : S1x128.Idx → EReal) (ix2 0 b) := by
  obtain ⟨-, -, -, -, -, -, -, -, e0, e1, -⟩ := idx_facts1 t
  show (V c main_v32 : S1x128.Idx → EReal) (((cfg1.win 4).blk t).view.emb (ix2 0 b)) = _
  refine congrArg _ (funext fun ax => Fin.ext ?_)
  match ax with
  | ⟨0, _⟩ => show win1_4.index t (0 : Fin 2) * 1 + 1 * 0 = 0; omega
  | ⟨1, _⟩ => show win1_4.index t (1 : Fin 2) * 128 + 1 * b.val = b.val; omega

/-! ### The function the output arrays end holding -/

/-- The rectified normalisation of entry (`p`, `q`) of an array `t` by a row of means, a row of variances, a row of
    scales and a row of shifts: max((t p q − mean q) · rsqrt(var q + ε) · g q + be q, 0). -/
def norm1 (t : S100000x128.Idx → EReal) (mean var g be : S1x128.Idx → EReal) (p : Fin 100000) (q : Fin 128) : EReal :=
  max ((t (ix2 p q) - mean (ix2 0 q)) * Ideal.rsqrt (var (ix2 0 q) + Cert.Spec.wEps) * g (ix2 0 q) + be (ix2 0 q)) 0

/-- The normalisation of the region's input array by its four rows as the region finds them, as an array. -/
def normArr1 (c : Dev nD) : S100000x128.Idx → EReal :=
  fun i => norm1 (V c main_v18_0) (V c main_v29) (V c main_v30) (V c main_v31) (V c main_v32) (i 0) (i 1)

/-- Entry (`a`, `b`) of the full-width block the body leaves at point `t` is the normalisation at (4000·t + a, b). -/
theorem out1_5_apply (c : Dev nD) (t : Fin cfg1.N) (a : Fin 4000) (b : Fin 128) (r : Fin 100000)
    (hr : r.val = t.val * 4000 + a.val) :
    (out1_5 (iblk1 V c 0 t) (iblk1 V c 1 t) (iblk1 V c 2 t) (iblk1 V c 3 t) (iblk1 V c 4 t) : S4000x128.Idx → EReal) (ix2 a b)
      = norm1 (V c main_v18_0) (V c main_v29) (V c main_v30) (V c main_v31) (V c main_v32) r b := by
  unfold out1_5
  rw [View.canon_unit_zero zeroOffsets1]
  simp only [View.ld_unit_zero (S := S4000x128) zeroOffsets1, View.ld_unit_zero (S := S1x128) zeroOffsets1]
  refine (pay1_out _ _ _ _ _ a b).trans ?_
  rw [iblk1_0_apply V c t a b r hr, iblk1_1_apply, iblk1_2_apply, iblk1_3_apply, iblk1_4_apply]
  rfl

/-- Entry (`a`, `b`) of the narrowed block the body leaves at point `t` is the same normalisation. -/
theorem out1_6_apply (c : Dev nD) (t : Fin cfg1.N) (a : Fin 4000) (b : Fin 128) (r : Fin 100000)
    (hr : r.val = t.val * 4000 + a.val) :
    (out1_6 (iblk1 V c 0 t) (iblk1 V c 1 t) (iblk1 V c 2 t) (iblk1 V c 3 t) (iblk1 V c 4 t) : S4000x128.Idx → EReal) (ix2 a b)
      = norm1 (V c main_v18_0) (V c main_v29) (V c main_v30) (V c main_v31) (V c main_v32) r b := by
  unfold out1_6
  rw [View.canon_unit_zero zeroOffsets1]
  simp only [View.ld_unit_zero (S := S4000x128) zeroOffsets1, View.ld_unit_zero (S := S1x128) zeroOffsets1]
  refine ((pay1_out_narrow _ _ _ _ _ a b).trans (pay1_out _ _ _ _ _ a b)).trans ?_
  rw [iblk1_0_apply V c t a b r hr, iblk1_1_apply, iblk1_2_apply, iblk1_3_apply, iblk1_4_apply]
  rfl

/-! ### What each point writes back, and the cover -/

/-- Entry (`a`, `b`) of point `t`'s block of the full-width output array is entry (4000·t + a, b) of the array. -/
theorem emb1_5 (t : Fin cfg1.N) (a : Fin 4000) (b : Fin 128) (r : Fin 100000) (hr : r.val = t.val * 4000 + a.val) :
    (((cfg1.win 5).blk t).view.emb (ix2 a b) : S100000x128.Idx) = ix2 r b := by
  obtain ⟨-, -, -, -, -, -, -, -, -, -, e0, e1, -⟩ := idx_facts1 t
  refine funext fun ax => Fin.ext ?_
  match ax with
  | ⟨0, _⟩ => show win1_5.index t (0 : Fin 2) * 4000 + 1 * a.val = r.val; omega
  | ⟨1, _⟩ => show win1_5.index t (1 : Fin 2) * 128 + 1 * b.val = b.val; omega

/-- The same for the narrowed output array. -/
theorem emb1_6 (t : Fin cfg1.N) (a : Fin 4000) (b : Fin 128) (r : Fin 100000) (hr : r.val = t.val * 4000 + a.val) :
    (((cfg1.win 6).blk t).view.emb (ix2 a b) : S100000x128.Idx) = ix2 r b := by
  obtain ⟨-, -, -, -, -, -, -, -, -, -, -, -, e0, e1⟩ := idx_facts1 t
  refine funext fun ax => Fin.ext ?_
  match ax with
  | ⟨0, _⟩ => show win1_6.index t (0 : Fin 2) * 4000 + 1 * a.val = r.val; omega
  | ⟨1, _⟩ => show win1_6.index t (1 : Fin 2) * 128 + 1 * b.val = b.val; omega

/-- Row 4000·t + a is a row of the array when `t` is one of the 25 points and `a` a row of a block. -/
theorem row_lt1 (t : Fin cfg1.N) (a : Fin 4000) : t.val * 4000 + a.val < 100000 := by
  have hN : cfg1.N = 25 := N_1
  have := t.isLt; have := a.isLt; omega

/-- What point `t` writes back to the full-width output array is its block of the normalisation. -/
theorem flushed1_5_eq (c : Dev nD) (t : Fin cfg1.N) :
    (dat1 V c).flushed 5 t = ((cfg1.win 5).blk t).view.read (Elt Ideal) (normArr1 V c) := by
  show (cfg1.win 5).cut (grid1.coords t) ((dat1 V c).after 5 t) = _
  rw [after1_5]
  funext j
  obtain ⟨a, b, rfl⟩ : ∃ (a : Fin 4000) (b : Fin 128), j = ix2 a b := ⟨j 0, j 1, eq_ix2 j⟩
  show (out1_5 (iblk1 V c 0 t) (iblk1 V c 1 t) (iblk1 V c 2 t) (iblk1 V c 3 t) (iblk1 V c 4 t) : S4000x128.Idx → EReal) (ix2 a b)
    = normArr1 V c (((cfg1.win 5).blk t).view.emb (ix2 a b))
  rw [emb1_5 t a b ⟨t.val * 4000 + a.val, row_lt1 t a⟩ rfl]
  exact out1_5_apply V c t a b ⟨t.val * 4000 + a.val, row_lt1 t a⟩ rfl

/-- What point `t` writes back to the narrowed output array is its block of the same normalisation. -/
theorem flushed1_6_eq (c : Dev nD) (t : Fin cfg1.N) :
    (dat1 V c).flushed 6 t = ((cfg1.win 6).blk t).view.read (Elt Ideal) (normArr1 V c) := by
  show (cfg1.win 6).cut (grid1.coords t) ((dat1 V c).after 6 t) = _
  rw [after1_6]
  funext j
  obtain ⟨a, b, rfl⟩ : ∃ (a : Fin 4000) (b : Fin 128), j = ix2 a b := ⟨j 0, j 1, eq_ix2 j⟩
  show (out1_6 (iblk1 V c 0 t) (iblk1 V c 1 t) (iblk1 V c 2 t) (iblk1 V c 3 t) (iblk1 V c 4 t) : S4000x128.Idx → EReal) (ix2 a b)
    = normArr1 V c (((cfg1.win 6).blk t).view.emb (ix2 a b))
  rw [emb1_6 t a b ⟨t.val * 4000 + a.val, row_lt1 t a⟩ rfl]
  exact out1_6_apply V c t a b ⟨t.val * 4000 + a.val, row_lt1 t a⟩ rfl

/-- An index of the full-width output array is in point `t`'s block iff each coordinate is in the block's range. -/
theorem mem_blk1_5 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v33_0).slice (win1_5.rect t)).set ↔ _
  rw [View.set_slice_whole, Rect.mem_set_unit]
  exact Iff.rfl

/-- The same for the narrowed output array. -/
theorem mem_blk1_6 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v33_1).slice (win1_6.rect t)).set ↔ _
  rw [View.set_slice_whole, Rect.mem_set_unit]
  exact Iff.rfl

/-- Every index of the full-width output array is in the block of the point its row falls in: row r is in block r / 4000. -/
theorem covered1_5 (i : S100000x128.Idx) :
    ∃ t : Fin cfg1.N, (cfg1.win 5).flush t = true ∧ i ∈ ((cfg1.win 5).blk t).view.set := by
  have hN : cfg1.N = 25 := N_1
  have hi0 : (i 0).val < 100000 := (i 0).isLt
  have hi1 : (i 1).val < 128 := (i 1).isLt
  obtain ⟨t, ht⟩ : ∃ t : Fin cfg1.N, t.val = (i 0).val / 4000 := ⟨⟨(i 0).val / 4000, by omega⟩, rfl⟩
  obtain ⟨-, -, -, -, -, -, -, -, -, -, e0, e1, -⟩ := idx_facts1 t
  refine ⟨t, flush1_5 t, ?_⟩
  rw [mem_blk1_5]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 128 ≤ (i 1).val ∧ (i 1).val < win1_5.index t (1 : Fin 2) * 128 + 128
    omega

/-- The same for the narrowed output array. -/
theorem covered1_6 (i : S100000x128.Idx) :
    ∃ t : Fin cfg1.N, (cfg1.win 6).flush t = true ∧ i ∈ ((cfg1.win 6).blk t).view.set := by
  have hN : cfg1.N = 25 := N_1
  have hi0 : (i 0).val < 100000 := (i 0).isLt
  have hi1 : (i 1).val < 128 := (i 1).isLt
  obtain ⟨t, ht⟩ : ∃ t : Fin cfg1.N, t.val = (i 0).val / 4000 := ⟨⟨(i 0).val / 4000, by omega⟩, rfl⟩
  obtain ⟨-, -, -, -, -, -, -, -, -, -, -, -, e0, e1⟩ := idx_facts1 t
  refine ⟨t, flush1_6 t, ?_⟩
  rw [mem_blk1_6]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-! ### The arrays after the region -/

/-- The full-width output array after the 25 points is the normalisation, as an array. -/
theorem arr1_5 (c : Dev nD) : (dat1 V c).arrAt 5 cfg1.N = normArr1 V c :=
  (dat1 V c).arrAt_eq_of_cover 5 (normArr1 V c) (fun t _ => flushed1_5_eq V c t) covered1_5

/-- The narrowed output array after the 25 points is the same array. -/
theorem arr1_6 (c : Dev nD) : (dat1 V c).arrAt 6 cfg1.N = normArr1 V c :=
  (dat1 V c).arrAt_eq_of_cover 6 (normArr1 V c) (fun t _ => flushed1_6_eq V c t) covered1_6

/-- The full-width output array after the region, at (`p`, `q`). -/
theorem final1_5 (c : Dev nD) (p : Fin 100000) (q : Fin 128) :
    ((dat1 V c).arrAt 5 cfg1.N : S100000x128.Idx → EReal) (ix2 p q)
      = norm1 (V c main_v18_0) (V c main_v29) (V c main_v30) (V c main_v31) (V c main_v32) p q := by
  rw [arr1_5]; rfl

/-- The narrowed output array after the region, at (`p`, `q`). -/
theorem final1_6 (c : Dev nD) (p : Fin 100000) (q : Fin 128) :
    ((dat1 V c).arrAt 6 cfg1.N : S100000x128.Idx → EReal) (ix2 p q)
      = norm1 (V c main_v18_0) (V c main_v29) (V c main_v30) (V c main_v31) (V c main_v32) p q := by
  rw [arr1_6]; rfl

/-- The input array is as the region found it. -/
theorem kept1_0 (c : Dev nD) : (dat1 V c).arrAt 0 cfg1.N = V c main_v18_0 :=
  ((dat1 V c).arrAt_in 0 rfl _).trans (A_eq1 V c 0)
/-- The row of means is as the region found it. -/
theorem kept1_1 (c : Dev nD) : (dat1 V c).arrAt 1 cfg1.N = V c main_v29 :=
  ((dat1 V c).arrAt_in 1 rfl _).trans (A_eq1 V c 1)
/-- The row of variances is as the region found it. -/
theorem kept1_2 (c : Dev nD) : (dat1 V c).arrAt 2 cfg1.N = V c main_v30 :=
  ((dat1 V c).arrAt_in 2 rfl _).trans (A_eq1 V c 2)
/-- The row of scales is as the region found it. -/
theorem kept1_3 (c : Dev nD) : (dat1 V c).arrAt 3 cfg1.N = V c main_v31 :=
  ((dat1 V c).arrAt_in 3 rfl _).trans (A_eq1 V c 3)
/-- The row of shifts is as the region found it. -/
theorem kept1_4 (c : Dev nD) : (dat1 V c).arrAt 4 cfg1.N = V c main_v32 :=
  ((dat1 V c).arrAt_in 4 rfl _).trans (A_eq1 V c 4)

end Value1

end Cert.KernelIdeal.Hand

end
-- ==== Proof.KI.Host1.lean ====
/-
  The stretch of host operations between the first region and the second, read as values: from the column sums of the
  first and second moments it forms the mean (the sum over the number of rows) and the variance (the second moment's
  mean less the squared mean, floored at zero), each as a row; the scale and shift rows are the arguments as launched;
  the array to be normalised is left as the region wrote it.
-/
import proofs.«143586_j39599598469629_2_alg».proof.Proof.KI.Chain
import proofs.«143586_j39599598469629_2_alg».proof.Proof.Ref.Fns
import proofs.«143586_j39599598469629_2_alg».proof.Proof.Spec
import Idealize.ShloMosaic.Lib.StableHlo.Run
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- The array of means after the second stretch, as the stretch's operations applied to the contents before it. -/
theorem host1_mean_arr (X : Valuation τ sig (Elt Ideal)) :
    (StableHlo.after hostOps1 X (Proc.devRef .tc main_v29) : S1x128.Idx → EReal)
      = shapeCast S1x128 (Host.divf (F := Ideal) (shapeCast S128 (X (Proc.devRef .tc main_v18_1)) shapeCasts_S1x128_S128)
          (broadcastInDim S128 ![] bcast_S_S128 (constant (F := Ideal) S_ .f32 0x47C35000#32))) shapeCasts_S128_S1x128 := by
  after_results
  rfl

/-- The mean row: at column `q` the first moment's sum over the number of rows. -/
theorem host1_mean (q : Fin 128) :
    U3 m ρ c main_v29 (ix2 (0 : Fin 1) q) = Ideal.div (W2 m ρ c main_v18_1 (ix2 (0 : Fin 1) q)) Cert.Spec.wN := by
  show (StableHlo.after hostOps1 (W2 m ρ c) (Proc.devRef .tc main_v29) : S1x128.Idx → EReal) (ix2 (0 : Fin 1) q) = _
  rw [host1_mean_arr, shapeCast_a_1a_apply, hostDivf_apply, shapeCast_1a_a_apply, broadcastInDim_scalar_apply, constant_apply]
  rfl

/-- The array of variances after the second stretch, as the stretch's operations applied to the contents before it. -/
theorem host1_var_arr (X : Valuation τ sig (Elt Ideal)) :
    (StableHlo.after hostOps1 X (Proc.devRef .tc main_v30) : S1x128.Idx → EReal)
      = shapeCast S1x128
          (maximumf
            (subf
              (Host.divf (F := Ideal) (shapeCast S128 (X (Proc.devRef .tc main_v18_2)) shapeCasts_S1x128_S128)
                (broadcastInDim S128 ![] bcast_S_S128 (constant (F := Ideal) S_ .f32 0x47C35000#32)))
              (mulf
                (Host.divf (F := Ideal) (shapeCast S128 (X (Proc.devRef .tc main_v18_1)) shapeCasts_S1x128_S128)
                  (broadcastInDim S128 ![] bcast_S_S128 (constant (F := Ideal) S_ .f32 0x47C35000#32)))
                (Host.divf (F := Ideal) (shapeCast S128 (X (Proc.devRef .tc main_v18_1)) shapeCasts_S1x128_S128)
                  (broadcastInDim S128 ![] bcast_S_S128 (constant (F := Ideal) S_ .f32 0x47C35000#32)))))
            (broadcastInDim S128 ![] bcast_S_S128 (constant (F := Ideal) S_ .f32 0x00000000#32)))
          shapeCasts_S128_S1x128 := by
  after_results
  rfl

/-- The variance row: at column `q` the second moment's mean less the squared mean, floored at zero. -/
theorem host1_var (q : Fin 128) :
    U3 m ρ c main_v30 (ix2 (0 : Fin 1) q)
      = max (Ideal.div (W2 m ρ c main_v18_2 (ix2 (0 : Fin 1) q)) Cert.Spec.wN
          - Ideal.div (W2 m ρ c main_v18_1 (ix2 (0 : Fin 1) q)) Cert.Spec.wN
            * Ideal.div (W2 m ρ c main_v18_1 (ix2 (0 : Fin 1) q)) Cert.Spec.wN) 0 := by
  show (StableHlo.after hostOps1 (W2 m ρ c) (Proc.devRef .tc main_v30) : S1x128.Idx → EReal) (ix2 (0 : Fin 1) q) = _
  rw [host1_var_arr, shapeCast_a_1a_apply, maximumf_apply, subf_apply, mulf_apply, hostDivf_apply, hostDivf_apply,
    shapeCast_1a_a_apply, shapeCast_1a_a_apply, broadcastInDim_scalar_apply, broadcastInDim_scalar_apply, constant_apply,
    constant_apply, Ideal.ofBits_zero_f32]
  rfl

/-- The scale row is the seventh argument as launched. -/
theorem host1_g (q : Fin 128) :
    U3 m ρ c main_v31 (ix2 (0 : Fin 1) q) = m ((c : Thread nD τ).loc main_arg6) (ix1 q) := by
  have e : (StableHlo.after hostOps1 (W2 m ρ c) (Proc.devRef .tc main_v31) : S1x128.Idx → EReal)
      = shapeCast S1x128 (W2 m ρ c (Proc.devRef .tc main_arg6)) shapeCasts_S128_S1x128 := by
    generalize W2 m ρ c = X
    after_results
    rfl
  have k : W2 m ρ c (Proc.devRef .tc main_arg6) = m ((c : Thread nD τ).loc main_arg6) :=
    calc W2 m ρ c (Proc.devRef .tc main_arg6)
      _ = W1 m ρ c (Proc.devRef .tc main_arg6) := W2_of_ne m ρ c main_arg6 (by decide)
      _ = W0 m ρ c (Proc.devRef .tc main_arg6) := StableHlo.after_of_writes_sub hostOps0 _ hostOps0_writes (by decide : main_arg6 ∉ hostOps0_W)
      _ = m ((c : Thread nD τ).loc main_arg6) := rfl
  show (StableHlo.after hostOps1 (W2 m ρ c) (Proc.devRef .tc main_v31) : S1x128.Idx → EReal) (ix2 (0 : Fin 1) q) = _
  rw [e, shapeCast_a_1a_apply, k]

/-- The shift row is the eighth argument as launched. -/
theorem host1_be (q : Fin 128) :
    U3 m ρ c main_v32 (ix2 (0 : Fin 1) q) = m ((c : Thread nD τ).loc main_arg7) (ix1 q) := by
  have e : (StableHlo.after hostOps1 (W2 m ρ c) (Proc.devRef .tc main_v32) : S1x128.Idx → EReal)
      = shapeCast S1x128 (W2 m ρ c (Proc.devRef .tc main_arg7)) shapeCasts_S128_S1x128 := by
    generalize W2 m ρ c = X
    after_results
    rfl
  have k : W2 m ρ c (Proc.devRef .tc main_arg7) = m ((c : Thread nD τ).loc main_arg7) :=
    calc W2 m ρ c (Proc.devRef .tc main_arg7)
      _ = W1 m ρ c (Proc.devRef .tc main_arg7) := W2_of_ne m ρ c main_arg7 (by decide)
      _ = W0 m ρ c (Proc.devRef .tc main_arg7) := StableHlo.after_of_writes_sub hostOps0 _ hostOps0_writes (by decide : main_arg7 ∉ hostOps0_W)
      _ = m ((c : Thread nD τ).loc main_arg7) := rfl
  show (StableHlo.after hostOps1 (W2 m ρ c) (Proc.devRef .tc main_v32) : S1x128.Idx → EReal) (ix2 (0 : Fin 1) q) = _
  rw [e, shapeCast_a_1a_apply, k]

/-- The array the first region wrote for the normalisation to read is not touched by the stretch. -/
theorem host1_pre : U3 m ρ c main_v18_0 = W2 m ρ c main_v18_0 :=
  StableHlo.after_of_writes_sub hostOps1 _ hostOps1_writes (by decide : main_v18_0 ∉ hostOps1_W)

end Cert.KernelIdeal.Hand

end
-- ==== Proof.KI.StageB.lean ====
/-
  The second region's outputs in the specification's words. The region normalises the array the first region left,
  by the row of means and the row of variances the host stretch forms from the column sums of the first two moments,
  scales, shifts and rectifies; when that array is `T0` and the two sums are its column sums and its column sums of
  squares, both outputs are `normRelu T0 (colMean T0) (varRaw T0)` with the scale and shift arguments as launched.
-/
import proofs.«143586_j39599598469629_2_alg».proof.Proof.KI.Chain
import proofs.«143586_j39599598469629_2_alg».proof.Proof.KI.Value1
import proofs.«143586_j39599598469629_2_alg».proof.Proof.KI.Host1
import proofs.«143586_j39599598469629_2_alg».proof.Proof.Ref.Agg
import proofs.«143586_j39599598469629_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Spec
open Cert.ReferenceIdeal.Hand (cur1 cur2)

/-- The rectified normalisation of an array by rows that read as the specification's mean, raw-moment variance, scale
    and shift is the specification's `normRelu`. -/
theorem norm1_eq_normRelu (t : S100000x128.Idx → EReal) (mean var g be : S1x128.Idx → EReal) (T0 : Arr 128)
    (G BE : Fin 128 → EReal) (ht : ∀ p q, t (ix2 p q) = T0 p q)
    (hm : ∀ q, mean (ix2 (0 : Fin 1) q) = colMean T0 q) (hv : ∀ q, var (ix2 (0 : Fin 1) q) = varRaw T0 q)
    (hg : ∀ q, g (ix2 (0 : Fin 1) q) = G q) (hb : ∀ q, be (ix2 (0 : Fin 1) q) = BE q) (p : Fin 100000) (q : Fin 128) :
    norm1 t mean var g be p q = normRelu T0 (colMean T0) (varRaw T0) G BE p q := by
  unfold norm1 normRelu relu
  rw [ht, hm, hv, hg, hb]

variable (m : (ℓ : Loc nD τ sig) → Buf (Elt Ideal) ℓ) (ρ : Dev nD → PrngReg) (c : Dev nD)

/-- The row of means the second region reads is the specification's column mean of `T0`. -/
theorem stageB_mean (T0 : Arr 128)
    (h1 : ∀ q, W2 m ρ c main_v18_1 (ix2 (0 : Fin 1) q) = ∑ p : Fin 100000, T0 p q) (q : Fin 128) :
    U3 m ρ c main_v29 (ix2 (0 : Fin 1) q) = colMean T0 q := by
  rw [host1_mean, h1]
  rfl

/-- The row of variances the second region reads is the specification's raw-moment variance of `T0`. -/
theorem stageB_var (T0 : Arr 128)
    (h1 : ∀ q, W2 m ρ c main_v18_1 (ix2 (0 : Fin 1) q) = ∑ p : Fin 100000, T0 p q)
    (h2 : ∀ q, W2 m ρ c main_v18_2 (ix2 (0 : Fin 1) q) = ∑ p : Fin 100000, T0 p q * T0 p q) (q : Fin 128) :
    U3 m ρ c main_v30 (ix2 (0 : Fin 1) q) = varRaw T0 q := by
  rw [host1_var, h1, h2]
  rfl

/-- Both outputs of the second region are the specification's normalisation of `T0`. -/
theorem stageB (T0 : Arr 128) (h0 : ∀ p q, W2 m ρ c main_v18_0 (ix2 p q) = T0 p q)
    (h1 : ∀ q, W2 m ρ c main_v18_1 (ix2 (0 : Fin 1) q) = ∑ p : Fin 100000, T0 p q)
    (h2 : ∀ q, W2 m ρ c main_v18_2 (ix2 (0 : Fin 1) q) = ∑ p : Fin 100000, T0 p q * T0 p q) :
    (∀ p q, W4 m ρ c main_v33_0 (ix2 p q)
        = normRelu T0 (colMean T0) (varRaw T0) (cur1 (m ((c : Thread nD τ).loc main_arg6)))
            (cur1 (m ((c : Thread nD τ).loc main_arg7))) p q)
    ∧ (∀ p q, W4 m ρ c main_v33_1 (ix2 p q)
        = normRelu T0 (colMean T0) (varRaw T0) (cur1 (m ((c : Thread nD τ).loc main_arg6)))
            (cur1 (m ((c : Thread nD τ).loc main_arg7))) p q) := by
  have ht : ∀ p q, U3 m ρ c main_v18_0 (ix2 p q) = T0 p q := fun p q => by rw [host1_pre]; exact h0 p q
  have e5 : (W4 m ρ c main_v33_0 : S100000x128.Idx → EReal) = (dat1 (U3 m ρ) c).arrAt 5 cfg1.N := W4_arr m ρ c 5
  have e6 : (W4 m ρ c main_v33_1 : S100000x128.Idx → EReal) = (dat1 (U3 m ρ) c).arrAt 6 cfg1.N := W4_arr m ρ c 6
  refine ⟨fun p q => ?_, fun p q => ?_⟩
  · rw [e5, final1_5]
    exact norm1_eq_normRelu _ _ _ _ _ T0 _ _ ht (stageB_mean m ρ c T0 h1) (stageB_var m ρ c T0 h1 h2)
      (host1_g m ρ c) (host1_be m ρ c) p q
  · rw [e6, final1_6]
    exact norm1_eq_normRelu _ _ _ _ _ T0 _ _ ht (stageB_mean m ρ c T0 h1) (stageB_var m ρ c T0 h1 h2)
      (host1_g m ρ c) (host1_be m ρ c) p q

end Cert.KernelIdeal.Hand

end
-- ==== Proof.KI.Pieces2.lean ====
/-
  Region 2: what the body's stores leave, case by case, as the payload terms. Each output and each scratch row is
  stored whole; a row that is stored and then loaded again within the body reads the values just stored. So after the
  first case the block holds the perceptron's output, and the two running rows hold its column sums and the column
  sums of its squares ADDED TO ZERO ROWS; after a later case the same added to what the point before left.
-/
import proofs.«143586_j39599598469629_2_alg».proof.Proof.KI.Region2
import proofs.«143586_j39599598469629_2_alg».proof.Proof.LibCoveredLoad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem hz2_2 : (![0, 0] : Fin 2 → Nat) = fun _ => 0 := funext fun a => by fin_cases a <;> rfl

theorem canonA2_6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5).1 = k2_pay5 x0 x1 x2 x3 x4 x5 := by
  unfold kernelRun2_A
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread,
    View.ld_unit_zero (S := S4000x128) hz2_2, View.ld_unit_zero (S := S128x128) hz2_2, View.ld_unit_zero (S := S1x128) hz2_2]

theorem canonA2_7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5).2.1 = k2_pay1 (k2_pay6 x0 x1 x2 x3 x4 x5 k2_pay3) := by
  unfold kernelRun2_A
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread,
    View.ld_unit_zero (S := S4000x128) hz2_2, View.ld_unit_zero (S := S128x128) hz2_2, View.ld_unit_zero (S := S1x128) hz2_2]

theorem canonA2_8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5).2.2.1 = k2_pay2 (k2_pay5 x0 x1 x2 x3 x4 x5) k2_pay4 := by
  unfold kernelRun2_A
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread,
    View.ld_unit_zero (S := S4000x128) hz2_2, View.ld_unit_zero (S := S128x128) hz2_2, View.ld_unit_zero (S := S1x128) hz2_2]

theorem canonA2_S0 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5).2.2.2.1 = k2_pay1 (k2_pay6 x0 x1 x2 x3 x4 x5 k2_pay3) := by
  unfold kernelRun2_A
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread,
    View.ld_unit_zero (S := S4000x128) hz2_2, View.ld_unit_zero (S := S128x128) hz2_2, View.ld_unit_zero (S := S1x128) hz2_2]

theorem canonA2_S1 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : cond2 i) (x0 : Vec F S4000x128 .f32) (x1 : Vec F S4000x128 .f32) (x2 : Vec F S128x128 .f32) (x3 : Vec F S1x128 .f32) (x4 : Vec F S128x128 .f32) (x5 : Vec F S1x128 .f32) :
    View.canon (kernelRun2_A (F := F) c i arg1 harg1 arg2 harg2 arg3 harg3 arg4 harg4 arg5 harg5 arg6 harg6 arg7 harg7 arg8 harg8 arg9 harg9 arg10 harg10 arg11 harg11 hc x0 x1 x2 x3 x4 x5).2.2.2.2.1 = k2_pay2 (k2_pay5 x0 x1 x2 x3 x4 x5) k2_pay4 := by
  unfold kernelRun2_A
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread,
    View.ld_unit_zero (S := S4000x128) hz2_2, View.ld_unit_zero (S := S128x128) hz2_2, View.ld_unit_zero (S := S1x128) hz2_2]

theorem canonB2_6 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun2_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).1 = k2_pay5 x0 x1 x2 x3 x4 x5 := by
  unfold kernelRun2_B
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread, harg10.read_unread, harg11.read_unread,
    View.ld_unit_zero (S := S4000x128) hz2_2, View.ld_unit_zero (S := S128x128) hz2_2, View.ld_unit_zero (S := S1x128) hz2_2]

theorem canonB2_7 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun2_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.1 = k2_pay1 (k2_pay6 x0 x1 x2 x3 x4 x5 xs0) := by
  unfold kernelRun2_B
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread, harg10.read_unread, harg11.read_unread,
    View.ld_unit_zero (S := S4000x128) hz2_2, View.ld_unit_zero (S := S128x128) hz2_2, View.ld_unit_zero (S := S1x128) hz2_2]

theorem canonB2_8 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun2_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.2.1 = k2_pay2 (k2_pay5 x0 x1 x2 x3 x4 x5) xs1 := by
  unfold kernelRun2_B
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread, harg10.read_unread, harg11.read_unread,
    View.ld_unit_zero (S := S4000x128) hz2_2, View.ld_unit_zero (S := S128x128) hz2_2, View.ld_unit_zero (S := S1x128) hz2_2]

theorem canonB2_S0 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun2_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.2.2.1 = k2_pay1 (k2_pay6 x0 x1 x2 x3 x4 x5 xs0) := by
  unfold kernelRun2_B
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread, harg10.read_unread, harg11.read_unread,
    View.ld_unit_zero (S := S4000x128) hz2_2, View.ld_unit_zero (S := S128x128) hz2_2, View.ld_unit_zero (S := S1x128) hz2_2]

theorem canonB2_S1 (c : Dev nD) (i : grid2.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S4000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc : ¬cond2 i) (x0 : Vec F S4000x128 .f32) (x1 : Vec F S4000x128 .f32) (x2 : Vec F S128x128 .f32) (x3 : Vec F S1x128 .f32) (x4 : Vec F S128x128 .f32) (x5 : Vec F S1x128 .f32) (xs0 xs1 : Vec F S1x128 .f32) :
    View.canon (kernelRun2_B (F := F) c i arg1 harg1 arg2 harg2 arg3 harg3 arg4 harg4 arg5 harg5 arg6 harg6 arg7 harg7 arg8 harg8 arg9 harg9 arg10 harg10 arg11 harg11 hc x0 x1 x2 x3 x4 x5 xs0 xs1).2.2.2.2.1 = k2_pay2 (k2_pay5 x0 x1 x2 x3 x4 x5) xs1 := by
  unfold kernelRun2_B
  dsimp only
  sl_unfold_words
  first
    | rw [View.canon_unit_zero hz2_2]
    | rw [View.canon_cons_unit_zero hz2_2]
  simp only [View.readCov_cons_unit_zero (S := S1x128) _ hz2_2, View.readAt_eq_ld, harg1.read_unread, harg2.read_unread, harg3.read_unread, harg4.read_unread, harg5.read_unread, harg6.read_unread, harg10.read_unread, harg11.read_unread,
    View.ld_unit_zero (S := S4000x128) hz2_2, View.ld_unit_zero (S := S128x128) hz2_2, View.ld_unit_zero (S := S1x128) hz2_2]

end Cert.KernelIdeal.Hand

end
-- ==== Proof.KI.Pay2.lean ====
/-
  Region 2 (the second layer's perceptron and its column moments): the values it writes, at a row and a column.

  The same computation as region 0 on the second layer's inputs. The block written is, at (row `p`, column `q`),
  ∑ₖ max(∑ₗ (x p l + agg p l) · w1 l k + b1 k, 0) · w2 k q + b2 q. The two accumulator rows start at zero; one gains the
  block's column sums and is written back unchanged, the other gains the column sums of the squares of a block's entries.
-/
import proofs.«143586_j39599598469629_2_alg».proof.Proof.KI.PayOps
import proofs.«143586_j39599598469629_2_alg».proof.Proof.Spec

noncomputable section

namespace Cert.KernelIdeal.Hand

open Idealize.ShloMosaic Idealize.ShloMosaic.ValueIdx Cert.KernelIdeal Cert.KernelIdeal.Gen

/-- The block of region 2 at (`p`, `q`): the perceptron of row `p` of `x + agg`, at column `q`. -/
theorem pay2_pre (x agg : FVec Ideal S4000x128 .f32) (w1 : FVec Ideal S128x128 .f32) (b1 : FVec Ideal S1x128 .f32)
    (w2 : FVec Ideal S128x128 .f32) (b2 : FVec Ideal S1x128 .f32) (p : Fin 4000) (q : Fin 128) :
    k2_pay5 x agg w1 b1 w2 b2 (ix2 p q)
      = (∑ k : Fin 128, max ((∑ l : Fin 128, (x (ix2 p l) + agg (ix2 p l)) * w1 (ix2 l k)) + b1 (ix2 0 k)) 0 * w2 (ix2 k q))
          + b2 (ix2 0 q) := by
  unfold k2_pay5
  simp only [addf_apply, maximumf_apply, truncf_apply, broadcast_apply, shapeCast_self, matmul128_apply,
    broadcastTo_1b_ab_apply, Ideal.ofBits_def, Ideal.ofBits_zero_f32]

/-- The running column sums of region 2 at column `q`: the row read plus the sum of the block's column `q`. -/
theorem pay2_sum (x agg : FVec Ideal S4000x128 .f32) (w1 : FVec Ideal S128x128 .f32) (b1 : FVec Ideal S1x128 .f32)
    (w2 : FVec Ideal S128x128 .f32) (b2 : FVec Ideal S1x128 .f32) (s : FVec Ideal S1x128 .f32) (q : Fin 128) :
    k2_pay6 x agg w1 b1 w2 b2 s (ix2 0 q) = s (ix2 0 q) + ∑ p : Fin 4000, k2_pay5 x agg w1 b1 w2 b2 (ix2 p q) := by
  unfold k2_pay6
  rw [addf_apply, shapeCast_a_1a_apply]
  exact congrArg (s (ix2 0 q) + ·) (sumRows_apply _ _ _ _ q)

/-- The running column sums of squares of region 2 at column `q`: the row read plus the sum of the squares of the
    block's column `q`. -/
theorem pay2_sumsq (t : FVec Ideal S4000x128 .f32) (s : FVec Ideal S1x128 .f32) (q : Fin 128) :
    k2_pay2 t s (ix2 0 q) = s (ix2 0 q) + ∑ p : Fin 4000, t (ix2 p q) * t (ix2 p q) := by
  unfold k2_pay2
  rw [shapeCast_self, addf_apply, shapeCast_a_1a_apply]
  exact congrArg (s (ix2 0 q) + ·)
    ((sumRows_apply _ _ _ _ q).trans (Finset.sum_congr rfl fun p _ => mulf_apply t t (ix2 p q)))

/-- The first accumulator row of region 2 starts at zero. -/
theorem pay2_zero_a (q : Fin 128) : k2_pay3 (F := Ideal) (ix2 0 q) = 0 := by
  unfold k2_pay3
  rw [shapeCast_self, broadcast_apply]
  exact Ideal.ofBits_zero_f32

/-- The second accumulator row of region 2 starts at zero. -/
theorem pay2_zero_b (q : Fin 128) : k2_pay4 (F := Ideal) (ix2 0 q) = 0 := by
  unfold k2_pay4
  rw [shapeCast_self, broadcast_apply]
  exact Ideal.ofBits_zero_f32

/-- The row of column sums of region 2 is written back as it is. -/
theorem pay2_copy (v : FVec Ideal S1x128 .f32) (q : Fin 128) : k2_pay1 v (ix2 0 q) = v (ix2 0 q) := by
  unfold k2_pay1
  rw [shapeCast_self]

end Cert.KernelIdeal.Hand

end
-- ==== Proof.KI.Value2.lean ====
/-
  Region 2: the values. Grid point t handles rows 4000·t … 4000·t + 3999 of the two big inputs and of the big output,
  and the whole of the four small inputs. So the big output ends holding, row by row, the perceptron's output of the
  rows of the inputs; and the two running rows, which add one block's column sums per grid point starting from zero
  rows, end holding the column sums over all 100000 rows of that output and of its squares — a sum taken block by block
  is the whole sum, by associativity and commutativity alone.
-/
import proofs.«143586_j39599598469629_2_alg».proof.Proof.KI.Pieces2
import proofs.«143586_j39599598469629_2_alg».proof.Proof.KI.Pay2
import proofs.«143586_j39599598469629_2_alg».proof.Proof.LibBlockedSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open BlockedSum

section Value2

variable (V : (c : Dev nD) → (b : Ref sig .tc) → Buf (Elt Ideal) ((c : Thread nD τ).loc b))

theorem h100k_2 : 0 < 100000 := by norm_num
theorem hblocks_2 : 25 * 4000 = 100000 := by norm_num

/-- The printed index maps over the grid: the big windows' block index is the grid position on the row axis, the small
    windows' is zero. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The perceptron's output at row `p`, column `q`, of given arrays. -/
def preOf2 (X A : S100000x128.Idx → EReal) (W1 : S128x128.Idx → EReal) (B1 : S1x128.Idx → EReal) (W2 : S128x128.Idx → EReal)
    (B2 : S1x128.Idx → EReal) (p : Fin 100000) (q : Fin 128) : EReal :=
  (∑ k : Fin 128, max ((∑ l : Fin 128, (X (ix2 p l) + A (ix2 p l)) * W1 (ix2 l k)) + B1 (ix2 0 k)) 0 * W2 (ix2 k q)) + B2 (ix2 0 q)

/-- The same from the arrays as the region finds them. -/
def pre2 (c : Dev nD) (p : Fin 100000) (q : Fin 128) : EReal :=
  preOf2 (V c main_v33_0) (V c main_v44) (V c main_arg8) (V c main_v45) (V c main_arg10) (V c main_v46) p q

/-- A big input's block at point `t` is rows 4000·t … of its array. -/
theorem blk2_0 (c : Dev nD) (t : Fin cfg2.N) (r : Fin 4000) (l : Fin 128) :
    (iblk2 V c 0 t : S4000x128.Idx → EReal) (ix2 r l) = (V c main_v33_0 : S100000x128.Idx → EReal) (ix2 (blkIdx h100k_2 4000 t.val r) l) := by
  have ht : t.val < 25 := lt_of_lt_of_eq t.isLt N_2
  obtain ⟨e0, e1, -⟩ := idx2_facts t
  show (V c main_v33_0 : S100000x128.Idx → EReal) (((cfg2.win 0).blk t).view.emb (ix2 r l)) = _
  refine congrArg _ ?_
  funext a; apply Fin.ext
  match a with
  | ⟨0, _⟩ => show win2_0.index t (0 : Fin 2) * 4000 + 1 * r.val = (blkIdx h100k_2 4000 t.val r).val; rw [blkIdx_val h100k_2 hblocks_2 ht r, e0]; omega
  | ⟨1, _⟩ => show win2_0.index t (1 : Fin 2) * 128 + 1 * l.val = l.val; rw [e1]; omega

theorem blk2_1 (c : Dev nD) (t : Fin cfg2.N) (r : Fin 4000) (l : Fin 128) :
    (iblk2 V c 1 t : S4000x128.Idx → EReal) (ix2 r l) = (V c main_v44 : S100000x128.Idx → EReal) (ix2 (blkIdx h100k_2 4000 t.val r) l) := by
  have ht : t.val < 25 := lt_of_lt_of_eq t.isLt N_2
  obtain ⟨-, -, e0, e1, -⟩ := idx2_facts t
  show (V c main_v44 : S100000x128.Idx → EReal) (((cfg2.win 1).blk t).view.emb (ix2 r l)) = _
  refine congrArg _ ?_
  funext a; apply Fin.ext
  match a with
  | ⟨0, _⟩ => show win2_1.index t (0 : Fin 2) * 4000 + 1 * r.val = (blkIdx h100k_2 4000 t.val r).val; rw [blkIdx_val h100k_2 hblocks_2 ht r, e0]; omega
  | ⟨1, _⟩ => show win2_1.index t (1 : Fin 2) * 128 + 1 * l.val = l.val; rw [e1]; omega

/-- A small input's block at every point is its whole array. -/
theorem blk2_2 (c : Dev nD) (t : Fin cfg2.N) (a : Fin 128) (b : Fin 128) :
    (iblk2 V c 2 t : S128x128.Idx → EReal) (ix2 a b) = (V c main_arg8 : S128x128.Idx → EReal) (ix2 a b) := by
  obtain ⟨-, -, -, -, e0, e1, -⟩ := idx2_facts t
  show (V c main_arg8 : S128x128.Idx → EReal) (((cfg2.win 2).blk t).view.emb (ix2 a b)) = _
  refine congrArg _ ?_
  funext d; apply Fin.ext
  match d with
  | ⟨0, _⟩ => show win2_2.index t (0 : Fin 2) * 128 + 1 * a.val = a.val; rw [e0]; omega
  | ⟨1, _⟩ => show win2_2.index t (1 : Fin 2) * 128 + 1 * b.val = b.val; rw [e1]; omega

theorem blk2_3 (c : Dev nD) (t : Fin cfg2.N) (a : Fin 1) (b : Fin 128) :
    (iblk2 V c 3 t : S1x128.Idx → EReal) (ix2 a b) = (V c main_v45 : S1x128.Idx → EReal) (ix2 a b) := by
  obtain ⟨-, -, -, -, -, -, e0, e1, -⟩ := idx2_facts t
  show (V c main_v45 : S1x128.Idx → EReal) (((cfg2.win 3).blk t).view.emb (ix2 a b)) = _
  refine congrArg _ ?_
  funext d; apply Fin.ext
  match d with
  | ⟨0, _⟩ => show win2_3.index t (0 : Fin 2) * 1 + 1 * a.val = a.val; rw [e0]; omega
  | ⟨1, _⟩ => show win2_3.index t (1 : Fin 2) * 128 + 1 * b.val = b.val; rw [e1]; omega

theorem blk2_4 (c : Dev nD) (t : Fin cfg2.N) (a : Fin 128) (b : Fin 128) :
    (iblk2 V c 4 t : S128x128.Idx → EReal) (ix2 a b) = (V c main_arg10 : S128x128.Idx → EReal) (ix2 a b) := by
  obtain ⟨-, -, -, -, -, -, -, -, e0, e1, -⟩ := idx2_facts t
  show (V c main_arg10 : S128x128.Idx → EReal) (((cfg2.win 4).blk t).view.emb (ix2 a b)) = _
  refine congrArg _ ?_
  funext d; apply Fin.ext
  match d with
  | ⟨0, _⟩ => show win2_4.index t (0 : Fin 2) * 128 + 1 * a.val = a.val; rw [e0]; omega
  | ⟨1, _⟩ => show win2_4.index t (1 : Fin 2) * 128 + 1 * b.val = b.val; rw [e1]; omega

theorem blk2_5 (c : Dev nD) (t : Fin cfg2.N) (a : Fin 1) (b : Fin 128) :
    (iblk2 V c 5 t : S1x128.Idx → EReal) (ix2 a b) = (V c main_v46 : S1x128.Idx → EReal) (ix2 a b) := by
  obtain ⟨-, -, -, -, -, -, -, -, -, -, e0, e1, -⟩ := idx2_facts t
  show (V c main_v46 : S1x128.Idx → EReal) (((cfg2.win 5).blk t).view.emb (ix2 a b)) = _
  refine congrArg _ ?_
  funext d; apply Fin.ext
  match d with
  | ⟨0, _⟩ => show win2_5.index t (0 : Fin 2) * 1 + 1 * a.val = a.val; rw [e0]; omega
  | ⟨1, _⟩ => show win2_5.index t (1 : Fin 2) * 128 + 1 * b.val = b.val; rw [e1]; omega

/-- The perceptron's block at point `t`, row `r`, is the perceptron's output at row 4000·t + r. -/
theorem payblk2 (c : Dev nD) (t : Fin cfg2.N) (r : Fin 4000) (q : Fin 128) :
    k2_pay5 (F := Ideal) (iblk2 V c 0 t) (iblk2 V c 1 t) (iblk2 V c 2 t) (iblk2 V c 3 t) (iblk2 V c 4 t) (iblk2 V c 5 t) (ix2 r q)
      = pre2 V c (blkIdx h100k_2 4000 t.val r) q := by
  refine (pay2_pre (iblk2 V c 0 t) (iblk2 V c 1 t) (iblk2 V c 2 t) (iblk2 V c 3 t) (iblk2 V c 4 t) (iblk2 V c 5 t) r q).trans ?_
  unfold pre2 preOf2
  simp only [blk2_0 V c t, blk2_1 V c t, blk2_2 V c t, blk2_3 V c t, blk2_4 V c t, blk2_5 V c t]

/-- The output block after the body at point `t`: the perceptron's output at rows 4000·t …. -/
theorem outs6_2 (c : Dev nD) (t : Fin cfg2.N) (r : Fin 4000) (q : Fin 128) :
    ((outsAt2 V c t.val t.isLt).1 : S4000x128.Idx → EReal) (ix2 r q) = pre2 V c (blkIdx h100k_2 4000 t.val r) q := by
  by_cases hz : t.val = 0
  · rw [outsAt2_A V c t hz]; unfold outA2; dsimp only
    rw [canonA2_6]
    exact payblk2 V c t r q
  · rw [outsAt2_B V c t hz]; unfold outB2; dsimp only
    rw [canonB2_6]
    exact payblk2 V c t r q

/-- The first running row after point `n`: the column sums of the perceptron's output over the blocks 0 … n. -/
theorem scrSum_2 (c : Dev nD) : ∀ (n : ℕ) (hn : n < cfg2.N) (q : Fin 128),
    ((outsAt2 V c n hn).2.2.2.1 : S1x128.Idx → EReal) (ix2 0 q) = partialSum h100k_2 4000 (fun p => pre2 V c p q) n
  | 0, hn, q => by
    show ((outA2 V c ⟨0, hn⟩ ((hcond2 ⟨0, hn⟩).mpr rfl)).2.2.2.1 : S1x128.Idx → EReal) (ix2 0 q) = _
    unfold outA2; dsimp only
    rw [canonA2_S0]
    refine (pay2_copy _ q).trans ?_
    refine (pay2_sum (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay3 (F := Ideal)) q).trans ?_
    rw [pay2_zero_a, zero_add, partialSum_zero]
    unfold blockSum
    exact Finset.sum_congr rfl fun r _ => payblk2 V c ⟨0, hn⟩ r q
  | n + 1, hn, q => by
    show ((outB2 V c ⟨n + 1, hn⟩ (fun h => Nat.succ_ne_zero n ((hcond2 ⟨n + 1, hn⟩).mp h))
      (outsAt2 V c n (Nat.lt_of_succ_lt hn)).2.2.2.1 (outsAt2 V c n (Nat.lt_of_succ_lt hn)).2.2.2.2).2.2.2.1 : S1x128.Idx → EReal) (ix2 0 q) = _
    unfold outB2; dsimp only
    rw [canonB2_S0]
    refine (pay2_copy _ q).trans ?_
    refine (pay2_sum (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.2.2.1 q).trans ?_
    rw [scrSum_2 c n (Nat.lt_of_succ_lt hn) q, partialSum_succ]
    unfold blockSum
    exact congrArg _ (Finset.sum_congr rfl fun r _ => payblk2 V c ⟨n + 1, hn⟩ r q)

/-- The second running row after point `n`: the column sums of the squares over the blocks 0 … n. -/
theorem scrSq_2 (c : Dev nD) : ∀ (n : ℕ) (hn : n < cfg2.N) (q : Fin 128),
    ((outsAt2 V c n hn).2.2.2.2 : S1x128.Idx → EReal) (ix2 0 q) = partialSum h100k_2 4000 (fun p => pre2 V c p q * pre2 V c p q) n
  | 0, hn, q => by
    show ((outA2 V c ⟨0, hn⟩ ((hcond2 ⟨0, hn⟩).mpr rfl)).2.2.2.2 : S1x128.Idx → EReal) (ix2 0 q) = _
    unfold outA2; dsimp only
    rw [canonA2_S1]
    refine (pay2_sumsq (k2_pay5 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) (k2_pay4 (F := Ideal)) q).trans ?_
    rw [pay2_zero_b, zero_add, partialSum_zero]
    unfold blockSum
    exact Finset.sum_congr rfl fun r _ => by rw [payblk2 V c ⟨0, hn⟩ r q]
  | n + 1, hn, q => by
    show ((outB2 V c ⟨n + 1, hn⟩ (fun h => Nat.succ_ne_zero n ((hcond2 ⟨n + 1, hn⟩).mp h))
      (outsAt2 V c n (Nat.lt_of_succ_lt hn)).2.2.2.1 (outsAt2 V c n (Nat.lt_of_succ_lt hn)).2.2.2.2).2.2.2.2 : S1x128.Idx → EReal) (ix2 0 q) = _
    unfold outB2; dsimp only
    rw [canonB2_S1]
    refine (pay2_sumsq (k2_pay5 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (outsAt2 V c n (Nat.lt_of_succ_lt hn)).2.2.2.2 q).trans ?_
    rw [scrSq_2 c n (Nat.lt_of_succ_lt hn) q, partialSum_succ]
    unfold blockSum
    exact congrArg _ (Finset.sum_congr rfl fun r _ => by rw [payblk2 V c ⟨n + 1, hn⟩ r q])

set_option maxHeartbeats 4000000 in
/-- The two small outputs hold the same rows as the running rows (each is a copy of the row just stored). -/
theorem out7_eq_2 (c : Dev nD) (n : ℕ) (hn : n < cfg2.N) : (outsAt2 V c n hn).2.1 = (outsAt2 V c n hn).2.2.2.1 := by
  by_cases hz : n = 0
  · rw [(outsAt2_A V c ⟨n, hn⟩ hz : outsAt2 V c n hn = _)]
    unfold outA2; dsimp only
    rw [canonA2_7, canonA2_S0]
  · rw [(outsAt2_B V c ⟨n, hn⟩ hz : outsAt2 V c n hn = _)]
    unfold outB2; dsimp only
    rw [canonB2_7, canonB2_S0]

set_option maxHeartbeats 4000000 in
theorem out8_eq_2 (c : Dev nD) (n : ℕ) (hn : n < cfg2.N) : (outsAt2 V c n hn).2.2.1 = (outsAt2 V c n hn).2.2.2.2 := by
  by_cases hz : n = 0
  · rw [(outsAt2_A V c ⟨n, hn⟩ hz : outsAt2 V c n hn = _)]
    unfold outA2; dsimp only
    rw [canonA2_8, canonA2_S1]
  · rw [(outsAt2_B V c ⟨n, hn⟩ hz : outsAt2 V c n hn = _)]
    unfold outB2; dsimp only
    rw [canonB2_8, canonB2_S1]

/-- After the last point the running rows hold the column sums over all the rows. -/
theorem lastSum_2 (c : Dev nD) (n : ℕ) (hn : n < cfg2.N) (hlast : n + 1 = 25) (q : Fin 128) :
    ((outsAt2 V c n hn).2.1 : S1x128.Idx → EReal) (ix2 0 q) = ∑ p : Fin 100000, pre2 V c p q := by
  rw [out7_eq_2, scrSum_2 V c n hn q]
  exact partialSum_last h100k_2 hblocks_2 _ hlast

theorem lastSq_2 (c : Dev nD) (n : ℕ) (hn : n < cfg2.N) (hlast : n + 1 = 25) (q : Fin 128) :
    ((outsAt2 V c n hn).2.2.1 : S1x128.Idx → EReal) (ix2 0 q) = ∑ p : Fin 100000, pre2 V c p q * pre2 V c p q := by
  rw [out8_eq_2, scrSq_2 V c n hn q]
  exact partialSum_last h100k_2 hblocks_2 _ hlast

/-! ### The arrays after the region -/

/-- The perceptron's output as an array, and the column sums of it and of its squares as rows. -/
def preArr2 (c : Dev nD) : S100000x128.Idx → EReal := fun i => pre2 V c (i 0) (i 1)
def sumArr2 (c : Dev nD) : S1x128.Idx → EReal := fun i => ∑ p : Fin 100000, pre2 V c p (i 1)
def sqArr2 (c : Dev nD) : S1x128.Idx → EReal := fun i => ∑ p : Fin 100000, pre2 V c p (i 1) * pre2 V c p (i 1)

/-- Entry (`a`, `b`) of point `t`'s block of the big output is entry (4000·t + a, b) of the array. -/
theorem emb2_6 (t : Fin cfg2.N) (a : Fin 4000) (b : Fin 128) :
    (((cfg2.win 6).blk t).view.emb (ix2 a b) : S100000x128.Idx) = ix2 (blkIdx h100k_2 4000 t.val a) b := by
  have ht : t.val < 25 := lt_of_lt_of_eq t.isLt N_2
  obtain ⟨-, -, -, -, -, -, -, -, -, -, -, -, e0, e1, -⟩ := idx2_facts t
  refine funext fun ax => Fin.ext ?_
  match ax with
  | ⟨0, _⟩ => show win2_6.index t (0 : Fin 2) * 4000 + 1 * a.val = (blkIdx h100k_2 4000 t.val a).val; rw [blkIdx_val h100k_2 hblocks_2 ht a, e0]; omega
  | ⟨1, _⟩ => show win2_6.index t (1 : Fin 2) * 128 + 1 * b.val = b.val; omega

/-- What point `t` writes back to the big output is its block of the perceptron's output. -/
theorem flushed2_6_eq (c : Dev nD) (t : Fin cfg2.N) :
    (dat2 V c).flushed 6 t = ((cfg2.win 6).blk t).view.read (Elt Ideal) (preArr2 V c) := by
  show (cfg2.win 6).cut (grid2.coords t) ((dat2 V c).after 6 t) = _
  rw [after2_6]
  funext j
  obtain ⟨a, b, rfl⟩ : ∃ (a : Fin 4000) (b : Fin 128), j = ix2 a b := ⟨j 0, j 1, eq_ix2 j⟩
  show ((outsAt2 V c t.val t.isLt).1 : S4000x128.Idx → EReal) (ix2 a b) = preArr2 V c (((cfg2.win 6).blk t).view.emb (ix2 a b))
  rw [emb2_6 t a b]
  exact outs6_2 V c t a b

theorem mem_blk2_6 (t : Fin cfg2.N) (i : S100000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v47_0).slice (win2_6.rect t)).set ↔ _
  rw [View.set_slice_whole, Rect.mem_set_unit]
  exact Iff.rfl

/-- Row r is in block r / 4000. -/
theorem covered2_6 (i : S100000x128.Idx) :
    ∃ t : Fin cfg2.N, (cfg2.win 6).flush t = true ∧ i ∈ ((cfg2.win 6).blk t).view.set := by
  have hN : cfg2.N = 25 := N_2
  have hi0 : (i 0).val < 100000 := (i 0).isLt
  have hi1 : (i 1).val < 128 := (i 1).isLt
  obtain ⟨t, ht⟩ : ∃ t : Fin cfg2.N, t.val = (i 0).val / 4000 := ⟨⟨(i 0).val / 4000, by omega⟩, rfl⟩
  obtain ⟨-, -, -, -, -, -, -, -, -, -, -, -, e0, e1, -⟩ := idx2_facts t
  refine ⟨t, flush2_6 t, ?_⟩
  rw [mem_blk2_6]
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 128 ≤ (i 1).val ∧ (i 1).val < win2_6.index t (1 : Fin 2) * 128 + 128
    omega

theorem arr2_6 (c : Dev nD) : (dat2 V c).arrAt 6 cfg2.N = preArr2 V c :=
  (dat2 V c).arrAt_eq_of_cover 6 (preArr2 V c) (fun t _ => flushed2_6_eq V c t) covered2_6

theorem final2_6 (c : Dev nD) (p : Fin 100000) (q : Fin 128) :
    ((dat2 V c).arrAt 6 cfg2.N : S100000x128.Idx → EReal) (ix2 p q) = pre2 V c p q := by
  rw [arr2_6]; rfl

theorem sumArr2_apply (c : Dev nD) (q : Fin 128) : sumArr2 V c (ix2 (0 : Fin 1) q) = ∑ p : Fin 100000, pre2 V c p q := rfl

/-- Entry (0, `b`) of a point's block of small output 7 is entry (0, `b`) of the array. -/
theorem emb2_7 (t : Fin cfg2.N) (b : Fin 128) :
    (((cfg2.win 7).blk t).view.emb (ix2 0 b) : S1x128.Idx) = ix2 0 b := by
  obtain ⟨-, -, -, -, -, -, -, -, -, -, -, -, -, -, e0, e1, -⟩ := idx2_facts t
  refine funext fun ax => Fin.ext ?_
  match ax with
  | ⟨0, _⟩ => show win2_7.index t (0 : Fin 2) * 1 + 1 * 0 = 0; omega
  | ⟨1, _⟩ => show win2_7.index t (1 : Fin 2) * 128 + 1 * b.val = b.val; omega

set_option maxRecDepth 400000 in
/-- It is written back only after the last point, and then holds the column sums over all the rows. -/
theorem flushed2_7_eq (c : Dev nD) (t : Fin cfg2.N) (hf : (cfg2.win 7).flush t = true) :
    (dat2 V c).flushed 7 t = ((cfg2.win 7).blk t).view.read (Elt Ideal) (sumArr2 V c) := by
  have hN : cfg2.N = 25 := N_2
  have ht : t.val + 1 = 25 := by have h1 := (flush2_7 t).mp hf; have h2 := t.isLt; omega
  show (cfg2.win 7).cut (grid2.coords t) ((dat2 V c).after 7 t) = _
  rw [after2_7]
  funext j
  obtain ⟨a, b, rfl⟩ : ∃ (a : Fin 1) (b : Fin 128), j = ix2 a b := ⟨j 0, j 1, eq_ix2 j⟩
  obtain rfl : a = 0 := Subsingleton.elim _ _
  have h2 : ((outsAt2 V c t.val t.isLt).2.1 : S1x128.Idx → EReal) (ix2 (0 : Fin 1) b) = ∑ p : Fin 100000, pre2 V c p b := lastSum_2 V c t.val t.isLt ht b
  have h3 : sumArr2 V c (((cfg2.win 7).blk t).view.emb (ix2 (0 : Fin 1) b)) = ∑ p : Fin 100000, pre2 V c p b :=
    (congrArg (sumArr2 V c) (emb2_7 t b)).trans (sumArr2_apply V c b)
  exact h2.trans h3.symm

theorem mem_blk2_7 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v47_1).slice (win2_7.rect t)).set ↔ _
  rw [View.set_slice_whole, Rect.mem_set_unit]
  exact Iff.rfl

theorem covered2_7 (i : S1x128.Idx) :
    ∃ t : Fin cfg2.N, (cfg2.win 7).flush t = true ∧ i ∈ ((cfg2.win 7).blk t).view.set := by
  have hN : cfg2.N = 25 := N_2
  have hi0 : (i 0).val < 1 := (i 0).isLt
  have hi1 : (i 1).val < 128 := (i 1).isLt
  obtain ⟨t, ht⟩ : ∃ t : Fin cfg2.N, t.val = 24 := ⟨⟨24, by omega⟩, rfl⟩
  obtain ⟨-, -, -, -, -, -, -, -, -, -, -, -, -, -, e0, e1, -⟩ := idx2_facts t
  refine ⟨t, (flush2_7 t).mpr (by omega), ?_⟩
  rw [mem_blk2_7]
  intro a
  match a with
  | ⟨0, _⟩ =>
    show win2_7.index t (0 : Fin 2) * 1 ≤ (i 0).val ∧ (i 0).val < win2_7.index t (0 : Fin 2) * 1 + 1
    omega
  | ⟨1, _⟩ =>
    show win2_7.index t (1 : Fin 2) * 128 ≤ (i 1).val ∧ (i 1).val < win2_7.index t (1 : Fin 2) * 128 + 128
    omega

theorem arr2_7 (c : Dev nD) : (dat2 V c).arrAt 7 cfg2.N = sumArr2 V c :=
  (dat2 V c).arrAt_eq_of_cover 7 (sumArr2 V c) (fun t hf => flushed2_7_eq V c t hf) covered2_7

theorem final2_7 (c : Dev nD) (q : Fin 128) :
    ((dat2 V c).arrAt 7 cfg2.N : S1x128.Idx → EReal) (ix2 0 q) = ∑ p : Fin 100000, pre2 V c p q := by
  rw [arr2_7]; rfl

theorem sqArr2_apply (c : Dev nD) (q : Fin 128) : sqArr2 V c (ix2 (0 : Fin 1) q) = ∑ p : Fin 100000, pre2 V c p q * pre2 V c p q := rfl

/-- Entry (0, `b`) of a point's block of small output 8 is entry (0, `b`) of the array. -/
theorem emb2_8 (t : Fin cfg2.N) (b : Fin 128) :
    (((cfg2.win 8).blk t).view.emb (ix2 0 b) : S1x128.Idx) = ix2 0 b := by
  obtain ⟨-, -, -, -, -, -, -, -, -, -, -, -, -, -, -, -, e0, e1⟩ := idx2_facts t
  refine funext fun ax => Fin.ext ?_
  match ax with
  | ⟨0, _⟩ => show win2_8.index t (0 : Fin 2) * 1 + 1 * 0 = 0; omega
  | ⟨1, _⟩ => show win2_8.index t (1 : Fin 2) * 128 + 1 * b.val = b.val; omega

set_option maxRecDepth 400000 in
/-- It is written back only after the last point, and then holds the column sums of the squares over all the rows. -/
theorem flushed2_8_eq (c : Dev nD) (t : Fin cfg2.N) (hf : (cfg2.win 8).flush t = true) :
    (dat2 V c).flushed 8 t = ((cfg2.win 8).blk t).view.read (Elt Ideal) (sqArr2 V c) := by
  have hN : cfg2.N = 25 := N_2
  have ht : t.val + 1 = 25 := by have h1 := (flush2_8 t).mp hf; have h2 := t.isLt; omega
  show (cfg2.win 8).cut (grid2.coords t) ((dat2 V c).after 8 t) = _
  rw [after2_8]
  funext j
  obtain ⟨a, b, rfl⟩ : ∃ (a : Fin 1) (b : Fin 128), j = ix2 a b := ⟨j 0, j 1, eq_ix2 j⟩
  obtain rfl : a = 0 := Subsingleton.elim _ _
  have h2 : ((outsAt2 V c t.val t.isLt).2.2.1 : S1x128.Idx → EReal) (ix2 (0 : Fin 1) b) = ∑ p : Fin 100000, pre2 V c p b * pre2 V c p b := lastSq_2 V c t.val t.isLt ht b
  have h3 : sqArr2 V c (((cfg2.win 8).blk t).view.emb (ix2 (0 : Fin 1) b)) = ∑ p : Fin 100000, pre2 V c p b * pre2 V c p b :=
    (congrArg (sqArr2 V c) (emb2_8 t b)).trans (sqArr2_apply V c b)
  exact h2.trans h3.symm

theorem mem_blk2_8 (t : Fin cfg2.N) (i : S1x128.Idx) :
    i ∈ ((cfg2.win 8).blk t).view.set ↔ ∀ a : Fin 2, win2_8.index t a * S1x128.size a ≤ (i a).val
      ∧ (i a).val < win2_8.index t a * S1x128.size a + S1x128.size a := by
  show i ∈ ((View.whole main_v47_2).slice (win2_8.rect t)).set ↔ _
  rw [View.set_slice_whole, Rect.mem_set_unit]
  exact Iff.rfl

theorem covered2_8 (i : S1x128.Idx) :
    ∃ t : Fin cfg2.N, (cfg2.win 8).flush t = true ∧ i ∈ ((cfg2.win 8).blk t).view.set := by
  have hN : cfg2.N = 25 := N_2
  have hi0 : (i 0).val < 1 := (i 0).isLt
  have hi1 : (i 1).val < 128 := (i 1).isLt
  obtain ⟨t, ht⟩ : ∃ t : Fin cfg2.N, t.val = 24 := ⟨⟨24, by omega⟩, rfl⟩
  obtain ⟨-, -, -, -, -, -, -, -, -, -, -, -, -, -, -, -, e0, e1⟩ := idx2_facts t
  refine ⟨t, (flush2_8 t).mpr (by omega), ?_⟩
  rw [mem_blk2_8]
  intro a
  match a with
  | ⟨0, _⟩ =>
    show win2_8.index t (0 : Fin 2) * 1 ≤ (i 0).val ∧ (i 0).val < win2_8.index t (0 : Fin 2) * 1 + 1
    omega
  | ⟨1, _⟩ =>
    show win2_8.index t (1 : Fin 2) * 128 ≤ (i 1).val ∧ (i 1).val < win2_8.index t (1 : Fin 2) * 128 + 128
    omega

theorem arr2_8 (c : Dev nD) : (dat2 V c).arrAt 8 cfg2.N = sqArr2 V c :=
  (dat2 V c).arrAt_eq_of_cover 8 (sqArr2 V c) (fun t hf => flushed2_8_eq V c t hf) covered2_8

theorem final2_8 (c : Dev nD) (q : Fin 128) :
    ((dat2 V c).arrAt 8 cfg2.N : S1x128.Idx → EReal) (ix2 0 q) = ∑ p : Fin 100000, pre2 V c p q * pre2 V c p q := by
  rw [arr2_8]; rfl

/-- The input arrays are as the region found them. -/
theorem kept2_0 (c : Dev nD) : (dat2 V c).arrAt 0 cfg2.N = V c (Pipeline.arrRef spec2 0) :=
  ((dat2 V c).arrAt_in 0 rfl _).trans (A_eq2 V c 0)
theorem kept2_1 (c : Dev nD) : (dat2 V c).arrAt 1 cfg2.N = V c (Pipeline.arrRef spec2 1) :=
  ((dat2 V c).arrAt_in 1 rfl _).trans (A_eq2 V c 1)
theorem kept2_2 (c : Dev nD) : (dat2 V c).arrAt 2 cfg2.N = V c (Pipeline.arrRef spec2 2) :=
  ((dat2 V c).arrAt_in 2 rfl _).trans (A_eq2 V c 2)
theorem kept2_3 (c : Dev nD) : (dat2 V c).arrAt 3 cfg2.N = V c (Pipeline.arrRef spec2 3) :=
  ((dat2 V c).arrAt_in 3 rfl _).trans (A_eq2 V c 3)
theorem kept2_4 (c : Dev nD) : (dat2 V c).arrAt 4 cfg2.N = V c (Pipeline.arrRef spec2 4) :=
  ((dat2 V c).arrAt_in 4 rfl _).trans (A_eq2 V c 4)
theorem kept2_5 (c : Dev nD) : (dat2 V c).arrAt 5 cfg2.N = V c (Pipeline.arrRef spec2 5) :=
  ((dat2 V c).arrAt_in 5 rfl _).trans (A_eq2 V c 5)

end Value2

end Cert.KernelIdeal.Hand

end
-- ==== Proof.KI.Host2.lean ====
/-
  The stretch of host operations between the second region and the third, read as values: it forms the neighbour
  aggregation of the narrow copy of the rows the second region wrote, with the reference's operations (the rows gathered
  along the edges' sources, negative node numbers counted from the end, widened, and added into zeros at the edges'
  targets; the widening changes nothing at the exact values), reading the edges' sources and targets from the rows the
  first stretch formed, which nothing in between writes; the two bias rows are the arguments as launched, reshaped; the
  rows the second region wrote and the two weight matrices are left as they were.
-/
import proofs.«143586_j39599598469629_2_alg».proof.Proof.KI.Chain
import proofs.«143586_j39599598469629_2_alg».proof.Proof.Ref.Fns
import proofs.«143586_j39599598469629_2_alg».proof.Proof.Spec
import Idealize.ShloMosaic.Lib.StableHlo.Run
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- Argument 8 is as launched when the third stretch begins: no stretch writes it and no earlier region holds it. -/
theorem W4_main_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-- Argument 9 is as launched when the third stretch begins: no stretch writes it and no earlier region holds it. -/
theorem W4_main_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

/-- Argument 10 is as launched when the third stretch begins: no stretch writes it and no earlier region holds it. -/
theorem W4_main_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-- Argument 11 is as launched when the third stretch begins: no stretch writes it and no earlier region holds it. -/
theorem W4_main_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

/-- The edges' sources, formed in the first stretch, are still held when the third stretch begins. -/
theorem W4_main_v1 :
    (W4 m ρ c (Proc.devRef .tc main_v1) : S1600000.Idx → BitVec 32)
      = (shapeCast S1600000 (extractStridedSlice S1x1600000 ![0, 0] (m ((c : Thread nD τ).loc main_arg1)) slices_S2x1600000_S1x1600000_0_0) shapeCasts_S1x1600000_S1600000) :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps1 _ hostOps1_writes (by decide : main_v1 ∉ hostOps1_W)
    _ = W1 m ρ c (Proc.devRef .tc main_v1) := W2_of_ne m ρ c main_v1 (by decide)
    _ = (shapeCast S1600000 (extractStridedSlice S1x1600000 ![0, 0] (W0 m ρ c (Proc.devRef .tc main_arg1)) slices_S2x1600000_S1x1600000_0_0) shapeCasts_S1x1600000_S1600000) := by
        show StableHlo.after hostOps0 (W0 m ρ c) (Proc.devRef .tc main_v1) = _
        generalize W0 m ρ c = X
        after_results_simp
        rfl
    _ = (shapeCast S1600000 (extractStridedSlice S1x1600000 ![0, 0] (m ((c : Thread nD τ).loc main_arg1)) slices_S2x1600000_S1x1600000_0_0) shapeCasts_S1x1600000_S1600000) := rfl

/-- The edges' targets, formed in the first stretch, are still held when the third stretch begins. -/
theorem W4_main_v3 :
    (W4 m ρ c (Proc.devRef .tc main_v3) : S1600000.Idx → BitVec 32)
      = (shapeCast S1600000 (extractStridedSlice S1x1600000 ![1, 0] (m ((c : Thread nD τ).loc main_arg1)) slices_S2x1600000_S1x1600000_1_0) shapeCasts_S1x1600000_S1600000) :=
  calc W4 m ρ c (Proc.devRef .tc main_v3)
    _ = W3 m ρ c (Proc.devRef .tc main_v3) := W4_of_ne m ρ c main_v3 (by decide)
    _ = W2 m ρ c (Proc.devRef .tc main_v3) := StableHlo.after_of_writes_sub hostOps1 _ hostOps1_writes (by decide : main_v3 ∉ hostOps1_W)
    _ = W1 m ρ c (Proc.devRef .tc main_v3) := W2_of_ne m ρ c main_v3 (by decide)
    _ = (shapeCast S1600000 (extractStridedSlice S1x1600000 ![1, 0] (W0 m ρ c (Proc.devRef .tc main_arg1)) slices_S2x1600000_S1x1600000_1_0) shapeCasts_S1x1600000_S1600000) := by
        show StableHlo.after hostOps0 (W0 m ρ c) (Proc.devRef .tc main_v3) = _
        generalize W0 m ρ c = X
        after_results_simp
        rfl
    _ = (shapeCast S1600000 (extractStridedSlice S1x1600000 ![1, 0] (m ((c : Thread nD τ).loc main_arg1)) slices_S2x1600000_S1x1600000_1_0) shapeCasts_S1x1600000_S1600000) := rfl

/-- The aggregated array after the third stretch, as the stretch's operations applied to the contents before it. -/
theorem host2_agg_arr (X : Valuation τ sig (Elt Ideal)) :
    (StableHlo.after hostOps2 X (Proc.devRef .tc main_v44) : S100000x128.Idx → EReal)
      = Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (X (Proc.devRef .tc main_v3)))
          (extf .f32 (Host.gather gather_S100000x128_S1600000x1_S1600000x128_1_0_n_n_0_1_1128 (X (Proc.devRef .tc main_v33_1))
            (broadcastInDim S1600000x1 ![0] bcast_S1600000_S1600000x1_0
            (select (cmpi .slt (X (Proc.devRef .tc main_v1)) (broadcastInDim S1600000 ![] bcast_S_S1600000 (constantI S_ 32 0#32)))
              (addi (X (Proc.devRef .tc main_v1)) (broadcastInDim S1600000 ![] bcast_S_S1600000 (constantI S_ 32 100000#32))) (X (Proc.devRef .tc main_v1))))) bitsLt_bf16_f32) := by
  after_results_simp

/-- Widening the result of a gather from a narrow array is the gather of the same values. -/
theorem gather_widen {s si t : Shape} {w : ℕ} (d : GatherDims s si t) (a : FVec Ideal s .bf16) (idx : IVec si w)
    (h : FTy.bf16.bits < FTy.f32.bits) :
    extf .f32 (Host.gather d a idx) h = Host.gather (α := EReal) d a idx := rfl

/-- The stretch's aggregation from the held rows of the edge array, over any array of rows, is the reference's. -/
theorem agg_eq_held (E : IVec S2x1600000 32) (A : FVec Ideal S100000x128 .bf16) :
    Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (shapeCast S1600000 (extractStridedSlice S1x1600000 ![1, 0] E slices_S2x1600000_S1x1600000_1_0) shapeCasts_S1x1600000_S1600000))
          (extf .f32 (Host.gather gather_S100000x128_S1600000x1_S1600000x128_1_0_n_n_0_1_1128 A
            (broadcastInDim S1600000x1 ![0] bcast_S1600000_S1600000x1_0
            (select (cmpi .slt (shapeCast S1600000 (extractStridedSlice S1x1600000 ![0, 0] E slices_S2x1600000_S1x1600000_0_0) shapeCasts_S1x1600000_S1600000) (broadcastInDim S1600000 ![] bcast_S_S1600000 (constantI S_ 32 0#32)))
              (addi (shapeCast S1600000 (extractStridedSlice S1x1600000 ![0, 0] E slices_S2x1600000_S1x1600000_0_0) shapeCasts_S1x1600000_S1600000) (broadcastInDim S1600000 ![] bcast_S_S1600000 (constantI S_ 32 100000#32))) (shapeCast S1600000 (extractStridedSlice S1x1600000 ![0, 0] E slices_S2x1600000_S1x1600000_0_0) shapeCasts_S1x1600000_S1600000)))) bitsLt_bf16_f32)
      = Cert.ReferenceIdeal.Hand.AggIdx (F := Ideal) E A := by
  rw [gather_widen]
  unfold Cert.ReferenceIdeal.Hand.AggIdx Cert.ReferenceIdeal.Hand.row0 Cert.ReferenceIdeal.Hand.row1
    Cert.ReferenceIdeal.Hand.wrapIdx Cert.ReferenceIdeal.Hand.col Cert.ReferenceIdeal.Hand.zeros128
  rfl

/-- The aggregated array the third region reads: the reference's aggregation, along the edges, of the narrow copy of
    the rows the second region wrote. -/
theorem host2_agg :
    (U5 m ρ c main_v44 : S100000x128.Idx → EReal)
      = Cert.ReferenceIdeal.Hand.AggIdx (F := Ideal) (m ((c : Thread nD τ).loc main_arg1)) (W4 m ρ c main_v33_1) := by
  show (StableHlo.after hostOps2 (W4 m ρ c) (Proc.devRef .tc main_v44) : S100000x128.Idx → EReal) = _
  rw [host2_agg_arr, W4_main_v1, W4_main_v3, agg_eq_held]

/-- The first bias row is the tenth argument as launched. -/
theorem host2_b1 (k : Fin 128) :
    U5 m ρ c main_v45 (ix2 (0 : Fin 1) k) = m ((c : Thread nD τ).loc main_arg9) (ix1 k) := by
  have e : (StableHlo.after hostOps2 (W4 m ρ c) (Proc.devRef .tc main_v45) : S1x128.Idx → EReal)
      = shapeCast S1x128 (W4 m ρ c (Proc.devRef .tc main_arg9)) shapeCasts_S128_S1x128 := by
    generalize W4 m ρ c = X
    after_results_simp
    rfl
  show (StableHlo.after hostOps2 (W4 m ρ c) (Proc.devRef .tc main_v45) : S1x128.Idx → EReal) (ix2 (0 : Fin 1) k) = _
  rw [e, shapeCast_a_1a_apply, W4_main_arg9]

/-- The second bias row is the twelfth argument as launched. -/
theorem host2_b2 (k : Fin 128) :
    U5 m ρ c main_v46 (ix2 (0 : Fin 1) k) = m ((c : Thread nD τ).loc main_arg11) (ix1 k) := by
  have e : (StableHlo.after hostOps2 (W4 m ρ c) (Proc.devRef .tc main_v46) : S1x128.Idx → EReal)
      = shapeCast S1x128 (W4 m ρ c (Proc.devRef .tc main_arg11)) shapeCasts_S128_S1x128 := by
    generalize W4 m ρ c = X
    after_results_simp
    rfl
  show (StableHlo.after hostOps2 (W4 m ρ c) (Proc.devRef .tc main_v46) : S1x128.Idx → EReal) (ix2 (0 : Fin 1) k) = _
  rw [e, shapeCast_a_1a_apply, W4_main_arg11]

/-- The rows the second region wrote are not touched by the stretch. -/
theorem host2_x : U5 m ρ c main_v33_0 = W4 m ρ c main_v33_0 :=
  StableHlo.after_of_writes_sub hostOps2 _ hostOps2_writes (by decide : main_v33_0 ∉ hostOps2_W)

/-- The first weight matrix is the ninth argument as launched. -/
theorem host2_w1 : U5 m ρ c main_arg8 = m ((c : Thread nD τ).loc main_arg8) :=
  (StableHlo.after_of_writes_sub hostOps2 _ hostOps2_writes (by decide : main_arg8 ∉ hostOps2_W)).trans (W4_main_arg8 m ρ c)

/-- The second weight matrix is the eleventh argument as launched. -/
theorem host2_w2 : U5 m ρ c main_arg10 = m ((c : Thread nD τ).loc main_arg10) :=
  (StableHlo.after_of_writes_sub hostOps2 _ hostOps2_writes (by decide : main_arg10 ∉ hostOps2_W)).trans (W4_main_arg10 m ρ c)

end Cert.KernelIdeal.Hand

end
-- ==== Proof.KI.StageC.lean ====
/-
  The second layer's perceptron. Region 2 reads the first layer's output and, from the third stretch of host
  operations, its neighbour sums (gathered from the narrowed copy of that output, which holds the same numbers) and the
  two bias rows; so its big output holds the perceptron of the specification applied to each row plus its neighbours'
  sum, and its two small outputs the column sums of that array and of its squares.
-/
import proofs.«143586_j39599598469629_2_alg».proof.Proof.KI.Chain
import proofs.«143586_j39599598469629_2_alg».proof.Proof.KI.Value2
import proofs.«143586_j39599598469629_2_alg».proof.Proof.KI.Host2
import proofs.«143586_j39599598469629_2_alg».proof.Proof.Ref.Agg
import proofs.«143586_j39599598469629_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (AggOf AggIdx cur1 cur2 uncurry128 uncurry128_cur2)

variable (m : (ℓ : Loc nD τ sig) → Buf (Elt Ideal) ℓ) (ρ : Dev nD → PrngReg) (c : Dev nD)

/-- The perceptron's output of the second layer on an array `H0` of rows, as the specification writes it. -/
def T1 (H0 : Cert.Spec.Arr 128) : Cert.Spec.Arr 128 :=
  Cert.Spec.mlp (Cert.Spec.withNeighbours (AggOf (m ((c : Thread nD τ).loc main_arg1))) H0)
    (cur2 (m ((c : Thread nD τ).loc main_arg8))) (cur1 (m ((c : Thread nD τ).loc main_arg9)))
    (cur2 (m ((c : Thread nD τ).loc main_arg10))) (cur1 (m ((c : Thread nD τ).loc main_arg11)))

/-- The narrowed copy of the first layer's output, which the neighbour sums are gathered from, is the same array of
    rows. -/
theorem W4_narrow (H0 : Cert.Spec.Arr 128) (h1 : ∀ p q, W4 m ρ c main_v33_1 (ix2 p q) = H0 p q) :
    (W4 m ρ c main_v33_1 : S100000x128.Idx → EReal) = uncurry128 H0 := by
  funext idx
  exact (congrArg (W4 m ρ c main_v33_1 : S100000x128.Idx → EReal) (eq_ix2 idx)).trans (h1 (idx 0) (idx 1))

/-- What region 2 computes from the arrays it finds is that perceptron of the first layer's output. -/
theorem pre2_eq_T1 (H0 : Cert.Spec.Arr 128) (h0 : ∀ p q, W4 m ρ c main_v33_0 (ix2 p q) = H0 p q)
    (h1 : ∀ p q, W4 m ρ c main_v33_1 (ix2 p q) = H0 p q) (p : Fin 100000) (q : Fin 128) :
    pre2 (U5 m ρ) c p q = T1 m c H0 p q := by
  unfold pre2 preOf2 T1 Cert.Spec.mlp Cert.Spec.lin Cert.Spec.relu Cert.Spec.withNeighbours AggOf cur2 cur1
  rw [← W4_narrow m ρ c H0 h1]
  simp only [host2_x m ρ c, host2_agg m ρ c, host2_w1 m ρ c, host2_w2 m ρ c, host2_b1 m ρ c, host2_b2 m ρ c, h0]

/-- After region 2: the big output and the two rows of column sums. -/
theorem stageC (H0 : Cert.Spec.Arr 128) (h0 : ∀ p q, W4 m ρ c main_v33_0 (ix2 p q) = H0 p q)
    (h1 : ∀ p q, W4 m ρ c main_v33_1 (ix2 p q) = H0 p q) :
    (∀ p q, W6 m ρ c main_v47_0 (ix2 p q) = T1 m c H0 p q)
    ∧ (∀ q, W6 m ρ c main_v47_1 (ix2 (0 : Fin 1) q) = (∑ p : Fin 100000, T1 m c H0 p q : EReal))
    ∧ (∀ q, W6 m ρ c main_v47_2 (ix2 (0 : Fin 1) q) = (∑ p : Fin 100000, T1 m c H0 p q * T1 m c H0 p q : EReal)) := by
  refine ⟨fun p q => ?_, fun q => ?_, fun q => ?_⟩
  · have e : (W6 m ρ c main_v47_0 : S100000x128.Idx → EReal) = (dat2 (U5 m ρ) c).arrAt 6 cfg2.N := W6_arr m ρ c 6
    rw [e, final2_6, pre2_eq_T1 m ρ c H0 h0 h1]
  · have e : (W6 m ρ c main_v47_1 : S1x128.Idx → EReal) = (dat2 (U5 m ρ) c).arrAt 7 cfg2.N := W6_arr m ρ c 7
    rw [e, final2_7]
    show (∑ p : Fin 100000, pre2 (U5 m ρ) c p q : EReal) = ∑ p : Fin 100000, T1 m c H0 p q
    exact Finset.sum_congr rfl fun p _ => pre2_eq_T1 m ρ c H0 h0 h1 p q
  · have e : (W6 m ρ c main_v47_2 : S1x128.Idx → EReal) = (dat2 (U5 m ρ) c).arrAt 8 cfg2.N := W6_arr m ρ c 8
    rw [e, final2_8]
    show (∑ p : Fin 100000, pre2 (U5 m ρ) c p q * pre2 (U5 m ρ) c p q : EReal)
      = ∑ p : Fin 100000, T1 m c H0 p q * T1 m c H0 p q
    exact Finset.sum_congr rfl fun p _ => by rw [pre2_eq_T1 m ρ c H0 h0 h1]

end Cert.KernelIdeal.Hand

end
-- ==== Proof.KI.Pay3.lean ====
/-
  Region 3 (the second layer's normalisation, the projection and the unit rows): the value it writes, at a row and a
  column.

  With o p j = ∑ₖ max((t p k − mean k) · rsqrt(var k + ε) · g k + be k, 0) · wp k j + bp j — the normalised, rectified
  row `p` projected to 64 features — the block written is, at (row `p`, column `j`), o p j over the Euclidean norm of
  row `p` of o floored at a tiny constant: o p j / max(sqrt(∑_c (o p c)²), tiny).
-/
import proofs.«143586_j39599598469629_2_alg».proof.Proof.KI.PayOps
import proofs.«143586_j39599598469629_2_alg».proof.Proof.Spec

noncomputable section

namespace Cert.KernelIdeal.Hand

open Idealize.ShloMosaic Idealize.ShloMosaic.ValueIdx Cert.KernelIdeal Cert.KernelIdeal.Gen

/-- Row `p`, column `j` of the projection of the normalised, rectified block: the rows are given in the order
    variance, mean, scale, shift, then the projection's matrix and bias. -/
def pay3_o (t : FVec Ideal S4000x128 .f32) (var mean g be : FVec Ideal S1x128 .f32) (wp : FVec Ideal S128x64 .f32)
    (bp : FVec Ideal S1x64 .f32) (p : Fin 4000) (j : Fin 64) : EReal :=
  (∑ k : Fin 128, max ((t (ix2 p k) - mean (ix2 0 k)) * Ideal.rsqrt (var (ix2 0 k) + Cert.Spec.wEps) * g (ix2 0 k)
      + be (ix2 0 k)) 0 * wp (ix2 k j)) + bp (ix2 0 j)

/-- A [4000, 64] block with each row divided by its Euclidean norm floored at the tiny constant, at (`p`, `j`): the
    entry over the larger of the tiny constant and the square root of the sum of the squares of row `p`. -/
theorem unitRows_apply (v : FVec Ideal S4000x64 .f32) (h : S4000x64.Reduces [1] S4000) (hφ : FKind.Formats .f32)
    (hacc : (0x00000000#32 : BitVec 32) = 0x00000000#32) (hc : S4000.ShapeCasts S4000x1) (hb : S4000x1.Broadcasts S4000x64)
    (p : Fin 4000) (j : Fin 64) :
    divf v (broadcastTo S4000x64 (maximumf (sqrt (shapeCast S4000x1
        (multiReduction (F := Ideal) .add [1] S4000 (mulf v v) 0x00000000#32 h hφ hacc) hc))
        (broadcast S4000x1 (Scalar.ofBits (F := Ideal) .f32 0x2B8CBCCC#32))) hb) (ix2 p j)
      = Ideal.div (v (ix2 p j)) (max (Ideal.sqrt (∑ c : Fin 64, v (ix2 p c) * v (ix2 p c))) Cert.Spec.wTiny) := by
  rw [divf_apply, broadcastTo_a1_ab_apply, maximumf_apply, sqrt_apply, shapeCast_a_a1_apply, broadcast_apply]
  refine congrArg (fun r => Ideal.div (v (ix2 p j)) (max (Ideal.sqrt r) Cert.Spec.wTiny)) ?_
  exact (sumCols_apply _ _ _ _ p).trans (Finset.sum_congr rfl fun c _ => mulf_apply v v (ix2 p c))

/-- The block of region 3 at (`p`, `j`): the projected row's entry over the row's norm floored at the tiny constant. -/
theorem pay3_out (t : FVec Ideal S4000x128 .f32) (var mean g be : FVec Ideal S1x128 .f32) (wp : FVec Ideal S128x64 .f32)
    (bp : FVec Ideal S1x64 .f32) (p : Fin 4000) (j : Fin 64) :
    k3_pay1 (F := Ideal) t var mean g be wp bp (ix2 p j)
      = Ideal.div (pay3_o t var mean g be wp bp p j)
          (max (Ideal.sqrt (∑ c : Fin 64, pay3_o t var mean g be wp bp p c * pay3_o t var mean g be wp bp p c))
            Cert.Spec.wTiny) := by
  unfold k3_pay1
  refine (unitRows_apply _ _ _ _ _ _ p j).trans ?_
  unfold pay3_o Cert.Spec.wEps
  simp only [addf_apply, subf_apply, mulf_apply, maximumf_apply, truncf_apply, rsqrt_apply, broadcast_apply, shapeCast_self,
    matmul64_apply, broadcastTo_1b_ab_apply, Ideal.ofBits_def, Ideal.ofBits_zero_f32]

end Cert.KernelIdeal.Hand

end
-- ==== Proof.KI.Value3.lean ====
/-
  Region 3 over the whole arrays: after its 25 grid points the output array holds, at every (row, column), the
  projection of the normalised, rectified row over that row's Euclidean norm floored at a tiny constant; the seven
  input arrays are as the region found them.

  Point `t` works on rows 4000·t … 4000·t + 3999 of the large arrays and on the whole of the four rows, the
  projection's matrix and its bias. What it writes back is its block of ONE function of the whole arrays; the 25 blocks
  cover every row; so the array ends holding that function.
-/
import proofs.«143586_j39599598469629_2_alg».proof.Proof.KI.Region3
import proofs.«143586_j39599598469629_2_alg».proof.Proof.KI.Pay3
import proofs.«143586_j39599598469629_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Value3

variable (V : (c : Dev nD) → (b : Ref sig .tc) → Buf (Elt Ideal) ((c : Thread nD τ).loc b))

/-! ### Where each point's blocks sit -/

theorem zeroOffsets3 : (![0, 0] : Fin 2 → Nat) = fun _ => 0 := funext fun a => by fin_cases a <;> rfl

/-- The printed index maps, decided over the 25 points: the input and output blocks of rows are at block row `t`,
    column block 0; the four rows, the projection's matrix and its bias are at block (0, 0). -/
theorem idx_facts3 : ∀ t : Fin cfg3.N, (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- Entry (`a`, `b`) of point `t`'s block of the input array is entry (4000·t + a, b) of the array. -/
theorem iblk3_0_apply (c : Dev nD) (t : Fin cfg3.N) (a : Fin 4000) (b : Fin 128) (r : Fin 100000)
    (hr : r.val = t.val * 4000 + a.val) :
    (iblk3 V c 0 t : S4000x128.Idx → EReal) (ix2 a b) = (V c main_v47_0 : S100000x128.Idx → EReal) (ix2 r b) := by
  obtain ⟨e0, e1⟩ := (idx_facts3 t).1
  show (V c main_v47_0 : S100000x128.Idx → EReal) (((cfg3.win 0).blk t).view.emb (ix2 a b)) = _
  refine congrArg _ (funext fun ax => Fin.ext ?_)
  match ax with
  | ⟨0, _⟩ => show win3_0.index t (0 : Fin 2) * 4000 + 1 * a.val = r.val; omega
  | ⟨1, _⟩ => show win3_0.index t (1 : Fin 2) * 128 + 1 * b.val = b.val; omega

/-- Entry (0, `b`) of point `t`'s block of the row of means is entry (0, `b`) of the row. -/
theorem iblk3_1_apply (c : Dev nD) (t : Fin cfg3.N) (b : Fin 128) :
    (iblk3 V c 1 t : S1x128.Idx → EReal) (ix2 0 b) = (V c main_v58 : S1x128.Idx → EReal) (ix2 0 b) := by
  obtain ⟨e0, e1⟩ := (idx_facts3 t).2.1
  show (V c main_v58 : S1x128.Idx → EReal) (((cfg3.win 1).blk t).view.emb (ix2 0 b)) = _
  refine congrArg _ (funext fun ax => Fin.ext ?_)
  match ax with
  | ⟨0, _⟩ => show win3_1.index t (0 : Fin 2) * 1 + 1 * 0 = 0; omega
  | ⟨1, _⟩ => show win3_1.index t (1 : Fin 2) * 128 + 1 * b.val = b.val; omega

/-- The same for the row of variances. -/
theorem iblk3_2_apply (c : Dev nD) (t : Fin cfg3.N) (b : Fin 128) :
    (iblk3 V c 2 t : S1x128.Idx → EReal) (ix2 0 b) = (V c main_v59 : S1x128.Idx → EReal) (ix2 0 b) := by
  obtain ⟨e0, e1⟩ := (idx_facts3 t).2.2.1
  show (V c main_v59 : S1x128.Idx → EReal) (((cfg3.win 2).blk t).view.emb (ix2 0 b)) = _
  refine congrArg _ (funext fun ax => Fin.ext ?_)
  match ax with
  | ⟨0, _⟩ => show win3_2.index t (0 : Fin 2) * 1 + 1 * 0 = 0; omega
  | ⟨1, _⟩ => show win3_2.index t (1 : Fin 2) * 128 + 1 * b.val = b.val; omega

/-- The same for the row of scales. -/
theorem iblk3_3_apply (c : Dev nD) (t : Fin cfg3.N) (b : Fin 128) :
    (iblk3 V c 3 t : S1x128.Idx → EReal) (ix2 0 b) = (V c main_v60 : S1x128.Idx → EReal) (ix2 0 b) := by
  obtain ⟨e0, e1⟩ := (idx_facts3 t).2.2.2.1
  show (V c main_v60 : S1x128.Idx → EReal) (((cfg3.win 3).blk t).view.emb (ix2 0 b)) = _
  refine congrArg _ (funext fun ax => Fin.ext ?_)
  match ax with
  | ⟨0, _⟩ => show win3_3.index t (0 : Fin 2) * 1 + 1 * 0 = 0; omega
  | ⟨1, _⟩ => show win3_3.index t (1 : Fin 2) * 128 + 1 * b.val = b.val; omega

/-- The same for the row of shifts. -/
theorem iblk3_4_apply (c : Dev nD) (t : Fin cfg3.N) (b : Fin 128) :
    (iblk3 V c 4 t : S1x128.Idx → EReal) (ix2 0 b) = (V c main_v61 : S1x128.Idx → EReal) (ix2 0 b) := by
  obtain ⟨e0, e1⟩ := (idx_facts3 t).2.2.2.2.1
  show (V c main_v61 : S1x128.Idx → EReal) (((cfg3.win 4).blk t).view.emb (ix2 0 b)) = _
  refine congrArg _ (funext fun ax => Fin.ext ?_)
  match ax with
  | ⟨0, _⟩ => show win3_4.index t (0 : Fin 2) * 1 + 1 * 0 = 0; omega
  | ⟨1, _⟩ => show win3_4.index t (1 : Fin 2) * 128 + 1 * b.val = b.val; omega

/-- Entry (`k`, `j`) of point `t`'s block of the projection's matrix is entry (`k`, `j`) of the matrix. -/
theorem iblk3_5_apply (c : Dev nD) (t : Fin cfg3.N) (k : Fin 128) (j : Fin 64) :
    (iblk3 V c 5 t : S128x64.Idx → EReal) (ix2 k j) = (V c main_arg14 : S128x64.Idx → EReal) (ix2 k j) := by
  obtain ⟨e0, e1⟩ := (idx_facts3 t).2.2.2.2.2.1
  show (V c main_arg14 : S128x64.Idx → EReal) (((cfg3.win 5).blk t).view.emb (ix2 k j)) = _
  refine congrArg _ (funext fun ax => Fin.ext ?_)
  match ax with
  | ⟨0, _⟩ => show win3_5.index t (0 : Fin 2) * 128 + 1 * k.val = k.val; omega
  | ⟨1, _⟩ => show win3_5.index t (1 : Fin 2) * 64 + 1 * j.val = j.val; omega

/-- Entry (0, `j`) of point `t`'s block of the projection's bias is entry (0, `j`) of the bias. -/
theorem iblk3_6_apply (c : Dev nD) (t : Fin cfg3.N) (j : Fin 64) :
    (iblk3 V c 6 t : S1x64.Idx → EReal) (ix2 0 j) = (V c main_v62 : S1x64.Idx → EReal) (ix2 0 j) := by
  obtain ⟨e0, e1⟩ := (idx_facts3 t).2.2.2.2.2.2.1
  show (V c main_v62 : S1x64.Idx → EReal) (((cfg3.win 6).blk t).view.emb (ix2 0 j)) = _
  refine congrArg _ (funext fun ax => Fin.ext ?_)
  match ax with
  | ⟨0, _⟩ => show win3_6.index t (0 : Fin 2) * 1 + 1 * 0 = 0; omega
  | ⟨1, _⟩ => show win3_6.index t (1 : Fin 2) * 64 + 1 * j.val = j.val; omega

/-! ### The function the output array ends holding -/

/-- Row `p`, column `j` of the projection of the normalised, rectified array: with a row of means, a row of variances, a
    row of scales, a row of shifts, the projection's matrix and its bias,
    ∑ₖ max((t p k − mean k) · rsqrt(var k + ε) · g k + be k, 0) · wp k j + bp j. -/
def proj3 (t : S100000x128.Idx → EReal) (mean var g be : S1x128.Idx → EReal) (wp : S128x64.Idx → EReal)
    (bp : S1x64.Idx → EReal) (p : Fin 100000) (j : Fin 64) : EReal :=
  (∑ k : Fin 128, max ((t (ix2 p k) - mean (ix2 0 k)) * Ideal.rsqrt (var (ix2 0 k) + Cert.Spec.wEps) * g (ix2 0 k)
      + be (ix2 0 k)) 0 * wp (ix2 k j)) + bp (ix2 0 j)

/-- Row `p`, column `j` of the projection with unit rows: the entry over the row's Euclidean norm floored at the tiny
    constant. -/
def unit3 (t : S100000x128.Idx → EReal) (mean var g be : S1x128.Idx → EReal) (wp : S128x64.Idx → EReal)
    (bp : S1x64.Idx → EReal) (p : Fin 100000) (j : Fin 64) : EReal :=
  Ideal.div (proj3 t mean var g be wp bp p j)
    (max (Ideal.sqrt (∑ c' : Fin 64, proj3 t mean var g be wp bp p c' * proj3 t mean var g be wp bp p c')) Cert.Spec.wTiny)

/-- The projection with unit rows of the region's input array by its six parameter arrays as the region finds them, as
    an array. -/
def unitArr3 (c : Dev nD) : S100000x64.Idx → EReal :=
  fun i => unit3 (V c main_v47_0) (V c main_v58) (V c main_v59) (V c main_v60) (V c main_v61) (V c main_arg14)
    (V c main_v62) (i 0) (i 1)

/-- Row `a`, column `j` of the projection of point `t`'s block is row 4000·t + a, column `j` of the projection of the
    array. -/
theorem pay3_o_iblk (c : Dev nD) (t : Fin cfg3.N) (a : Fin 4000) (j : Fin 64) (r : Fin 100000)
    (hr : r.val = t.val * 4000 + a.val) :
    pay3_o (iblk3 V c 0 t) (iblk3 V c 2 t) (iblk3 V c 1 t) (iblk3 V c 3 t) (iblk3 V c 4 t) (iblk3 V c 5 t) (iblk3 V c 6 t) a j
      = proj3 (V c main_v47_0) (V c main_v58) (V c main_v59) (V c main_v60) (V c main_v61) (V c main_arg14) (V c main_v62) r j := by
  unfold pay3_o proj3
  rw [iblk3_6_apply]
  refine congrArg (· + (V c main_v62 : S1x64.Idx → EReal) (ix2 0 j)) (Finset.sum_congr rfl fun k _ => ?_)
  rw [iblk3_0_apply V c t a k r hr, iblk3_1_apply, iblk3_2_apply, iblk3_3_apply, iblk3_4_apply, iblk3_5_apply]

/-- Entry (`a`, `j`) of the block the body leaves at point `t` is the projection with unit rows at (4000·t + a, j). -/
theorem out3_7_apply (c : Dev nD) (t : Fin cfg3.N) (a : Fin 4000) (j : Fin 64) (r : Fin 100000)
    (hr : r.val = t.val * 4000 + a.val) :
    (out3_7 (iblk3 V c 0 t) (iblk3 V c 1 t) (iblk3 V c 2 t) (iblk3 V c 3 t) (iblk3 V c 4 t) (iblk3 V c 5 t) (iblk3 V c 6 t)
        : S4000x64.Idx → EReal) (ix2 a j)
      = unit3 (V c main_v47_0) (V c main_v58) (V c main_v59) (V c main_v60) (V c main_v61) (V c main_arg14) (V c main_v62) r j := by
  unfold out3_7
  rw [View.canon_unit_zero zeroOffsets3]
  simp only [View.ld_unit_zero (S := S4000x128) zeroOffsets3, View.ld_unit_zero (S := S1x128) zeroOffsets3,
    View.ld_unit_zero (S := S128x64) zeroOffsets3, View.ld_unit_zero (S := S1x64) zeroOffsets3]
  refine (pay3_out _ _ _ _ _ _ _ a j).trans ?_
  unfold unit3
  rw [pay3_o_iblk V c t a j r hr]
  refine congrArg (fun s => Ideal.div _ (max (Ideal.sqrt s) Cert.Spec.wTiny)) (Finset.sum_congr rfl fun c' _ => ?_)
  rw [pay3_o_iblk V c t a c' r hr]

/-! ### What each point writes back, and the cover -/

/-- Entry (`a`, `j`) of point `t`'s block of the output array is entry (4000·t + a, j) of the array. -/
theorem emb3_7 (t : Fin cfg3.N) (a : Fin 4000) (j : Fin 64) (r : Fin 100000) (hr : r.val = t.val * 4000 + a.val) :
    (((cfg3.win 7).blk t).view.emb (ix2 a j) : S100000x64.Idx) = ix2 r j := by
  obtain ⟨e0, e1⟩ := (idx_facts3 t).2.2.2.2.2.2.2
  refine funext fun ax => Fin.ext ?_
  match ax with
  | ⟨0, _⟩ => show win3_7.index t (0 : Fin 2) * 4000 + 1 * a.val = r.val; omega
  | ⟨1, _⟩ => show win3_7.index t (1 : Fin 2) * 64 + 1 * j.val = j.val; omega

/-- Row 4000·t + a is a row of the array when `t` is one of the 25 points and `a` a row of a block. -/
theorem row_lt3 (t : Fin cfg3.N) (a : Fin 4000) : t.val * 4000 + a.val < 100000 := by
  have hN : cfg3.N = 25 := N_3
  have := t.isLt; have := a.isLt; omega

/-- What point `t` writes back to the output array is its block of the projection with unit rows. -/
theorem flushed3_7_eq (c : Dev nD) (t : Fin cfg3.N) :
    (dat3 V c).flushed 7 t = ((cfg3.win 7).blk t).view.read (Elt Ideal) (unitArr3 V c) := by
  show (cfg3.win 7).cut (grid3.coords t) ((dat3 V c).after 7 t) = _
  rw [after3_7]
  funext y
  obtain ⟨a, j, rfl⟩ : ∃ (a : Fin 4000) (j : Fin 64), y = ix2 a j := ⟨y 0, y 1, eq_ix2 y⟩
  show (out3_7 (iblk3 V c 0 t) (iblk3 V c 1 t) (iblk3 V c 2 t) (iblk3 V c 3 t) (iblk3 V c 4 t) (iblk3 V c 5 t) (iblk3 V c 6 t)
      : S4000x64.Idx → EReal) (ix2 a j)
    = unitArr3 V c (((cfg3.win 7).blk t).view.emb (ix2 a j))
  rw [emb3_7 t a j ⟨t.val * 4000 + a.val, row_lt3 t a⟩ rfl]
  exact out3_7_apply V c t a j ⟨t.val * 4000 + a.val, row_lt3 t a⟩ rfl

/-- An index of the output array is in point `t`'s block iff each coordinate is in the block's range. -/
theorem mem_blk3_7 (t : Fin cfg3.N) (i : S100000x64.Idx) :
    i ∈ ((cfg3.win 7).blk t).view.set ↔ ∀ a : Fin 2, win3_7.index t a * S4000x64.size a ≤ (i a).val
      ∧ (i a).val < win3_7.index t a * S4000x64.size a + S4000x64.size a := by
  show i ∈ ((View.whole main_v63).slice (win3_7.rect t)).set ↔ _
  rw [View.set_slice_whole, Rect.mem_set_unit]
  exact Iff.rfl

/-- Every index of the output array is in the block of the point its row falls in: row r is in block r / 4000. -/
theorem covered3_7 (i : S100000x64.Idx) :
    ∃ t : Fin cfg3.N, (cfg3.win 7).flush t = true ∧ i ∈ ((cfg3.win 7).blk t).view.set := by
  have hN : cfg3.N = 25 := N_3
  have hi0 : (i 0).val < 100000 := (i 0).isLt
  have hi1 : (i 1).val < 64 := (i 1).isLt
  obtain ⟨t, ht⟩ : ∃ t : Fin cfg3.N, t.val = (i 0).val / 4000 := ⟨⟨(i 0).val / 4000, by omega⟩, rfl⟩
  obtain ⟨e0, e1⟩ := (idx_facts3 t).2.2.2.2.2.2.2
  refine ⟨t, flush3_7 t, ?_⟩
  rw [mem_blk3_7]
  intro a
  match a with
  | ⟨0, _⟩ =>
    show win3_7.index t (0 : Fin 2) * 4000 ≤ (i 0).val ∧ (i 0).val < win3_7.index t (0 : Fin 2) * 4000 + 4000
    omega
  | ⟨1, _⟩ =>
    show win3_7.index t (1 : Fin 2) * 64 ≤ (i 1).val ∧ (i 1).val < win3_7.index t (1 : Fin 2) * 64 + 64
    omega

/-! ### The arrays after the region -/

/-- The output array after the 25 points is the projection with unit rows, as an array. -/
theorem arr3_7 (c : Dev nD) : (dat3 V c).arrAt 7 cfg3.N = unitArr3 V c :=
  (dat3 V c).arrAt_eq_of_cover 7 (unitArr3 V c) (fun t _ => flushed3_7_eq V c t) covered3_7

/-- The output array after the region, at (`p`, `j`). -/
theorem final3_7 (c : Dev nD) (p : Fin 100000) (j : Fin 64) :
    ((dat3 V c).arrAt 7 cfg3.N : S100000x64.Idx → EReal) (ix2 p j)
      = unit3 (V c main_v47_0) (V c main_v58) (V c main_v59) (V c main_v60) (V c main_v61) (V c main_arg14) (V c main_v62) p j := by
  rw [arr3_7]; rfl

/-- The input array is as the region found it. -/
theorem kept3_0 (c : Dev nD) : (dat3 V c).arrAt 0 cfg3.N = V c main_v47_0 :=
  ((dat3 V c).arrAt_in 0 rfl _).trans (A_eq3 V c 0)
/-- The row of means is as the region found it. -/
theorem kept3_1 (c : Dev nD) : (dat3 V c).arrAt 1 cfg3.N = V c main_v58 :=
  ((dat3 V c).arrAt_in 1 rfl _).trans (A_eq3 V c 1)
/-- The row of variances is as the region found it. -/
theorem kept3_2 (c : Dev nD) : (dat3 V c).arrAt 2 cfg3.N = V c main_v59 :=
  ((dat3 V c).arrAt_in 2 rfl _).trans (A_eq3 V c 2)
/-- The row of scales is as the region found it. -/
theorem kept3_3 (c : Dev nD) : (dat3 V c).arrAt 3 cfg3.N = V c main_v60 :=
  ((dat3 V c).arrAt_in 3 rfl _).trans (A_eq3 V c 3)
/-- The row of shifts is as the region found it. -/
theorem kept3_4 (c : Dev nD) : (dat3 V c).arrAt 4 cfg3.N = V c main_v61 :=
  ((dat3 V c).arrAt_in 4 rfl _).trans (A_eq3 V c 4)
/-- The projection's matrix is as the region found it. -/
theorem kept3_5 (c : Dev nD) : (dat3 V c).arrAt 5 cfg3.N = V c main_arg14 :=
  ((dat3 V c).arrAt_in 5 rfl _).trans (A_eq3 V c 5)
/-- The projection's bias is as the region found it. -/
theorem kept3_6 (c : Dev nD) : (dat3 V c).arrAt 6 cfg3.N = V c main_v62 :=
  ((dat3 V c).arrAt_in 6 rfl _).trans (A_eq3 V c 6)

end Value3

end Cert.KernelIdeal.Hand

end
-- ==== Proof.KI.Host3.lean ====
/-
  The stretch of host operations between the third region and the fourth, read as values: from the column sums of the
  first and second moments it forms the mean (the sum over the number of rows) and the variance (the second moment's
  mean less the squared mean, floored at zero), each as a row; the scale, shift and projection-bias rows and the
  projection's matrix are the arguments as launched; the array to be normalised is left as the region wrote it.
-/
import proofs.«143586_j39599598469629_2_alg».proof.Proof.KI.Chain
import proofs.«143586_j39599598469629_2_alg».proof.Proof.Ref.Fns
import proofs.«143586_j39599598469629_2_alg».proof.Proof.Spec
import Idealize.ShloMosaic.Lib.StableHlo.Run
import Idealize.ShloMosaic.Lib.ValueLayout
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- Argument 12 is as launched when the fourth stretch begins: no stretch writes it and no earlier region holds it. -/
theorem W6_main_arg12 : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide : main_arg12 ∉ hostOps2_W)
    _ = W3 m ρ c (Proc.devRef .tc main_arg12) := W4_of_ne m ρ c main_arg12 (by decide)
    _ = W2 m ρ c (Proc.devRef .tc main_arg12) := StableHlo.after_of_writes_sub hostOps1 _ hostOps1_writes (by decide : main_arg12 ∉ hostOps1_W)
    _ = W1 m ρ c (Proc.devRef .tc main_arg12) := W2_of_ne m ρ c main_arg12 (by decide)
    _ = W0 m ρ c (Proc.devRef .tc main_arg12) := StableHlo.after_of_writes_sub hostOps0 _ hostOps0_writes (by decide : main_arg12 ∉ hostOps0_W)
    _ = m ((c : Thread nD τ).loc main_arg12) := rfl

/-- Argument 13 is as launched when the fourth stretch begins: no stretch writes it and no earlier region holds it. -/
theorem W6_main_arg13 : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide : main_arg13 ∉ hostOps2_W)
    _ = W3 m ρ c (Proc.devRef .tc main_arg13) := W4_of_ne m ρ c main_arg13 (by decide)
    _ = W2 m ρ c (Proc.devRef .tc main_arg13) := StableHlo.after_of_writes_sub hostOps1 _ hostOps1_writes (by decide : main_arg13 ∉ hostOps1_W)
    _ = W1 m ρ c (Proc.devRef .tc main_arg13) := W2_of_ne m ρ c main_arg13 (by decide)
    _ = W0 m ρ c (Proc.devRef .tc main_arg13) := StableHlo.after_of_writes_sub hostOps0 _ hostOps0_writes (by decide : main_arg13 ∉ hostOps0_W)
    _ = m ((c : Thread nD τ).loc main_arg13) := rfl

/-- Argument 14 is as launched when the fourth stretch begins: no stretch writes it and no earlier region holds it. -/
theorem W6_main_arg14 : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps2 _ hostOps2_writes (by decide : main_arg14 ∉ hostOps2_W)
    _ = W3 m ρ c (Proc.devRef .tc main_arg14) := W4_of_ne m ρ c main_arg14 (by decide)
    _ = W2 m ρ c (Proc.devRef .tc main_arg14) := StableHlo.after_of_writes_sub hostOps1 _ hostOps1_writes (by decide : main_arg14 ∉ hostOps1_W)
    _ = W1 m ρ c (Proc.devRef .tc main_arg14) := W2_of_ne m ρ c main_arg14 (by decide)
    _ = W0 m ρ c (Proc.devRef .tc main_arg14) := StableHlo.after_of_writes_sub hostOps0 _ hostOps0_writes (by decide : main_arg14 ∉ hostOps0_W)
    _ = m ((c : Thread nD τ).loc main_arg14) := rfl

/-- Argument 15 is as launched when the fourth stretch begins: no stretch writes it and no earlier region holds it. -/
theorem W6_main_arg15 : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_writes_sub hostOps2 _ hostOps2_writes (by decide : main_arg15 ∉ hostOps2_W)
    _ = W3 m ρ c (Proc.devRef .tc main_arg15) := W4_of_ne m ρ c main_arg15 (by decide)
    _ = W2 m ρ c (Proc.devRef .tc main_arg15) := StableHlo.after_of_writes_sub hostOps1 _ hostOps1_writes (by decide : main_arg15 ∉ hostOps1_W)
    _ = W1 m ρ c (Proc.devRef .tc main_arg15) := W2_of_ne m ρ c main_arg15 (by decide)
    _ = W0 m ρ c (Proc.devRef .tc main_arg15) := StableHlo.after_of_writes_sub hostOps0 _ hostOps0_writes (by decide : main_arg15 ∉ hostOps0_W)
    _ = m ((c : Thread nD τ).loc main_arg15) := rfl

/-- The array of means after the fourth stretch, as the stretch's operations applied to the contents before it. -/
theorem host3_mean_arr (X : Valuation τ sig (Elt Ideal)) :
    (StableHlo.after hostOps3 X (Proc.devRef .tc main_v58) : S1x128.Idx → EReal)
      = shapeCast S1x128 (Host.divf (F := Ideal) (shapeCast S128 (X (Proc.devRef .tc main_v47_1)) shapeCasts_S1x128_S128)
                  (broadcastInDim S128 ![] bcast_S_S128 (constant (F := Ideal) S_ .f32 0x47C35000#32))) shapeCasts_S128_S1x128 := by
  after_results
  rfl

/-- The mean row: at column `q` the first moment's sum over the number of rows. -/
theorem host3_mean (q : Fin 128) :
    U7 m ρ c main_v58 (ix2 (0 : Fin 1) q) = Ideal.div (W6 m ρ c main_v47_1 (ix2 (0 : Fin 1) q)) Cert.Spec.wN := by
  show (StableHlo.after hostOps3 (W6 m ρ c) (Proc.devRef .tc main_v58) : S1x128.Idx → EReal) (ix2 (0 : Fin 1) q) = _
  rw [host3_mean_arr, shapeCast_a_1a_apply, hostDivf_apply, shapeCast_1a_a_apply, broadcastInDim_scalar_apply, constant_apply]
  rfl

/-- The array of variances after the fourth stretch, as the stretch's operations applied to the contents before it. -/
theorem host3_var_arr (X : Valuation τ sig (Elt Ideal)) :
    (StableHlo.after hostOps3 X (Proc.devRef .tc main_v59) : S1x128.Idx → EReal)
      = shapeCast S1x128
          (maximumf
            (subf
              (Host.divf (F := Ideal) (shapeCast S128 (X (Proc.devRef .tc main_v47_2)) shapeCasts_S1x128_S128)
                  (broadcastInDim S128 ![] bcast_S_S128 (constant (F := Ideal) S_ .f32 0x47C35000#32)))
              (mulf
                (Host.divf (F := Ideal) (shapeCast S128 (X (Proc.devRef .tc main_v47_1)) shapeCasts_S1x128_S128)
                  (broadcastInDim S128 ![] bcast_S_S128 (constant (F := Ideal) S_ .f32 0x47C35000#32)))
                (Host.divf (F := Ideal) (shapeCast S128 (X (Proc.devRef .tc main_v47_1)) shapeCasts_S1x128_S128)
                  (broadcastInDim S128 ![] bcast_S_S128 (constant (F := Ideal) S_ .f32 0x47C35000#32)))))
            (broadcastInDim S128 ![] bcast_S_S128 (constant (F := Ideal) S_ .f32 0x00000000#32)))
          shapeCasts_S128_S1x128 := by
  after_results
  rfl

/-- The variance row: at column `q` the second moment's mean less the squared mean, floored at zero. -/
theorem host3_var (q : Fin 128) :
    U7 m ρ c main_v59 (ix2 (0 : Fin 1) q)
      = max (Ideal.div (W6 m ρ c main_v47_2 (ix2 (0 : Fin 1) q)) Cert.Spec.wN
          - Ideal.div (W6 m ρ c main_v47_1 (ix2 (0 : Fin 1) q)) Cert.Spec.wN
            * Ideal.div (W6 m ρ c main_v47_1 (ix2 (0 : Fin 1) q)) Cert.Spec.wN) 0 := by
  show (StableHlo.after hostOps3 (W6 m ρ c) (Proc.devRef .tc main_v59) : S1x128.Idx → EReal) (ix2 (0 : Fin 1) q) = _
  rw [host3_var_arr, shapeCast_a_1a_apply, maximumf_apply, subf_apply, mulf_apply, hostDivf_apply, hostDivf_apply,
    shapeCast_1a_a_apply, shapeCast_1a_a_apply, broadcastInDim_scalar_apply, broadcastInDim_scalar_apply, constant_apply,
    constant_apply, Ideal.ofBits_zero_f32]
  rfl

/-- The scale row is the thirteenth argument as launched. -/
theorem host3_g (q : Fin 128) :
    U7 m ρ c main_v60 (ix2 (0 : Fin 1) q) = m ((c : Thread nD τ).loc main_arg12) (ix1 q) := by
  have e : (StableHlo.after hostOps3 (W6 m ρ c) (Proc.devRef .tc main_v60) : S1x128.Idx → EReal)
      = shapeCast S1x128 (W6 m ρ c (Proc.devRef .tc main_arg12)) shapeCasts_S128_S1x128 := by
    generalize W6 m ρ c = X
    after_results
    rfl
  show (StableHlo.after hostOps3 (W6 m ρ c) (Proc.devRef .tc main_v60) : S1x128.Idx → EReal) (ix2 (0 : Fin 1) q) = _
  rw [e, shapeCast_a_1a_apply, W6_main_arg12]

/-- The shift row is the fourteenth argument as launched. -/
theorem host3_be (q : Fin 128) :
    U7 m ρ c main_v61 (ix2 (0 : Fin 1) q) = m ((c : Thread nD τ).loc main_arg13) (ix1 q) := by
  have e : (StableHlo.after hostOps3 (W6 m ρ c) (Proc.devRef .tc main_v61) : S1x128.Idx → EReal)
      = shapeCast S1x128 (W6 m ρ c (Proc.devRef .tc main_arg13)) shapeCasts_S128_S1x128 := by
    generalize W6 m ρ c = X
    after_results
    rfl
  show (StableHlo.after hostOps3 (W6 m ρ c) (Proc.devRef .tc main_v61) : S1x128.Idx → EReal) (ix2 (0 : Fin 1) q) = _
  rw [e, shapeCast_a_1a_apply, W6_main_arg13]

/-- The projection's bias row is the sixteenth argument as launched. -/
theorem host3_bp (j : Fin 64) :
    U7 m ρ c main_v62 (ix2 (0 : Fin 1) j) = m ((c : Thread nD τ).loc main_arg15) (ix1 j) := by
  have e : (StableHlo.after hostOps3 (W6 m ρ c) (Proc.devRef .tc main_v62) : S1x64.Idx → EReal)
      = shapeCast S1x64 (W6 m ρ c (Proc.devRef .tc main_arg15)) shapeCasts_S64_S1x64 := by
    generalize W6 m ρ c = X
    after_results
    rfl
  show (StableHlo.after hostOps3 (W6 m ρ c) (Proc.devRef .tc main_v62) : S1x64.Idx → EReal) (ix2 (0 : Fin 1) j) = _
  rw [e, shapeCast_a_1a_apply, W6_main_arg15]

/-- The projection's matrix is the fifteenth argument as launched. -/
theorem host3_wp : U7 m ρ c main_arg14 = m ((c : Thread nD τ).loc main_arg14) :=
  (StableHlo.after_of_writes_sub hostOps3 _ hostOps3_writes (by decide : main_arg14 ∉ hostOps3_W)).trans (W6_main_arg14 m ρ c)

/-- The array the third region wrote for the normalisation to read is not touched by the stretch. -/
theorem host3_pre : U7 m ρ c main_v47_0 = W6 m ρ c main_v47_0 :=
  StableHlo.after_of_writes_sub hostOps3 _ hostOps3_writes (by decide : main_v47_0 ∉ hostOps3_W)

end Cert.KernelIdeal.Hand

end
-- ==== Proof.KI.StageD.lean ====
/-
  The last region's output in the specification's words. The region normalises the array the third region left, by the
  row of means and the row of variances the host stretch forms from the column sums of the first two moments, scales,
  shifts, rectifies, projects to 64 features and divides each row by its norm floored at the tiny constant; when that
  array is `T1` and the two sums are its column sums and its column sums of squares, the output is the specification's
  `project` of `normRelu T1 (colMean T1) (varRaw T1)` with the scale, shift, matrix and bias arguments as launched.
-/
import proofs.«143586_j39599598469629_2_alg».proof.Proof.KI.Chain
import proofs.«143586_j39599598469629_2_alg».proof.Proof.KI.Value3
import proofs.«143586_j39599598469629_2_alg».proof.Proof.KI.Host3
import proofs.«143586_j39599598469629_2_alg».proof.Proof.Ref.Agg
import proofs.«143586_j39599598469629_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Spec
open Cert.ReferenceIdeal.Hand (cur1 cur2)

/-- The projection of the rectified normalisation, by arrays that read as the specification's, is the specification's
    linear layer of `normRelu`. -/
theorem proj3_eq_lin (t : S100000x128.Idx → EReal) (mean var g be : S1x128.Idx → EReal) (wp : S128x64.Idx → EReal)
    (bp : S1x64.Idx → EReal) (T1 : Arr 128) (G BE : Fin 128 → EReal) (WP : Fin 128 → Fin 64 → EReal) (BP : Fin 64 → EReal)
    (ht : ∀ p q, t (ix2 p q) = T1 p q)
    (hm : ∀ q, mean (ix2 (0 : Fin 1) q) = colMean T1 q) (hv : ∀ q, var (ix2 (0 : Fin 1) q) = varRaw T1 q)
    (hg : ∀ q, g (ix2 (0 : Fin 1) q) = G q) (hb : ∀ q, be (ix2 (0 : Fin 1) q) = BE q)
    (hwp : ∀ k j, wp (ix2 k j) = WP k j) (hbp : ∀ j, bp (ix2 (0 : Fin 1) j) = BP j) (p : Fin 100000) (j : Fin 64) :
    proj3 t mean var g be wp bp p j = lin (normRelu T1 (colMean T1) (varRaw T1) G BE) WP BP p j := by
  unfold proj3 lin normRelu relu
  rw [hbp]
  refine congrArg (· + BP j) (Finset.sum_congr rfl fun k _ => ?_)
  rw [ht, hm, hv, hg, hb, hwp]

/-- The projection with unit rows likewise is the specification's `project`. -/
theorem unit3_eq_project (t : S100000x128.Idx → EReal) (mean var g be : S1x128.Idx → EReal) (wp : S128x64.Idx → EReal)
    (bp : S1x64.Idx → EReal) (T1 : Arr 128) (G BE : Fin 128 → EReal) (WP : Fin 128 → Fin 64 → EReal) (BP : Fin 64 → EReal)
    (ht : ∀ p q, t (ix2 p q) = T1 p q)
    (hm : ∀ q, mean (ix2 (0 : Fin 1) q) = colMean T1 q) (hv : ∀ q, var (ix2 (0 : Fin 1) q) = varRaw T1 q)
    (hg : ∀ q, g (ix2 (0 : Fin 1) q) = G q) (hb : ∀ q, be (ix2 (0 : Fin 1) q) = BE q)
    (hwp : ∀ k j, wp (ix2 k j) = WP k j) (hbp : ∀ j, bp (ix2 (0 : Fin 1) j) = BP j) (p : Fin 100000) (j : Fin 64) :
    unit3 t mean var g be wp bp p j = project (normRelu T1 (colMean T1) (varRaw T1) G BE) WP BP p j := by
  have hp : ∀ j', proj3 t mean var g be wp bp p j' = lin (normRelu T1 (colMean T1) (varRaw T1) G BE) WP BP p j' :=
    fun j' => proj3_eq_lin t mean var g be wp bp T1 G BE WP BP ht hm hv hg hb hwp hbp p j'
  unfold unit3 project
  rw [hp j]
  refine congrArg (fun s => Ideal.div _ (max (Ideal.sqrt s) wTiny)) (Finset.sum_congr rfl fun c' _ => ?_)
  rw [hp c']

variable (m : (ℓ : Loc nD τ sig) → Buf (Elt Ideal) ℓ) (ρ : Dev nD → PrngReg) (c : Dev nD)

/-- The row of means the last region reads is the specification's column mean of `T1`. -/
theorem stageD_mean (T1 : Arr 128)
    (h1 : ∀ q, W6 m ρ c main_v47_1 (ix2 (0 : Fin 1) q) = ∑ p : Fin 100000, T1 p q) (q : Fin 128) :
    U7 m ρ c main_v58 (ix2 (0 : Fin 1) q) = colMean T1 q := by
  rw [host3_mean, h1]
  rfl

/-- The row of variances the last region reads is the specification's raw-moment variance of `T1`. -/
theorem stageD_var (T1 : Arr 128)
    (h1 : ∀ q, W6 m ρ c main_v47_1 (ix2 (0 : Fin 1) q) = ∑ p : Fin 100000, T1 p q)
    (h2 : ∀ q, W6 m ρ c main_v47_2 (ix2 (0 : Fin 1) q) = ∑ p : Fin 100000, T1 p q * T1 p q) (q : Fin 128) :
    U7 m ρ c main_v59 (ix2 (0 : Fin 1) q) = varRaw T1 q := by
  rw [host3_var, h1, h2]
  rfl

/-- The last region's output is the specification's projection with unit rows of the normalisation of `T1`. -/
theorem stageD (T1 : Arr 128) (h0 : ∀ p q, W6 m ρ c main_v47_0 (ix2 p q) = T1 p q)
    (h1 : ∀ q, W6 m ρ c main_v47_1 (ix2 (0 : Fin 1) q) = ∑ p : Fin 100000, T1 p q)
    (h2 : ∀ q, W6 m ρ c main_v47_2 (ix2 (0 : Fin 1) q) = ∑ p : Fin 100000, T1 p q * T1 p q) :
    ∀ p j, W8 m ρ c main_v63 (ix2 p j)
      = project (normRelu T1 (colMean T1) (varRaw T1) (cur1 (m ((c : Thread nD τ).loc main_arg12)))
            (cur1 (m ((c : Thread nD τ).loc main_arg13))))
          (cur2 (m ((c : Thread nD τ).loc main_arg14))) (cur1 (m ((c : Thread nD τ).loc main_arg15))) p j := by
  intro p j
  have ht : ∀ p q, U7 m ρ c main_v47_0 (ix2 p q) = T1 p q := fun p q => by rw [host3_pre]; exact h0 p q
  have hwp : ∀ k j, U7 m ρ c main_arg14 (ix2 k j) = cur2 (m ((c : Thread nD τ).loc main_arg14)) k j := fun k j => by
    rw [host3_wp]; rfl
  have e7 : (W8 m ρ c main_v63 : S100000x64.Idx → EReal) = (dat3 (U7 m ρ) c).arrAt 7 cfg3.N := W8_arr m ρ c 7
  rw [e7, final3_7]
  exact unit3_eq_project _ _ _ _ _ _ _ T1 _ _ _ _ ht (stageD_mean m ρ c T1 h1) (stageD_var m ρ c T1 h1 h2)
    (host3_g m ρ c) (host3_be m ρ c) hwp (host3_bp m ρ c) p j

end Cert.KernelIdeal.Hand

end
-- ==== Proof.KI.Total.lean ====
/-
  The idealized kernel program's result, read whole: the four stages in turn. Region 0 leaves the first layer's
  perceptron and its column sums; the host forms mean and raw-moment variance from them and region 1 normalises; region
  2 does for the second layer what region 0 did for the first, over the first layer's output; the host forms mean and
  variance again and region 3 normalises, projects and divides each row by its norm. Together: the specification's
  `kernelForm` of the sixteen arguments.
-/
import proofs.«143586_j39599598469629_2_alg».proof.Proof.KI.Chain
import proofs.«143586_j39599598469629_2_alg».proof.Proof.KI.StageA
import proofs.«143586_j39599598469629_2_alg».proof.Proof.KI.StageB
import proofs.«143586_j39599598469629_2_alg».proof.Proof.KI.StageC
import proofs.«143586_j39599598469629_2_alg».proof.Proof.KI.StageD
import proofs.«143586_j39599598469629_2_alg».proof.Proof.Ref.Agg
import proofs.«143586_j39599598469629_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (AggOf AggIdx cur1 cur2 uncurry128 uncurry128_cur2)

variable (m : (ℓ : Loc nD τ sig) → Buf (Elt Ideal) ℓ) (ρ : Dev nD → PrngReg) (c : Dev nD)

/-- The result buffer at the last boundary, entry (`p`, `j`), is the specification's kernel form of the arguments. -/
theorem kernel_value (p : Fin 100000) (j : Fin 64) :
    W8 m ρ c main_v63 (ix2 p j)
      = Cert.Spec.kernelForm (AggOf (m ((c : Thread nD τ).loc main_arg1))) (cur2 (m ((c : Thread nD τ).loc main_arg0)))
          (cur2 (m ((c : Thread nD τ).loc main_arg2))) (cur1 (m ((c : Thread nD τ).loc main_arg3))) (cur2 (m ((c : Thread nD τ).loc main_arg4))) (cur1 (m ((c : Thread nD τ).loc main_arg5))) (cur1 (m ((c : Thread nD τ).loc main_arg6))) (cur1 (m ((c : Thread nD τ).loc main_arg7)))
          (cur2 (m ((c : Thread nD τ).loc main_arg8))) (cur1 (m ((c : Thread nD τ).loc main_arg9))) (cur2 (m ((c : Thread nD τ).loc main_arg10))) (cur1 (m ((c : Thread nD τ).loc main_arg11))) (cur1 (m ((c : Thread nD τ).loc main_arg12))) (cur1 (m ((c : Thread nD τ).loc main_arg13)))
          (cur2 (m ((c : Thread nD τ).loc main_arg14))) (cur1 (m ((c : Thread nD τ).loc main_arg15))) p j := by
  obtain ⟨hA0, hA1, hA2⟩ := stageA m ρ c
  obtain ⟨hB0, hB1⟩ := stageB m ρ c (T0 m c) hA0 hA1 hA2
  obtain ⟨hC0, hC1, hC2⟩ := stageC m ρ c _ hB0 hB1
  exact stageD m ρ c _ hC0 hC1 hC2 p j

end Cert.KernelIdeal.Hand

end
-- ==== Proof.Ref.Ops.lean ====
/-
  The reference program's @main as two literal lists of host operations (its statements 1 to 60 and 61 to 109), each
  function the program calls written out at its call site over that call's buffers; the program is the straight line
  of the two lists' concatenation.
-/
import proofs.«143586_j39599598469629_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 to 60, in order. -/
abbrev part0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v18) main_call0.v0 main_call0.v1 maximumf,
    StableHlo.binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v23 main_cst_1 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v25 (broadcastInDim S128 ![] bcast_S_S128 : (⟨S_, .f32⟩ : BufTy).Contents (Elt F) → (⟨S128, .f32⟩ : BufTy).Contents (Elt F)),
    StableHlo.binary main_v24 main_v25 main_v26 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v23) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v23) main_call1.v4 main_call1.v5 subf,
    StableHlo.TRef.binary main_call1.v5 main_call1.v5 main_call1.v6 mulf,
    StableHlo.TRef.unary (.of main_c_3) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v26 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v29 main_v30 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v31 (broadcastInDim S128 ![] bcast_S_S128 : (⟨S_, .f32⟩ : BufTy).Contents (Elt F) → (⟨S128, .f32⟩ : BufTy).Contents (Elt F)),
    StableHlo.binary main_v27 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v35 main_v36 (mulf : (⟨S100000x128, .f32⟩ : BufTy).Contents (Elt F) → (⟨S100000x128, .f32⟩ : BufTy).Contents (Elt F) → (⟨S100000x128, .f32⟩ : BufTy).Contents (Elt F)),
    StableHlo.unary main_arg6 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v42) main_call2.v0 main_call2.v1 maximumf,
    StableHlo.nullary main_c_5 (constantI S_ 32 0#32),
    StableHlo.unary main_c_5 main_v44 (broadcastInDim S1600000 ![] bcast_S_S1600000 : (⟨S_, .i32⟩ : BufTy).Contents (Elt F) → (⟨S1600000, .i32⟩ : BufTy).Contents (Elt F)),
    StableHlo.binary main_v1 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v46 (broadcastInDim S1600000 ![] bcast_S_S1600000 : (⟨S_, .i32⟩ : BufTy).Contents (Elt F) → (⟨S1600000, .i32⟩ : BufTy).Contents (Elt F)),
    StableHlo.binary main_v1 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

/-- The operations of @main's statements 61 to 109, in order. -/
abbrev part1 : List (HloOp τ sig (Elt F)) :=
  [ StableHlo.nullary main_cst_7 (constant S_ .f32 0x00000000#32),
    StableHlo.unary main_cst_7 main_v51 (broadcastInDim S100000x128 ![] bcast_S_S100000x128 : (⟨S_, .f32⟩ : BufTy).Contents (Elt F) → (⟨S100000x128, .f32⟩ : BufTy).Contents (Elt F)),
    StableHlo.unary main_v3 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v43 main_v53 main_v54 (addf : (⟨S100000x128, .f32⟩ : BufTy).Contents (Elt F) → (⟨S100000x128, .f32⟩ : BufTy).Contents (Elt F) → (⟨S100000x128, .f32⟩ : BufTy).Contents (Elt F)),
    StableHlo.binary main_v54 main_arg8 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v58) main_call3.v0 main_call3.v1 maximumf,
    StableHlo.binary main_v59 main_arg10 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v63 main_cst_8 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call4.cst (constant S_ .f32 0x00000000#32),
    StableHlo.TRef.binary (.of main_v63) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v63) main_call4.v4 main_call4.v5 subf,
    StableHlo.TRef.binary main_call4.v5 main_call4.v5 main_call4.v6 mulf,
    StableHlo.TRef.unary (.of main_c_10) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v69 main_v70 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v71 (broadcastInDim S128 ![] bcast_S_S128 : (⟨S_, .f32⟩ : BufTy).Contents (Elt F) → (⟨S128, .f32⟩ : BufTy).Contents (Elt F)),
    StableHlo.binary main_v67 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v75 main_v76 (mulf : (⟨S100000x128, .f32⟩ : BufTy).Contents (Elt F) → (⟨S100000x128, .f32⟩ : BufTy).Contents (Elt F) → (⟨S100000x128, .f32⟩ : BufTy).Contents (Elt F)),
    StableHlo.unary main_arg12 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v78 main_v79 (mulf : (⟨S100000x128, .f32⟩ : BufTy).Contents (Elt F) → (⟨S100000x128, .f32⟩ : BufTy).Contents (Elt F) → (⟨S100000x128, .f32⟩ : BufTy).Contents (Elt F)),
    StableHlo.unary main_arg13 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v82) main_call5.v0 main_call5.v1 maximumf,
    StableHlo.binary main_v83 main_arg14 main_v84 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg15 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (addf : (⟨S100000x64, .f32⟩ : BufTy).Contents (Elt F) → (⟨S100000x64, .f32⟩ : BufTy).Contents (Elt F) → (⟨S100000x64, .f32⟩ : BufTy).Contents (Elt F)),
    StableHlo.TRef.binary (.of main_v87) (.of main_v87) main_call6.v0 mulf,
    StableHlo.TRef.nullary main_call6.cst (constant S_ .f32 0x00000000#32),
    StableHlo.TRef.binary main_call6.v0 main_call6.cst main_call6.v1 (fun x v => Host.reduceAdd x v reducesTo_S100000x64_S100000_d1 h_S_),
    StableHlo.TRef.unary main_call6.v1 main_call6.v2 (broadcastInDim S100000x1 ![0] bcast_S100000_S100000x1_0),
    StableHlo.TRef.unary main_call6.v2 main_call6.v3 Host.sqrt,
    StableHlo.nullary main_cst_12 (constant S_ .f32 0x2B8CBCCC#32),
    StableHlo.unary main_cst_12 main_v89 (broadcastInDim S100000x1 ![] bcast_S_S100000x1 : (⟨S_, .f32⟩ : BufTy).Contents (Elt F) → (⟨S100000x1, .f32⟩ : BufTy).Contents (Elt F)),
    StableHlo.binary main_v88 main_v89 main_v90 (maximumf : (⟨S100000x1, .f32⟩ : BufTy).Contents (Elt F) → (⟨S100000x1, .f32⟩ : BufTy).Contents (Elt F) → (⟨S100000x1, .f32⟩ : BufTy).Contents (Elt F)),
    StableHlo.unary main_v90 main_v91 (broadcastInDim S100000x64 ![0, 1] bcast_S100000x1_S100000x64_0_1 : (⟨S100000x1, .f32⟩ : BufTy).Contents (Elt F) → (⟨S100000x64, .f32⟩ : BufTy).Contents (Elt F)),
    StableHlo.binary main_v87 main_v91 main_v92 (Host.divf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_part0_eq (c : Dev nD) : main_part0 (F := F) c = seq part0 := by
  simp only [main_part0, fn_relu.body, fn_var.body, fn_where.body, seq, bind_assoc, pure_bind] <;> rfl

set_option maxRecDepth 8192 in
set_option maxHeartbeats 4000000 in
theorem main_part1_eq (c : Dev nD) : main_part1 (F := F) c = seq part1 := by
  simp only [main_part1, fn_relu.body, fn_var.body, fn_where.body, fn_norm.body, seq, bind_assoc, pure_bind] <;> rfl

/-- @main's operations, in order. -/
abbrev ops : List (HloOp τ sig (Elt F)) := part0 ++ part1

theorem main_eq (c : Dev nD) : main (F := F) c = seq ops := by
  simp only [ops, seq_append, ← main_part0_eq c, ← main_part1_eq c] <;> rfl

end Cert.ReferenceIdeal.Hand

end
-- ==== Proof.Ref.Run.lean ====
/-
  The reference program's run, read back. Its operations are cut into nine consecutive stretches; after each stretch
  the buffers still read later hold named functions of the argument arrays (the stage functions of the value), and the
  argument arrays are unchanged. Every weakly fair execution terminates with the result buffer at `refResult` of the
  arguments' launch contents.
-/
import proofs.«143586_j39599598469629_2_alg».proof.Proof.Ref.Ops
import proofs.«143586_j39599598469629_2_alg».proof.Proof.Ref.Fns
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of stretch 1. -/
abbrev w1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The operations of stretch 2. -/
abbrev w2 : List (HloOp τ sig (Elt F)) :=
  [ StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v18) main_call0.v0 main_call0.v1 maximumf,
    StableHlo.binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)) ]

/-- The operations of stretch 3. -/
abbrev w3 : List (HloOp τ sig (Elt F)) :=
  [ StableHlo.nullary main_cst_1 (constant S_ .f32 0x00000000#32),
    StableHlo.binary main_v23 main_cst_1 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v25 (broadcastInDim S128 ![] bcast_S_S128 : (⟨S_, .f32⟩ : BufTy).Contents (Elt F) → (⟨S128, .f32⟩ : BufTy).Contents (Elt F)),
    StableHlo.binary main_v24 main_v25 main_v26 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v23) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v23) main_call1.v4 main_call1.v5 subf,
    StableHlo.TRef.binary main_call1.v5 main_call1.v5 main_call1.v6 mulf,
    StableHlo.TRef.unary (.of main_c_3) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- The operations of stretch 4. -/
abbrev w4 : List (HloOp τ sig (Elt F)) :=
  [ StableHlo.unary main_v26 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v29 main_v30 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v31 (broadcastInDim S128 ![] bcast_S_S128 : (⟨S_, .f32⟩ : BufTy).Contents (Elt F) → (⟨S128, .f32⟩ : BufTy).Contents (Elt F)),
    StableHlo.binary main_v27 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v35 main_v36 (mulf : (⟨S100000x128, .f32⟩ : BufTy).Contents (Elt F) → (⟨S100000x128, .f32⟩ : BufTy).Contents (Elt F) → (⟨S100000x128, .f32⟩ : BufTy).Contents (Elt F)),
    StableHlo.unary main_arg6 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (mulf : (⟨S100000x128, .f32⟩ : BufTy).Contents (Elt F) → (⟨S100000x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v42) main_call2.v0 main_call2.v1 maximumf ]

/-- The operations of stretch 5. -/
abbrev w5 : List (HloOp τ sig (Elt F)) :=
  [ StableHlo.nullary main_c_5 (constantI S_ 32 0#32),
    StableHlo.unary main_c_5 main_v44 (broadcastInDim S1600000 ![] bcast_S_S1600000 : (⟨S_, .i32⟩ : BufTy).Contents (Elt F) → (⟨S1600000, .i32⟩ : BufTy).Contents (Elt F)),
    StableHlo.binary main_v1 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v46 (broadcastInDim S1600000 ![] bcast_S_S1600000 : (⟨S_, .i32⟩ : BufTy).Contents (Elt F) → (⟨S1600000, .i32⟩ : BufTy).Contents (Elt F)),
    StableHlo.binary main_v1 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

/-- The operations of stretch 6. -/
abbrev w6 : List (HloOp τ sig (Elt F)) :=
  [ StableHlo.nullary main_cst_7 (constant S_ .f32 0x00000000#32),
    StableHlo.unary main_cst_7 main_v51 (broadcastInDim S100000x128 ![] bcast_S_S100000x128 : (⟨S_, .f32⟩ : BufTy).Contents (Elt F) → (⟨S100000x128, .f32⟩ : BufTy).Contents (Elt F)),
    StableHlo.unary main_v3 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v43 main_v53 main_v54 (addf : (⟨S100000x128, .f32⟩ : BufTy).Contents (Elt F) → (⟨S100000x128, .f32⟩ : BufTy).Contents (Elt F) → (⟨S100000x128, .f32⟩ : BufTy).Contents (Elt F)),
    StableHlo.binary main_v54 main_arg8 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v58) main_call3.v0 main_call3.v1 maximumf,
    StableHlo.binary main_v59 main_arg10 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)) ]

/-- The operations of stretch 7. -/
abbrev w7 : List (HloOp τ sig (Elt F)) :=
  [ StableHlo.nullary main_cst_8 (constant S_ .f32 0x00000000#32),
    StableHlo.binary main_v63 main_cst_8 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call4.cst (constant S_ .f32 0x00000000#32),
    StableHlo.TRef.binary (.of main_v63) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v63) main_call4.v4 main_call4.v5 subf,
    StableHlo.TRef.binary main_call4.v5 main_call4.v5 main_call4.v6 mulf,
    StableHlo.TRef.unary (.of main_c_10) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- The operations of stretch 8. -/
abbrev w8 : List (HloOp τ sig (Elt F)) :=
  [ StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v69 main_v70 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v71 (broadcastInDim S128 ![] bcast_S_S128 : (⟨S_, .f32⟩ : BufTy).Contents (Elt F) → (⟨S128, .f32⟩ : BufTy).Contents (Elt F)),
    StableHlo.binary main_v67 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v75 main_v76 (mulf : (⟨S100000x128, .f32⟩ : BufTy).Contents (Elt F) → (⟨S100000x128, .f32⟩ : BufTy).Contents (Elt F) → (⟨S100000x128, .f32⟩ : BufTy).Contents (Elt F)),
    StableHlo.unary main_arg12 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v78 main_v79 (mulf : (⟨S100000x128, .f32⟩ : BufTy).Contents (Elt F) → (⟨S100000x128, .f32⟩ : BufTy).Contents (Elt F) → (⟨S100000x128, .f32⟩ : BufTy).Contents (Elt F)),
    StableHlo.unary main_arg13 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v82) main_call5.v0 main_call5.v1 maximumf ]

/-- The operations of stretch 9. -/
abbrev w9 : List (HloOp τ sig (Elt F)) :=
  [ StableHlo.binary main_v83 main_arg14 main_v84 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg15 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (addf : (⟨S100000x64, .f32⟩ : BufTy).Contents (Elt F) → (⟨S100000x64, .f32⟩ : BufTy).Contents (Elt F) → (⟨S100000x64, .f32⟩ : BufTy).Contents (Elt F)),
    StableHlo.TRef.binary (.of main_v87) (.of main_v87) main_call6.v0 mulf,
    StableHlo.TRef.nullary main_call6.cst (constant S_ .f32 0x00000000#32),
    StableHlo.TRef.binary main_call6.v0 main_call6.cst main_call6.v1 (fun x v => Host.reduceAdd x v reducesTo_S100000x64_S100000_d1 h_S_),
    StableHlo.TRef.unary main_call6.v1 main_call6.v2 (broadcastInDim S100000x1 ![0] bcast_S100000_S100000x1_0),
    StableHlo.TRef.unary main_call6.v2 main_call6.v3 Host.sqrt,
    StableHlo.nullary main_cst_12 (constant S_ .f32 0x2B8CBCCC#32),
    StableHlo.unary main_cst_12 main_v89 (broadcastInDim S100000x1 ![] bcast_S_S100000x1 : (⟨S_, .f32⟩ : BufTy).Contents (Elt F) → (⟨S100000x1, .f32⟩ : BufTy).Contents (Elt F)),
    StableHlo.binary main_v88 main_v89 main_v90 (maximumf : (⟨S100000x1, .f32⟩ : BufTy).Contents (Elt F) → (⟨S100000x1, .f32⟩ : BufTy).Contents (Elt F) → (⟨S100000x1, .f32⟩ : BufTy).Contents (Elt F)),
    StableHlo.unary main_v90 main_v91 (broadcastInDim S100000x64 ![0, 1] bcast_S100000x1_S100000x64_0_1 : (⟨S100000x1, .f32⟩ : BufTy).Contents (Elt F) → (⟨S100000x64, .f32⟩ : BufTy).Contents (Elt F)),
    StableHlo.binary main_v87 main_v91 main_v92 (Host.divf : (⟨S100000x64, .f32⟩ : BufTy).Contents (Elt F) → (⟨S100000x64, .f32⟩ : BufTy).Contents (Elt F) → (⟨S100000x64, .f32⟩ : BufTy).Contents (Elt F)) ]

theorem ops_split : (ops : List (HloOp τ sig (Elt F))) = w1 ++ (w2 ++ (w3 ++ (w4 ++ (w5 ++ (w6 ++ (w7 ++ (w8 ++ w9))))))) := rfl

/-- The buffer contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl

/-- The buffer contents after the first 1 stretch. -/
def val1 (V0 : Valuation τ sig (Elt F)) : Valuation τ sig (Elt F) := after w1 (val0 V0)
/-- The buffers stretch 1 writes. -/
abbrev w1_W : List (Ref sig .tc) := [main_v0, main_v1, main_v2, main_v3, main_c, main_v4, main_v5, main_c_0, main_v6, main_v7, main_v8, main_v9, main_v10, main_cst, main_v11, main_v12, main_v13]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 1 does not write keeps its contents through it. -/
theorem val1_keep (V0 : Valuation τ sig (Elt F)) (r : Ref sig .tc) (h : r ∉ w1_W) :
    val1 V0 (Proc.devRef .tc r) = val0 V0 (Proc.devRef .tc r) :=
  after_of_writes_sub w1 _ w1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
set_option maxRecDepth 8192 in
set_option maxHeartbeats 2000000 in
theorem val1_main_v1 (V0 : Valuation τ sig (Elt F)) : val1 V0 (no_index (Proc.devRef .tc main_v1)) = row0 (V0 (Proc.devRef .tc main_arg1)) := by
  unfold val1
  simp only [w1]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  (try simp only [row0, row1, AggIdx, zeros128, col, wrapIdx]) <;> rfl
set_option maxRecDepth 8192 in
set_option maxHeartbeats 2000000 in
theorem val1_main_v3 (V0 : Valuation τ sig (Elt F)) : val1 V0 (no_index (Proc.devRef .tc main_v3)) = row1 (V0 (Proc.devRef .tc main_arg1)) := by
  unfold val1
  simp only [w1]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  (try simp only [row0, row1, AggIdx, zeros128, col, wrapIdx]) <;> rfl
set_option maxRecDepth 8192 in
set_option maxHeartbeats 2000000 in
theorem val1_main_v13 (V0 : Valuation τ sig (Elt F)) : val1 V0 (no_index (Proc.devRef .tc main_v13)) = AggIdx (V0 (Proc.devRef .tc main_arg1)) (V0 (Proc.devRef .tc main_arg0)) := by
  unfold val1
  simp only [w1]
  after_results_simp
  simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  (try simp only [row0, row1, AggIdx, zeros128, col, wrapIdx]) <;> rfl

/-- The buffer contents after the first 2 stretches. -/
def val2 (V0 : Valuation τ sig (Elt F)) : Valuation τ sig (Elt F) := after w2 (val1 V0)
/-- The buffers stretch 2 writes. -/
abbrev w2_W : List (Ref sig .tc) := [main_v14, main_v15, main_v16, main_v17, main_v18, main_call0_cst, main_call0_v0, main_v19, main_v20, main_v21, main_v22, main_v23]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_v1 (V0 : Valuation τ sig (Elt F)) : val2 V0 (no_index (Proc.devRef .tc main_v1)) = row0 (V0 (Proc.devRef .tc main_arg1)) :=
  (val2_keep V0 main_v1 (by decide)).trans (val1_main_v1 V0)
theorem val2_main_v3 (V0 : Valuation τ sig (Elt F)) : val2 V0 (no_index (Proc.devRef .tc main_v3)) = row1 (V0 (Proc.devRef .tc main_arg1)) :=
  (val2_keep V0 main_v3 (by decide)).trans (val1_main_v3 V0)
set_option maxRecDepth 8192 in
set_option maxHeartbeats 2000000 in
theorem val2_main_v23 (V0 : Valuation τ sig (Elt F)) : val2 V0 (no_index (Proc.devRef .tc main_v23)) = preF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) := by
  unfold val2
  simp only [w2]
  after_results_simp
  simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_arg13, val1_main_arg14, val1_main_arg15, val1_main_v1, val1_main_v3, val1_main_v13]
  (try simp only [preF, mlpF, lin128, relu128, rows128, zeros128]) <;> rfl

/-- The buffer contents after the first 3 stretches. -/
def val3 (V0 : Valuation τ sig (Elt F)) : Valuation τ sig (Elt F) := after w3 (val2 V0)
/-- The buffers stretch 3 writes. -/
abbrev w3_W : List (Ref sig .tc) := [main_cst_1, main_v24, main_cst_2, main_v25, main_v26, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v27]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_v1 (V0 : Valuation τ sig (Elt F)) : val3 V0 (no_index (Proc.devRef .tc main_v1)) = row0 (V0 (Proc.devRef .tc main_arg1)) :=
  (val3_keep V0 main_v1 (by decide)).trans (val2_main_v1 V0)
theorem val3_main_v3 (V0 : Valuation τ sig (Elt F)) : val3 V0 (no_index (Proc.devRef .tc main_v3)) = row1 (V0 (Proc.devRef .tc main_arg1)) :=
  (val3_keep V0 main_v3 (by decide)).trans (val2_main_v3 V0)
theorem val3_main_v23 (V0 : Valuation τ sig (Elt F)) : val3 V0 (no_index (Proc.devRef .tc main_v23)) = preF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) :=
  (val3_keep V0 main_v23 (by decide)).trans (val2_main_v23 V0)
set_option maxRecDepth 8192 in
set_option maxHeartbeats 2000000 in
theorem val3_main_v26 (V0 : Valuation τ sig (Elt F)) : val3 V0 (no_index (Proc.devRef .tc main_v26)) = meanF (preF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) := by
  unfold val3
  simp only [w3]
  after_results_simp
  simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_arg13, val2_main_arg14, val2_main_arg15, val2_main_v1, val2_main_v3, val2_main_v23]
  (try simp only [meanF, varF, devF, nCorr, colSum]) <;> rfl
set_option maxRecDepth 8192 in
set_option maxHeartbeats 2000000 in
theorem val3_main_v27 (V0 : Valuation τ sig (Elt F)) : val3 V0 (no_index (Proc.devRef .tc main_v27)) = varF (preF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5))) := by
  unfold val3
  simp only [w3]
  after_results_simp
  simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_arg13, val2_main_arg14, val2_main_arg15, val2_main_v1, val2_main_v3, val2_main_v23]
  (try simp only [meanF, varF, devF, nCorr, colSum]) <;> rfl

/-- The buffer contents after the first 4 stretches. -/
def val4 (V0 : Valuation τ sig (Elt F)) : Valuation τ sig (Elt F) := after w4 (val3 V0)
/-- The buffers stretch 4 writes. -/
abbrev w4_W : List (Ref sig .tc) := [main_v28, main_v29, main_v30, main_cst_4, main_v31, main_v32, main_v33, main_v34, main_v35, main_v36, main_v37, main_v38, main_v39, main_v40, main_v41, main_v42, main_call2_cst, main_call2_v0, main_v43]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_v1 (V0 : Valuation τ sig (Elt F)) : val4 V0 (no_index (Proc.devRef .tc main_v1)) = row0 (V0 (Proc.devRef .tc main_arg1)) :=
  (val4_keep V0 main_v1 (by decide)).trans (val3_main_v1 V0)
theorem val4_main_v3 (V0 : Valuation τ sig (Elt F)) : val4 V0 (no_index (Proc.devRef .tc main_v3)) = row1 (V0 (Proc.devRef .tc main_arg1)) :=
  (val4_keep V0 main_v3 (by decide)).trans (val3_main_v3 V0)
set_option maxRecDepth 8192 in
set_option maxHeartbeats 2000000 in
theorem val4_main_v43 (V0 : Valuation τ sig (Elt F)) : val4 V0 (no_index (Proc.devRef .tc main_v43)) = layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val4
  simp only [w4]
  after_results_simp
  simp only [val3_main_arg0, val3_main_arg1, val3_main_arg2, val3_main_arg3, val3_main_arg4, val3_main_arg5, val3_main_arg6, val3_main_arg7, val3_main_arg8, val3_main_arg9, val3_main_arg10, val3_main_arg11, val3_main_arg12, val3_main_arg13, val3_main_arg14, val3_main_arg15, val3_main_v1, val3_main_v3, val3_main_v23, val3_main_v26, val3_main_v27]
  (try simp only [layerF, bnF, normF, relu128, rows128, zeros128]) <;> rfl

/-- The buffer contents after the first 5 stretches. -/
def val5 (V0 : Valuation τ sig (Elt F)) : Valuation τ sig (Elt F) := after w5 (val4 V0)
/-- The buffers stretch 5 writes. -/
abbrev w5_W : List (Ref sig .tc) := [main_c_5, main_v44, main_v45, main_c_6, main_v46, main_v47, main_v48, main_v49, main_v50]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_v3 (V0 : Valuation τ sig (Elt F)) : val5 V0 (no_index (Proc.devRef .tc main_v3)) = row1 (V0 (Proc.devRef .tc main_arg1)) :=
  (val5_keep V0 main_v3 (by decide)).trans (val4_main_v3 V0)
theorem val5_main_v43 (V0 : Valuation τ sig (Elt F)) : val5 V0 (no_index (Proc.devRef .tc main_v43)) = layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val5_keep V0 main_v43 (by decide)).trans (val4_main_v43 V0)
set_option maxRecDepth 8192 in
set_option maxHeartbeats 2000000 in
theorem val5_main_v50 (V0 : Valuation τ sig (Elt F)) : val5 V0 (no_index (Proc.devRef .tc main_v50)) = Host.gather gather_S100000x128_S1600000x1_S1600000x128_1_0_n_n_0_1_1128 (layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (col (wrapIdx (row0 (V0 (Proc.devRef .tc main_arg1))))) := by
  unfold val5
  simp only [w5]
  after_results_simp
  simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_arg13, val4_main_arg14, val4_main_arg15, val4_main_v1, val4_main_v3, val4_main_v43]
  (try simp only [col, wrapIdx]) <;> rfl

/-- The buffer contents after the first 6 stretches. -/
def val6 (V0 : Valuation τ sig (Elt F)) : Valuation τ sig (Elt F) := after w6 (val5 V0)
/-- The buffers stretch 6 writes. -/
abbrev w6_W : List (Ref sig .tc) := [main_cst_7, main_v51, main_v52, main_v53, main_v54, main_v55, main_v56, main_v57, main_v58, main_call3_cst, main_call3_v0, main_v59, main_v60, main_v61, main_v62, main_v63]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
set_option maxRecDepth 8192 in
set_option maxHeartbeats 2000000 in
theorem val6_main_v63 (V0 : Valuation τ sig (Elt F)) : val6 V0 (no_index (Proc.devRef .tc main_v63)) = preF (V0 (Proc.devRef .tc main_arg1)) (layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (V0 (Proc.devRef .tc main_arg8)) (V0 (Proc.devRef .tc main_arg9)) (V0 (Proc.devRef .tc main_arg10)) (V0 (Proc.devRef .tc main_arg11)) := by
  unfold val6
  simp only [w6]
  after_results_simp
  simp only [val5_main_arg0, val5_main_arg1, val5_main_arg2, val5_main_arg3, val5_main_arg4, val5_main_arg5, val5_main_arg6, val5_main_arg7, val5_main_arg8, val5_main_arg9, val5_main_arg10, val5_main_arg11, val5_main_arg12, val5_main_arg13, val5_main_arg14, val5_main_arg15, val5_main_v3, val5_main_v43, val5_main_v50]
  (try simp only [preF, mlpF, lin128, relu128, rows128, zeros128, AggIdx, col]) <;> rfl

/-- The buffer contents after the first 7 stretches. -/
def val7 (V0 : Valuation τ sig (Elt F)) : Valuation τ sig (Elt F) := after w7 (val6 V0)
/-- The buffers stretch 7 writes. -/
abbrev w7_W : List (Ref sig .tc) := [main_cst_8, main_v64, main_cst_9, main_v65, main_v66, main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v67]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_v63 (V0 : Valuation τ sig (Elt F)) : val7 V0 (no_index (Proc.devRef .tc main_v63)) = preF (V0 (Proc.devRef .tc main_arg1)) (layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (V0 (Proc.devRef .tc main_arg8)) (V0 (Proc.devRef .tc main_arg9)) (V0 (Proc.devRef .tc main_arg10)) (V0 (Proc.devRef .tc main_arg11)) :=
  (val7_keep V0 main_v63 (by decide)).trans (val6_main_v63 V0)
set_option maxRecDepth 8192 in
set_option maxHeartbeats 2000000 in
theorem val7_main_v66 (V0 : Valuation τ sig (Elt F)) : val7 V0 (no_index (Proc.devRef .tc main_v66)) = meanF (preF (V0 (Proc.devRef .tc main_arg1)) (layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (V0 (Proc.devRef .tc main_arg8)) (V0 (Proc.devRef .tc main_arg9)) (V0 (Proc.devRef .tc main_arg10)) (V0 (Proc.devRef .tc main_arg11))) := by
  unfold val7
  simp only [w7]
  after_results_simp
  simp only [val6_main_arg0, val6_main_arg1, val6_main_arg2, val6_main_arg3, val6_main_arg4, val6_main_arg5, val6_main_arg6, val6_main_arg7, val6_main_arg8, val6_main_arg9, val6_main_arg10, val6_main_arg11, val6_main_arg12, val6_main_arg13, val6_main_arg14, val6_main_arg15, val6_main_v63]
  (try simp only [meanF, varF, devF, nCorr, colSum]) <;> rfl
set_option maxRecDepth 8192 in
set_option maxHeartbeats 2000000 in
theorem val7_main_v67 (V0 : Valuation τ sig (Elt F)) : val7 V0 (no_index (Proc.devRef .tc main_v67)) = varF (preF (V0 (Proc.devRef .tc main_arg1)) (layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (V0 (Proc.devRef .tc main_arg8)) (V0 (Proc.devRef .tc main_arg9)) (V0 (Proc.devRef .tc main_arg10)) (V0 (Proc.devRef .tc main_arg11))) := by
  unfold val7
  simp only [w7]
  after_results_simp
  simp only [val6_main_arg0, val6_main_arg1, val6_main_arg2, val6_main_arg3, val6_main_arg4, val6_main_arg5, val6_main_arg6, val6_main_arg7, val6_main_arg8, val6_main_arg9, val6_main_arg10, val6_main_arg11, val6_main_arg12, val6_main_arg13, val6_main_arg14, val6_main_arg15, val6_main_v63]
  (try simp only [meanF, varF, devF, nCorr, colSum]) <;> rfl

/-- The buffer contents after the first 8 stretches. -/
def val8 (V0 : Valuation τ sig (Elt F)) : Valuation τ sig (Elt F) := after w8 (val7 V0)
/-- The buffers stretch 8 writes. -/
abbrev w8_W : List (Ref sig .tc) := [main_v68, main_v69, main_v70, main_cst_11, main_v71, main_v72, main_v73, main_v74, main_v75, main_v76, main_v77, main_v78, main_v79, main_v80, main_v81, main_v82, main_call5_cst, main_call5_v0, main_v83]
set_option maxRecDepth 8192 in
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 8 does not write keeps its contents through it. -/
theorem val8_keep (V0 : Valuation τ sig (Elt F)) (r : Ref sig .tc) (h : r ∉ w8_W) :
    val8 V0 (Proc.devRef .tc r) = val7 V0 (Proc.devRef .tc r) :=
  after_of_writes_sub w8 _ w8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
set_option maxRecDepth 8192 in
set_option maxHeartbeats 2000000 in
theorem val8_main_v83 (V0 : Valuation τ sig (Elt F)) : val8 V0 (no_index (Proc.devRef .tc main_v83)) = layerF (V0 (Proc.devRef .tc main_arg1)) (layerF (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  unfold val8
  simp only [w8]
  after_results_simp
  simp only [val7_main_arg0, val7_main_arg1, val7_main_arg2, val7_main_arg3, val7_main_arg4, val7_main_arg5, val7_main_arg6, val7_main_arg7, val7_main_arg8, val7_main_arg9, val7_main_arg10, val7_main_arg11, val7_main_arg12, val7_main_arg13, val7_main_arg14, val7_main_arg15, val7_main_v63, val7_main_v66, val7_main_v67]
  (try simp only [layerF, bnF, normF, relu128, rows128, zeros128]) <;> rfl

/-- The buffer contents after the first 9 stretches. -/
def val9 (V0 : Valuation τ sig (Elt F)) : Valuation τ sig (Elt F) := after w9 (val8 V0)
/-- The buffers stretch 9 writes. -/
abbrev w9_W : List (Ref sig .tc) := [main_v84, main_v85, main_v86, main_v87, main_call6_v0, main_call6_cst, main_call6_v1, main_call6_v2, main_v88, main_cst_12, main_v89, main_v90, main_v91, main_v92]
set_option maxRecDepth 8192 in
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 9 does not write keeps its contents through it. -/
theorem val9_keep (V0 : Valuation τ sig (Elt F)) (r : Ref sig .tc) (h : r ∉ w9_W) :
    val9 V0 (Proc.devRef .tc r) = val8 V0 (Proc.devRef .tc r) :=
  after_of_writes_sub w9 _ w9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
set_option maxRecDepth 8192 in
set_option maxHeartbeats 2000000 in
theorem val9_main_v92 (V0 : Valuation τ sig (Elt F)) : val9 V0 (no_index (Proc.devRef .tc main_v92)) = refResult (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val9
  simp only [w9]
  after_results_simp
  simp only [val8_main_arg0, val8_main_arg1, val8_main_arg2, val8_main_arg3, val8_main_arg4, val8_main_arg5, val8_main_arg6, val8_main_arg7, val8_main_arg8, val8_main_arg9, val8_main_arg10, val8_main_arg11, val8_main_arg12, val8_main_arg13, val8_main_arg14, val8_main_arg15, val8_main_v83]
  (try simp only [refResult, unitRows, rowNorm, projF]) <;> rfl

theorem after_ops (V0 : Valuation τ sig (Elt F)) : after ops V0 = val9 V0 := by
  rw [ops_split]
  simp only [after_append]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem w1_sub : (w1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
set_option maxRecDepth 8192 in
theorem w2_sub : (w2 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem w3_sub : (w3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w4_sub : (w4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem w5_sub : (w5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem w6_sub : (w6 : List (HloOp τ sig (Elt F))).Forall fun op => op.bufs ⊆ tcRefs τ sig :=
  ⟨nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem w7_sub : (w7 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w8_sub : (w8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem w9_sub : (w9 : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem ops_sub : (ops : List (HloOp τ sig (Elt F))).Forall fun op => op.bufs ⊆ tcRefs τ sig :=
  List.forall_iff_forall_mem.mpr fun op h => by
    rw [ops_split] at h
    simp only [List.mem_append] at h
    rcases h with h | h | h | h | h | h | h | h | h
    exacts [List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h]

/-- On every device, for any float values, from any memory with zero counters: every weakly fair execution of @main
    terminates with the result buffer at `refResult` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v92).trans (by simp only [after_ops]; exact val9_main_v92 (launchContents m c)),
      (h c main_arg0).trans (by simp only [after_ops]; exact val9_main_arg0 (launchContents m c)),
      (h c main_arg1).trans (by simp only [after_ops]; exact val9_main_arg1 (launchContents m c)),
      (h c main_arg2).trans (by simp only [after_ops]; exact val9_main_arg2 (launchContents m c)),
      (h c main_arg3).trans (by simp only [after_ops]; exact val9_main_arg3 (launchContents m c)),
      (h c main_arg4).trans (by simp only [after_ops]; exact val9_main_arg4 (launchContents m c)),
      (h c main_arg5).trans (by simp only [after_ops]; exact val9_main_arg5 (launchContents m c)),
      (h c main_arg6).trans (by simp only [after_ops]; exact val9_main_arg6 (launchContents m c)),
      (h c main_arg7).trans (by simp only [after_ops]; exact val9_main_arg7 (launchContents m c)),
      (h c main_arg8).trans (by simp only [after_ops]; exact val9_main_arg8 (launchContents m c)),
      (h c main_arg9).trans (by simp only [after_ops]; exact val9_main_arg9 (launchContents m c)),
      (h c main_arg10).trans (by simp only [after_ops]; exact val9_main_arg10 (launchContents m c)),
      (h c main_arg11).trans (by simp only [after_ops]; exact val9_main_arg11 (launchContents m c)),
      (h c main_arg12).trans (by simp only [after_ops]; exact val9_main_arg12 (launchContents m c)),
      (h c main_arg13).trans (by simp only [after_ops]; exact val9_main_arg13 (launchContents m c)),
      (h c main_arg14).trans (by simp only [after_ops]; exact val9_main_arg14 (launchContents m c)),
      (h c main_arg15).trans (by simp only [after_ops]; exact val9_main_arg15 (launchContents m c))⟩)
    (run_seq scopedRefs_eq scopedSems_eq defs main (fun _ => ops) main_eq (fun _ => ops_sub) m ρ)

end Cert.ReferenceIdeal.Hand

end
-- ==== Proof.Ref.Read.lean ====
/-
  The reference's value read to the specification. Each stage function is read at an entry on the extended reals — a
  broadcast reads its operand, a contraction is the sum of products over the contracted coordinate, a sum along an axis
  is the initial zero plus the sum over that axis's coordinates, the variance's divisor 100000 − 0 is positive so the
  selected branch is the mean squared deviation — and the stages compose to the specification's function with the
  variance taken from the squared deviations.
-/
import proofs.«143586_j39599598469629_2_alg».proof.Proof.Ref.Agg
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.LibRealEntries Idealize.ShloMosaic.ValueIdx Cert.Spec

section Layout
variable {α : Type}

/-- A row given as a vector, made a one-row array, reads the vector at the column. -/
theorem bcastRow_apply {m : ℕ} (h : (⟨1, ![m]⟩ : Shape).BroadcastsInDim ⟨2, ![1, m]⟩ ![1])
    (b : (⟨1, ![m]⟩ : Shape).Idx → α) (i : Fin 1) (j : Fin m) :
    broadcastInDim ⟨2, ![1, m]⟩ ![1] h b (ix2 i j) = b (ix1 j) := by
  refine broadcastInDim_apply _ h b _ (ix1 j) (Fin.forall_fin_one.mpr ?_)
  show j.val = if m = 1 then 0 else j.val
  split_ifs with hm
  · have := j.isLt; omega
  · rfl

/-- A one-row array repeated down `n` rows reads its row at the column. -/
theorem bcastRows_apply {n m : ℕ} (h : (⟨2, ![1, m]⟩ : Shape).BroadcastsInDim ⟨2, ![n, m]⟩ ![0, 1])
    (v : (⟨2, ![1, m]⟩ : Shape).Idx → α) (i : Fin n) (j : Fin m) :
    broadcastInDim ⟨2, ![n, m]⟩ ![0, 1] h v (ix2 i j) = v (ix2 0 j) := by
  refine broadcastInDim_apply _ h v _ (ix2 0 j) (Fin.forall_fin_two.mpr ⟨?_, ?_⟩)
  · show (0 : ℕ) = if (1 : ℕ) = 1 then 0 else i.val
    rw [if_pos rfl]
  · show j.val = if m = 1 then 0 else j.val
    split_ifs with hm
    · have := j.isLt; omega
    · rfl

/-- A vector made a one-column array reads the vector at the row. -/
theorem bcastCol_apply {n : ℕ} (h : (⟨1, ![n]⟩ : Shape).BroadcastsInDim ⟨2, ![n, 1]⟩ ![0])
    (x : (⟨1, ![n]⟩ : Shape).Idx → α) (i : Fin n) (z : Fin 1) :
    broadcastInDim ⟨2, ![n, 1]⟩ ![0] h x (ix2 i z) = x (ix1 i) := by
  refine broadcastInDim_apply _ h x _ (ix1 i) (Fin.forall_fin_one.mpr ?_)
  show i.val = if n = 1 then 0 else i.val
  split_ifs with hn
  · have := i.isLt; omega
  · rfl

/-- A one-column array repeated across `m` columns reads its column at the row. -/
theorem bcastCols_apply {n m : ℕ} (h : (⟨2, ![n, 1]⟩ : Shape).BroadcastsInDim ⟨2, ![n, m]⟩ ![0, 1])
    (v : (⟨2, ![n, 1]⟩ : Shape).Idx → α) (i : Fin n) (j : Fin m) :
    broadcastInDim ⟨2, ![n, m]⟩ ![0, 1] h v (ix2 i j) = v (ix2 i 0) := by
  refine broadcastInDim_apply _ h v _ (ix2 i 0) (Fin.forall_fin_two.mpr ⟨?_, ?_⟩)
  · show i.val = if n = 1 then 0 else i.val
    split_ifs with hn
    · have := i.isLt; omega
    · rfl
  · show (0 : ℕ) = if (1 : ℕ) = 1 then 0 else j.val
    rw [if_pos rfl]

end Layout

/-- A row vector repeated down the rows reads the vector at the column. -/
theorem rows128_apply (b : FVec Ideal S128 .f32) (i : Fin 100000) (j : Fin 128) :
    rows128 b (ix2 i j) = b (ix1 j) := by
  unfold rows128
  rw [bcastRows_apply, bcastRow_apply]

theorem zeros128_apply' (i : Fin 100000) (j : Fin 128) : zeros128 (F := Ideal) (ix2 i j) = 0 := zeros128_apply _

/-- The rectification at an entry. -/
theorem relu128_apply (x : FVec Ideal S100000x128 .f32) (i : Fin 100000) (j : Fin 128) :
    relu128 x (ix2 i j) = relu (x (ix2 i j)) := by
  unfold relu128 relu
  rw [maximumf_apply, zeros128_apply]

/-- The host's square root and reciprocal square root at an entry (stated at any shape). -/
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl

/-- The word of 100000.0 is the real 100000. -/
theorem wN_eq : wN = ((100000 : ℝ) : EReal) := by
  unfold wN
  simp [Ideal.ofBits, Ideal.ieee, -EReal.coe_mul]; norm_num

/-- The variance's divisor: 100000 less the correction zero. -/
theorem nCorr_apply : nCorr (F := Ideal) ix0 = wN := by
  unfold nCorr wN
  rw [subf_apply, constant_apply, sitofp_apply, constantI_apply]
  show Ideal.ofBits .f32 0x47C35000#32 - (((0#32 : BitVec 32).toInt : ℝ) : EReal) = _
  simp

/-- The divisor is positive: the variance is the mean squared deviation, not the not-a-number word. -/
theorem nCorr_pos : FloatOps.cmpf (F := Ideal) .ogt (nCorr (F := Ideal) ix0) (Ideal.ofBits .f32 0x00000000#32) = 1#1 := by
  rw [nCorr_apply, wN_eq, Ideal.ofBits_zero_f32]
  show Ideal.cmp .ogt _ _ = 1#1
  unfold Ideal.cmp
  have h : (0 : EReal) < ((100000 : ℝ) : EReal) := by exact_mod_cast (by norm_num : (0 : ℝ) < 100000)
  simp [h]

/-- The sum of each column. -/
theorem colSum_apply (t : FVec Ideal S100000x128 .f32) (j : Fin 128) :
    colSum t (ix1 j) = ∑ i : Fin 100000, t (ix2 i j) := by
  unfold colSum
  rw [hostReduceAdd_apply, Ideal.hostReduceAdd_single _ (by decide : S100000x128.Reduces [0] S128), constant_apply,
    Ideal.ofBits_zero_f32, zero_add]
  refine Finset.sum_congr rfl fun k _ => congrArg t ?_
  funext c
  apply Fin.ext
  revert c
  exact Fin.forall_fin_two.mpr ⟨rfl, rfl⟩

/-- The mean of each column. -/
theorem meanF_apply (t : FVec Ideal S100000x128 .f32) (j : Fin 128) :
    meanF t (ix1 j) = Ideal.div (∑ i : Fin 100000, t (ix2 i j)) wN := by
  unfold meanF wN
  rw [hostDivf_apply, colSum_apply, broadcastInDim_scalar_apply, constant_apply]

/-- The deviations from the column means. -/
theorem devF_apply (t : FVec Ideal S100000x128 .f32) (i : Fin 100000) (j : Fin 128) :
    devF t (ix2 i j) = t (ix2 i j) - Ideal.div (∑ i' : Fin 100000, t (ix2 i' j)) wN := by
  unfold devF wN
  rw [subf_apply, bcastRows_apply, hostDivf_apply, bcastRow_apply, colSum_apply, broadcastInDim_scalar_apply, constant_apply]

/-- The variance of each column: the mean squared deviation. -/
theorem varF_apply (t : FVec Ideal S100000x128 .f32) (j : Fin 128) :
    varF t (ix1 j) = Ideal.div (∑ i : Fin 100000, devF t (ix2 i j) * devF t (ix2 i j)) wN := by
  unfold varF
  rw [select_apply, broadcastInDim_scalar_apply, cmpf_apply, constant_apply, nCorr_pos, select_one, hostDivf_apply,
    colSum_apply, broadcastInDim_scalar_apply, nCorr_apply]
  rfl

/-- Normalise, scale, shift, at an entry. -/
theorem normF_apply (t : FVec Ideal S100000x128 .f32) (mean var g be : FVec Ideal S128 .f32) (i : Fin 100000) (j : Fin 128) :
    normF t mean var g be (ix2 i j)
      = (t (ix2 i j) - mean (ix1 j)) * Ideal.rsqrt (var (ix1 j) + wEps) * g (ix1 j) + be (ix1 j) := by
  unfold normF wEps
  rw [addf_apply, mulf_apply, mulf_apply, subf_apply, rows128_apply, rows128_apply, rows128_apply, rows128_apply]
  rw [hostRsqrt_apply, addf_apply, broadcastInDim_scalar_apply, constant_apply]

/-- The host's contraction at the exact values, at an output index: the sum of the operands' products over the
    contraction index (stated at any shapes). -/
theorem dotGeneral_host_apply {sl sr so : Shape} (d : DotDims sl sr so) (prec : Option ContractPrecision)
    (l : FVec Ideal sl .f32) (r : FVec Ideal sr .f32) (j : so.Idx) :
    Host.dotGeneral d prec l r j = ∑ k : d.contr.Idx, l (d.lhsIdx j k) * r (d.rhsIdx j k) :=
  Ideal.dotGeneral_apply d prec _ l r j

/-- The 128 × 128 product's contraction index is its one coordinate. -/
def contrA : dot_S100000x128_S128x128_S100000x128_1_0_0_1_n_n.contr.Idx ≃ Fin 128 :=
  contrEquiv1 dot_S100000x128_S128x128_S100000x128_1_0_0_1_n_n 128 (by decide) (by decide)

theorem dotA_lhsIdx (i : Fin 100000) (j c : Fin 128) :
    dot_S100000x128_S128x128_S100000x128_1_0_0_1_n_n.lhsIdx (ix2 i j) (contrA.symm c) = ix2 i c := by
  funext a
  apply Fin.ext
  revert a
  exact Fin.forall_fin_two.mpr ⟨rfl, rfl⟩

theorem dotA_rhsIdx (i : Fin 100000) (j c : Fin 128) :
    dot_S100000x128_S128x128_S100000x128_1_0_0_1_n_n.rhsIdx (ix2 i j) (contrA.symm c) = ix2 c j := by
  funext a
  apply Fin.ext
  revert a
  exact Fin.forall_fin_two.mpr ⟨rfl, rfl⟩

/-- A linear layer at an entry. -/
theorem lin128_apply (x : FVec Ideal S100000x128 .f32) (w : FVec Ideal S128x128 .f32) (b : FVec Ideal S128 .f32)
    (i : Fin 100000) (j : Fin 128) :
    lin128 x w b (ix2 i j) = (∑ k : Fin 128, x (ix2 i k) * w (ix2 k j)) + b (ix1 j) := by
  unfold lin128
  rw [addf_apply, rows128_apply, dotGeneral_host_apply]
  congr 1
  refine ((Equiv.sum_comp contrA.symm _).symm.trans ?_)
  refine Finset.sum_congr rfl fun c _ => ?_
  rw [dotA_lhsIdx, dotA_rhsIdx]

/-- The projection's contraction index is its one coordinate. -/
def contrP : dot_S100000x128_S128x64_S100000x64_1_0_0_1_n_n.contr.Idx ≃ Fin 128 :=
  contrEquiv1 dot_S100000x128_S128x64_S100000x64_1_0_0_1_n_n 128 (by decide) (by decide)

theorem dotP_lhsIdx (i : Fin 100000) (j : Fin 64) (c : Fin 128) :
    dot_S100000x128_S128x64_S100000x64_1_0_0_1_n_n.lhsIdx (ix2 i j) (contrP.symm c) = ix2 i c := by
  funext a
  apply Fin.ext
  revert a
  exact Fin.forall_fin_two.mpr ⟨rfl, rfl⟩

theorem dotP_rhsIdx (i : Fin 100000) (j : Fin 64) (c : Fin 128) :
    dot_S100000x128_S128x64_S100000x64_1_0_0_1_n_n.rhsIdx (ix2 i j) (contrP.symm c) = ix2 c j := by
  funext a
  apply Fin.ext
  revert a
  exact Fin.forall_fin_two.mpr ⟨rfl, rfl⟩

/-- The projection at an entry. -/
theorem projF_apply (h : FVec Ideal S100000x128 .f32) (wp : FVec Ideal S128x64 .f32) (bp : FVec Ideal S64 .f32)
    (i : Fin 100000) (j : Fin 64) :
    projF h wp bp (ix2 i j) = (∑ k : Fin 128, h (ix2 i k) * wp (ix2 k j)) + bp (ix1 j) := by
  unfold projF
  rw [addf_apply, bcastRows_apply, bcastRow_apply, dotGeneral_host_apply]
  congr 1
  refine ((Equiv.sum_comp contrP.symm _).symm.trans ?_)
  refine Finset.sum_congr rfl fun c _ => ?_
  rw [dotP_lhsIdx, dotP_rhsIdx]

/-- The norm of each row. -/
theorem rowNorm_apply (p : FVec Ideal S100000x64 .f32) (i : Fin 100000) (z : Fin 1) :
    rowNorm p (ix2 i z) = Ideal.sqrt (∑ c : Fin 64, p (ix2 i c) * p (ix2 i c)) := by
  unfold rowNorm
  rw [hostSqrt_apply, bcastCol_apply, hostReduceAdd_apply,
    Ideal.hostReduceAdd_single _ (by decide : S100000x64.Reduces [1] S100000), constant_apply, Ideal.ofBits_zero_f32, zero_add]
  refine congrArg Ideal.sqrt (Finset.sum_congr rfl fun k _ => ?_)
  rw [mulf_apply]
  have e : (by decide : S100000x64.Reduces [1] S100000).lift (ix1 i) k = ix2 i k := by
    funext c
    apply Fin.ext
    revert c
    exact Fin.forall_fin_two.mpr ⟨rfl, rfl⟩
  rw [e]
  rfl

/-- Each row over its norm floored at the tiny constant, at an entry. -/
theorem unitRows_apply (p : FVec Ideal S100000x64 .f32) (i : Fin 100000) (j : Fin 64) :
    unitRows p (ix2 i j) = Ideal.div (p (ix2 i j)) (max (Ideal.sqrt (∑ c : Fin 64, p (ix2 i c) * p (ix2 i c))) wTiny) := by
  unfold unitRows wTiny
  rw [hostDivf_apply, bcastCols_apply, maximumf_apply, rowNorm_apply, broadcastInDim_scalar_apply, constant_apply]

/-! ### The stages over arrays indexed by plain coordinates -/

theorem lin128_cur (x : FVec Ideal S100000x128 .f32) (w : FVec Ideal S128x128 .f32) (b : FVec Ideal S128 .f32) :
    cur2 (lin128 x w b) = lin (cur2 x) (cur2 w) (cur1 b) := by
  funext i j
  exact lin128_apply x w b i j

theorem relu128_cur (x : FVec Ideal S100000x128 .f32) : cur2 (relu128 x) = fun i k => relu (cur2 x i k) := by
  funext i k
  exact relu128_apply x i k

theorem mlpF_cur (h : FVec Ideal S100000x128 .f32) (w1 : FVec Ideal S128x128 .f32) (b1 : FVec Ideal S128 .f32)
    (w2 : FVec Ideal S128x128 .f32) (b2 : FVec Ideal S128 .f32) :
    cur2 (mlpF h w1 b1 w2 b2) = mlp (cur2 h) (cur2 w1) (cur1 b1) (cur2 w2) (cur1 b2) := by
  unfold mlpF mlp
  rw [lin128_cur, relu128_cur, lin128_cur]

/-- The aggregation of a vector over index pairs is the aggregation of the array of its rows. -/
theorem AggIdx_cur (ei : IVec S2x1600000 32) (x : FVec Ideal S100000x128 .f32) :
    cur2 (AggIdx (F := Ideal) ei x) = AggOf ei (cur2 x) := by
  funext i j
  show AggIdx (F := Ideal) ei x (ix2 i j) = AggIdx (F := Ideal) ei (uncurry128 (cur2 x)) (ix2 i j)
  rw [uncurry128_cur2]

theorem preF_cur (ei : IVec S2x1600000 32) (x : FVec Ideal S100000x128 .f32) (w1 : FVec Ideal S128x128 .f32)
    (b1 : FVec Ideal S128 .f32) (w2 : FVec Ideal S128x128 .f32) (b2 : FVec Ideal S128 .f32) :
    cur2 (preF ei x w1 b1 w2 b2)
      = mlp (withNeighbours (AggOf ei) (cur2 x)) (cur2 w1) (cur1 b1) (cur2 w2) (cur1 b2) := by
  unfold preF
  rw [mlpF_cur]
  have e : cur2 (addf x (AggIdx ei x)) = withNeighbours (AggOf ei) (cur2 x) := by
    funext i j
    unfold withNeighbours
    rw [← AggIdx_cur]
    exact addf_apply x (AggIdx ei x) (ix2 i j)
  rw [e]

theorem meanF_cur (t : FVec Ideal S100000x128 .f32) : cur1 (meanF t) = colMean (cur2 t) := by
  funext j
  exact meanF_apply t j

theorem varF_cur (t : FVec Ideal S100000x128 .f32) : cur1 (varF t) = varCentered (cur2 t) := by
  funext j
  unfold varCentered colMean
  show varF t (ix1 j) = _
  rw [varF_apply]
  refine congrArg (fun s => Ideal.div s wN) (Finset.sum_congr rfl fun i _ => ?_)
  rw [devF_apply]
  rfl

theorem bnF_cur (t : FVec Ideal S100000x128 .f32) (g be : FVec Ideal S128 .f32) :
    cur2 (bnF t g be) = normRelu (cur2 t) (colMean (cur2 t)) (varCentered (cur2 t)) (cur1 g) (cur1 be) := by
  funext i j
  unfold normRelu
  show relu128 (normF t (meanF t) (varF t) g be) (ix2 i j) = _
  rw [relu128_apply, normF_apply, ← meanF_cur, ← varF_cur]
  rfl

theorem layerF_cur (ei : IVec S2x1600000 32) (x : FVec Ideal S100000x128 .f32) (w1 : FVec Ideal S128x128 .f32)
    (b1 : FVec Ideal S128 .f32) (w2 : FVec Ideal S128x128 .f32) (b2 g be : FVec Ideal S128 .f32) :
    cur2 (layerF ei x w1 b1 w2 b2 g be)
      = layerCentered (AggOf ei) (cur2 x) (cur2 w1) (cur1 b1) (cur2 w2) (cur1 b2) (cur1 g) (cur1 be) := by
  unfold layerF layerCentered
  rw [bnF_cur, preF_cur]

theorem projF_cur (h : FVec Ideal S100000x128 .f32) (wp : FVec Ideal S128x64 .f32) (bp : FVec Ideal S64 .f32) :
    cur2 (projF h wp bp) = lin (cur2 h) (cur2 wp) (cur1 bp) := by
  funext i j
  exact projF_apply h wp bp i j

theorem unitRows_cur (h : FVec Ideal S100000x128 .f32) (wp : FVec Ideal S128x64 .f32) (bp : FVec Ideal S64 .f32) :
    cur2 (unitRows (projF h wp bp)) = project (cur2 h) (cur2 wp) (cur1 bp) := by
  funext i j
  unfold project
  show unitRows (projF h wp bp) (ix2 i j) = _
  rw [unitRows_apply, ← projF_cur]
  rfl

/-- The reference's result, read at a row and a column, is the specification's function of the arguments (the
    variance as the mean squared deviation). -/
theorem refResult_eq_spec (a0 : FVec Ideal S100000x128 .f32) (a1 : IVec S2x1600000 32)
    (a2 : FVec Ideal S128x128 .f32) (a3 : FVec Ideal S128 .f32) (a4 : FVec Ideal S128x128 .f32) (a5 a6 a7 : FVec Ideal S128 .f32)
    (a8 : FVec Ideal S128x128 .f32) (a9 : FVec Ideal S128 .f32) (a10 : FVec Ideal S128x128 .f32) (a11 a12 a13 : FVec Ideal S128 .f32)
    (a14 : FVec Ideal S128x64 .f32) (a15 : FVec Ideal S64 .f32) (i : Fin 100000) (j : Fin 64) :
    refResult a0 a1 a2 a3 a4 a5 a6 a7 a8 a9 a10 a11 a12 a13 a14 a15 (ix2 i j)
      = referenceForm (AggOf a1) (cur2 a0) (cur2 a2) (cur1 a3) (cur2 a4) (cur1 a5) (cur1 a6) (cur1 a7)
          (cur2 a8) (cur1 a9) (cur2 a10) (cur1 a11) (cur1 a12) (cur1 a13) (cur2 a14) (cur1 a15) i j := by
  unfold refResult referenceForm
  show cur2 (unitRows (projF _ a14 a15)) i j = _
  rw [unitRows_cur, layerF_cur, layerF_cur]

end Cert.ReferenceIdeal.Hand

end
-- ==== Proof.LibBatchMoments.lean ====
/-
  Batch moments. For a finite family of reals `f` over `n` indices (`n > 0`), with `S = ∑ f` and `Q = ∑ f²`,

      Q / n − (S / n)²  =  (∑ (f − S / n)²) / n   ≥ 0,

  the biased variance written from the first two raw moments against the mean of the squared deviations. The same
  law on the extended reals for a family whose entries are all real, with the quotient taken as the exact
  division `Ideal.div` by the real `n`: there the left side floored at zero (`max · 0`) is still the right side,
  because the right side is a nonnegative real. This is what joins a normalisation that accumulates a running sum
  and a running sum of squares to one that subtracts the mean first (a batch normalisation against `jnp.var`).
  Also here: the coercion of the reals into the extended reals commutes with finite sums.
-/
import Idealize.ShloMosaic.PureOps.Ideal

noncomputable section

namespace Cert.LibBatchMoments

open Idealize.ShloMosaic

variable {ι : Type*}

/-- The coercion `ℝ → EReal` commutes with a finite sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of squared deviations from any centre `μ`, expanded: `∑ (f − μ)² = ∑ f² − 2 μ ∑ f + n μ²`. -/
theorem sum_sq_dev (s : Finset ι) (f : ι → ℝ) (μ : ℝ) :
    ∑ i ∈ s, (f i - μ) * (f i - μ) = (∑ i ∈ s, f i * f i) - 2 * μ * (∑ i ∈ s, f i) + (s.card : ℝ) * (μ * μ) := by
  have h : ∀ i, (f i - μ) * (f i - μ) = f i * f i - 2 * μ * f i + μ * μ := fun i => by ring
  simp only [h, Finset.sum_add_distrib, Finset.sum_sub_distrib, ← Finset.mul_sum, Finset.sum_const, nsmul_eq_mul]
  ring

/-- The biased variance from the raw moments: `Q / n − (S / n)² = (∑ (f − S / n)²) / n` for `n` indices, `n ≠ 0`. -/
theorem raw_moments_eq_centered (s : Finset ι) (f : ι → ℝ) (n : ℝ) (hcard : (s.card : ℝ) = n) (hn : n ≠ 0) :
    (∑ i ∈ s, f i * f i) / n - (∑ i ∈ s, f i) / n * ((∑ i ∈ s, f i) / n)
      = (∑ i ∈ s, (f i - (∑ j ∈ s, f j) / n) * (f i - (∑ j ∈ s, f j) / n)) / n := by
  rw [sum_sq_dev, hcard]
  field_simp
  ring

/-- The mean of squared deviations is nonnegative. -/
theorem centered_nonneg (s : Finset ι) (f : ι → ℝ) (μ n : ℝ) (hn : 0 < n) :
    0 ≤ (∑ i ∈ s, (f i - μ) * (f i - μ)) / n :=
  div_nonneg (Finset.sum_nonneg fun i _ => mul_self_nonneg _) hn.le

/-- The exact quotient of a real by a nonzero real, on the extended reals, is the real quotient. -/
theorem div_coe_coe (a : ℝ) {n : ℝ} (hn : n ≠ 0) : Ideal.div (a : EReal) (n : EReal) = ((a / n : ℝ) : EReal) := by
  rw [Ideal.div_coe hn, ← EReal.coe_mul, div_eq_mul_one_div a n]

/-- On the extended reals, for a family with real entries over `n > 0` indices: the raw-moment form of the variance,
    floored at zero, is the mean of the squared deviations from the mean. -/
theorem floored_raw_moments_eq_centered (s : Finset ι) (x : ι → EReal) (hx : ∀ i ∈ s, ∃ r : ℝ, x i = (r : EReal))
    (n : ℝ) (hcard : (s.card : ℝ) = n) (hn : 0 < n) :
    max (Ideal.div (∑ i ∈ s, x i * x i) (n : EReal)
          - Ideal.div (∑ i ∈ s, x i) (n : EReal) * Ideal.div (∑ i ∈ s, x i) (n : EReal)) 0
      = Ideal.div (∑ i ∈ s, (x i - Ideal.div (∑ j ∈ s, x j) (n : EReal)) * (x i - Ideal.div (∑ j ∈ s, x j) (n : EReal)))
          (n : EReal) := by
  have hn0 : n ≠ 0 := hn.ne'
  -- real representatives of the entries
  have hf : ∀ i ∈ s, x i = (((x i).toReal : ℝ) : EReal) := fun i hi => by
    obtain ⟨r, hr⟩ := hx i hi; rw [hr, EReal.toReal_coe]
  set f : ι → ℝ := fun i => (x i).toReal with hfdef
  have hS : ∑ i ∈ s, x i = ((∑ i ∈ s, f i : ℝ) : EReal) := by
    rw [coe_sum]; exact Finset.sum_congr rfl fun i hi => hf i hi
  have hQ : ∑ i ∈ s, x i * x i = ((∑ i ∈ s, f i * f i : ℝ) : EReal) := by
    rw [coe_sum]; exact Finset.sum_congr rfl fun i hi => by rw [EReal.coe_mul, ← hf i hi]
  have hμ : Ideal.div (∑ i ∈ s, x i) (n : EReal) = (((∑ i ∈ s, f i) / n : ℝ) : EReal) := by
    rw [hS, div_coe_coe _ hn0]
  have hC : ∑ i ∈ s, (x i - Ideal.div (∑ j ∈ s, x j) (n : EReal)) * (x i - Ideal.div (∑ j ∈ s, x j) (n : EReal))
      = ((∑ i ∈ s, (f i - (∑ j ∈ s, f j) / n) * (f i - (∑ j ∈ s, f j) / n) : ℝ) : EReal) := by
    rw [coe_sum, hμ]
    exact Finset.sum_congr rfl fun i hi => by rw [EReal.coe_mul, EReal.coe_sub, ← hf i hi]
  rw [hC, hμ, hQ, div_coe_coe _ hn0, div_coe_coe _ hn0, ← EReal.coe_mul, ← EReal.coe_sub,
    raw_moments_eq_centered s f n hcard hn0]
  exact max_eq_left (by exact_mod_cast centered_nonneg s f _ n hn)

end Cert.LibBatchMoments

end
-- ==== Proof.Bridge.lean ====
/-
  The two forms of the specification agree on real inputs.

  `kernelForm` and `referenceForm` differ only in how a layer's variance is written: from the raw moments,
  max(Q/n − (S/n)², 0), or as the mean of the squared deviations. For a column of REAL entries over the
  n = 100000 rows these are the same number (the batch-moment identity), so a layer is the same function on real
  inputs. What remains is to see that every array the variance is taken of has real entries: the perceptron keeps
  entries real (finite sums of products of reals, a maximum with zero); the column mean of real entries is real; the
  mean of squared deviations is a nonnegative real, so adding the positive real ε gives a positive real whose
  reciprocal square root is real; hence a layer's output is real, which is what the second layer needs of the
  first. The projection is applied to the same array on both sides.
-/
import proofs.«143586_j39599598469629_2_alg».proof.Proof.Spec
import proofs.«143586_j39599598469629_2_alg».proof.Proof.LibBatchMoments
import proofs.«143586_j39599598469629_2_alg».proof.Proof.LibRealEntries

noncomputable section

namespace Cert.Bridge

open Idealize.ShloMosaic Cert.Spec Cert.LibRealEntries Cert.LibBatchMoments

/-! ### The two constants -/

/-- The row count: sign 0, exponent 143, fraction 4411392, that is (2²³ + 4411392) · 2⁻⁷ = 100000. -/
theorem wN_eq : wN = ((100000 : ℝ) : EReal) := by
  simp [wN, Ideal.ofBits, Ideal.ieee, -EReal.coe_mul]; norm_num

/-- The ε: sign 0, exponent 110, fraction 2606508, that is (2²³ + 2606508) · 2⁻⁴⁰ = 10995116 · 2⁻⁴⁰. -/
theorem wEps_eq : wEps = ((10995116 * (2 : ℝ) ^ (-40 : Int) : ℝ) : EReal) := by
  simp [wEps, Ideal.ofBits, Ideal.ieee, -EReal.coe_mul]

/-- The ε is a positive real. -/
theorem wEps_pos_real : ∃ e : ℝ, 0 < e ∧ wEps = (e : EReal) :=
  ⟨10995116 * (2 : ℝ) ^ (-40 : Int), by positivity, wEps_eq⟩

/-! ### Real entries through a layer -/

/-- A linear layer of real entries, weights and biases has real entries. -/
theorem isReal_lin {p q : ℕ} (a : Arr p) (w : Fin p → Fin q → EReal) (b : Fin q → EReal)
    (ha : ∀ i k, IsReal (a i k)) (hw : ∀ k j, IsReal (w k j)) (hb : ∀ j, IsReal (b j)) (i : Fin 100000) (j : Fin q) :
    IsReal (lin a w b i j) :=
  (isReal_sum _ _ fun k _ => (ha i k).mul (hw k j)).add (hb j)

/-- The rectification of a real is real. -/
theorem isReal_relu {v : EReal} (h : IsReal v) : IsReal (relu v) := h.max isReal_zero

/-- The perceptron of real entries, weights and biases has real entries. -/
theorem isReal_mlp (a : Arr 128) (w1 : Fin 128 → Fin 128 → EReal) (b1 : Fin 128 → EReal) (w2 : Fin 128 → Fin 128 → EReal)
    (b2 : Fin 128 → EReal) (ha : ∀ i k, IsReal (a i k)) (hw1 : ∀ k j, IsReal (w1 k j)) (hb1 : ∀ j, IsReal (b1 j))
    (hw2 : ∀ k j, IsReal (w2 k j)) (hb2 : ∀ j, IsReal (b2 j)) (i : Fin 100000) (j : Fin 128) :
    IsReal (mlp a w1 b1 w2 b2 i j) :=
  isReal_lin _ w2 b2 (fun i k => isReal_relu (isReal_lin a w1 b1 ha hw1 hb1 i k)) hw2 hb2 i j

/-- The column mean of real entries is real. -/
theorem isReal_colMean (t : Arr 128) (ht : ∀ i j, IsReal (t i j)) (j : Fin 128) : IsReal (colMean t j) := by
  unfold colMean
  rw [wN_eq]
  exact (isReal_sum _ _ fun i _ => ht i j).div_coe (by norm_num)

/-- For real entries the variance from the raw moments, floored at zero, is the mean of the squared deviations. -/
theorem varRaw_eq_varCentered (t : Arr 128) (ht : ∀ i j, IsReal (t i j)) : varRaw t = varCentered t := by
  funext j
  unfold varRaw varCentered colMean
  rw [wN_eq]
  exact floored_raw_moments_eq_centered Finset.univ (fun i => t i j) (fun i _ => ht i j) 100000 (by simp) (by norm_num)

/-- For real entries the mean of the squared deviations is a nonnegative real. -/
theorem varCentered_nonneg_real (t : Arr 128) (ht : ∀ i j, IsReal (t i j)) (j : Fin 128) :
    ∃ r : ℝ, 0 ≤ r ∧ varCentered t j = (r : EReal) := by
  obtain ⟨m, hm⟩ := isReal_colMean t ht j
  have hf : ∀ i, t i j = (((t i j).toReal : ℝ) : EReal) := fun i => (ht i j).eq_coe_toReal
  have hsum : ∑ i, (t i j - colMean t j) * (t i j - colMean t j)
      = ((∑ i, ((t i j).toReal - m) * ((t i j).toReal - m) : ℝ) : EReal) := by
    rw [coe_sum, hm]
    exact Finset.sum_congr rfl fun i _ => by rw [EReal.coe_mul, EReal.coe_sub, ← hf i]
  refine ⟨(∑ i, ((t i j).toReal - m) * ((t i j).toReal - m)) / 100000,
    centered_nonneg _ _ _ _ (by norm_num), ?_⟩
  unfold varCentered
  rw [hsum, wN_eq, div_coe_coe _ (by norm_num)]

/-- Normalising real entries with a real mean, a nonnegative real variance and real scale and shift gives real
    entries: the variance plus ε is a positive real, so its reciprocal square root is real. -/
theorem isReal_normRelu (t : Arr 128) (mean var g be : Fin 128 → EReal) (ht : ∀ i j, IsReal (t i j))
    (hmean : ∀ j, IsReal (mean j)) (hvar : ∀ j, ∃ r : ℝ, 0 ≤ r ∧ var j = (r : EReal))
    (hg : ∀ j, IsReal (g j)) (hbe : ∀ j, IsReal (be j)) (i : Fin 100000) (j : Fin 128) :
    IsReal (normRelu t mean var g be i j) := by
  obtain ⟨r, hr, hv⟩ := hvar j
  obtain ⟨e, he, hwe⟩ := wEps_pos_real
  have hrs : IsReal (Ideal.rsqrt (var j + wEps)) := by
    rw [hv, hwe, ← EReal.coe_add]
    exact isReal_rsqrt (by positivity)
  unfold normRelu
  exact isReal_relu (((((ht i j).sub (hmean j)).mul hrs).mul (hg j)).add (hbe j))

/-- A row plus the sum of its neighbours' rows is real when both are. -/
theorem isReal_withNeighbours (Agg : Arr 128 → Arr 128)
    (hAgg : ∀ a : Arr 128, (∀ i j, IsReal (a i j)) → ∀ i j, IsReal (Agg a i j))
    (x : Arr 128) (hx : ∀ i j, IsReal (x i j)) (i : Fin 100000) (j : Fin 128) : IsReal (withNeighbours Agg x i j) :=
  (hx i j).add (hAgg x hx i j)

/-- On real inputs a layer is the same with either form of the variance. -/
theorem layerRaw_eq_layerCentered (Agg : Arr 128 → Arr 128)
    (hAgg : ∀ a : Arr 128, (∀ i j, IsReal (a i j)) → ∀ i j, IsReal (Agg a i j))
    (x : Arr 128) (w1 : Fin 128 → Fin 128 → EReal) (b1 : Fin 128 → EReal) (w2 : Fin 128 → Fin 128 → EReal)
    (b2 g be : Fin 128 → EReal) (hx : ∀ i j, IsReal (x i j)) (hw1 : ∀ k j, IsReal (w1 k j)) (hb1 : ∀ j, IsReal (b1 j))
    (hw2 : ∀ k j, IsReal (w2 k j)) (hb2 : ∀ j, IsReal (b2 j)) :
    layerRaw Agg x w1 b1 w2 b2 g be = layerCentered Agg x w1 b1 w2 b2 g be := by
  unfold layerRaw layerCentered
  rw [varRaw_eq_varCentered _ (isReal_mlp _ w1 b1 w2 b2 (isReal_withNeighbours Agg hAgg x hx) hw1 hb1 hw2 hb2)]

/-- On real inputs, weights, biases, scale and shift a layer's output has real entries. -/
theorem isReal_layerCentered (Agg : Arr 128 → Arr 128)
    (hAgg : ∀ a : Arr 128, (∀ i j, IsReal (a i j)) → ∀ i j, IsReal (Agg a i j))
    (x : Arr 128) (w1 : Fin 128 → Fin 128 → EReal) (b1 : Fin 128 → EReal) (w2 : Fin 128 → Fin 128 → EReal)
    (b2 g be : Fin 128 → EReal) (hx : ∀ i j, IsReal (x i j)) (hw1 : ∀ k j, IsReal (w1 k j)) (hb1 : ∀ j, IsReal (b1 j))
    (hw2 : ∀ k j, IsReal (w2 k j)) (hb2 : ∀ j, IsReal (b2 j)) (hg : ∀ j, IsReal (g j)) (hbe : ∀ j, IsReal (be j))
    (i : Fin 100000) (j : Fin 128) : IsReal (layerCentered Agg x w1 b1 w2 b2 g be i j) := by
  have ht := isReal_mlp _ w1 b1 w2 b2 (isReal_withNeighbours Agg hAgg x hx) hw1 hb1 hw2 hb2
  unfold layerCentered
  exact isReal_normRelu _ _ _ g be ht (isReal_colMean _ ht) (varCentered_nonneg_real _ ht) hg hbe i j

/-! ### The two forms agree -/

open Cert.Spec Cert.LibRealEntries in
/-- On real inputs and parameters the function with the raw-moment variance is the function with the
    squared-deviation variance. -/
theorem kernelForm_eq_referenceForm (Agg : Arr 128 → Arr 128)
    (hAgg : ∀ a : Arr 128, (∀ i j, IsReal (a i j)) → ∀ i j, IsReal (Agg a i j))
    (x : Arr 128) (w1_0 : Fin 128 → Fin 128 → EReal) (b1_0 : Fin 128 → EReal) (w2_0 : Fin 128 → Fin 128 → EReal) (b2_0 g0 be0 : Fin 128 → EReal)
    (w1_1 : Fin 128 → Fin 128 → EReal) (b1_1 : Fin 128 → EReal) (w2_1 : Fin 128 → Fin 128 → EReal) (b2_1 g1 be1 : Fin 128 → EReal)
    (wp : Fin 128 → Fin 64 → EReal) (bp : Fin 64 → EReal)
    (hx : ∀ i j, IsReal (x i j)) (hw1_0 : ∀ k j, IsReal (w1_0 k j)) (hb1_0 : ∀ j, IsReal (b1_0 j)) (hw2_0 : ∀ k j, IsReal (w2_0 k j)) (hb2_0 : ∀ j, IsReal (b2_0 j)) (hg0 : ∀ j, IsReal (g0 j)) (hbe0 : ∀ j, IsReal (be0 j))
    (hw1_1 : ∀ k j, IsReal (w1_1 k j)) (hb1_1 : ∀ j, IsReal (b1_1 j)) (hw2_1 : ∀ k j, IsReal (w2_1 k j)) (hb2_1 : ∀ j, IsReal (b2_1 j)) (hg1 : ∀ j, IsReal (g1 j)) (hbe1 : ∀ j, IsReal (be1 j)) :
    kernelForm Agg x w1_0 b1_0 w2_0 b2_0 g0 be0 w1_1 b1_1 w2_1 b2_1 g1 be1 wp bp
      = referenceForm Agg x w1_0 b1_0 w2_0 b2_0 g0 be0 w1_1 b1_1 w2_1 b2_1 g1 be1 wp bp := by
  -- the first layer agrees and its output is real
  have h0 : layerRaw Agg x w1_0 b1_0 w2_0 b2_0 g0 be0 = layerCentered Agg x w1_0 b1_0 w2_0 b2_0 g0 be0 :=
    layerRaw_eq_layerCentered Agg hAgg x w1_0 b1_0 w2_0 b2_0 g0 be0 hx hw1_0 hb1_0 hw2_0 hb2_0
  have hr0 : ∀ i j, IsReal (layerCentered Agg x w1_0 b1_0 w2_0 b2_0 g0 be0 i j) :=
    isReal_layerCentered Agg hAgg x w1_0 b1_0 w2_0 b2_0 g0 be0 hx hw1_0 hb1_0 hw2_0 hb2_0 hg0 hbe0
  -- so the second layer agrees on it
  have h1 : layerRaw Agg (layerCentered Agg x w1_0 b1_0 w2_0 b2_0 g0 be0) w1_1 b1_1 w2_1 b2_1 g1 be1
      = layerCentered Agg (layerCentered Agg x w1_0 b1_0 w2_0 b2_0 g0 be0) w1_1 b1_1 w2_1 b2_1 g1 be1 :=
    layerRaw_eq_layerCentered Agg hAgg _ w1_1 b1_1 w2_1 b2_1 g1 be1 hr0 hw1_1 hb1_1 hw2_1 hb2_1
  unfold kernelForm referenceForm
  rw [h0, h1]

end Cert.Bridge

end
-- ==== Proof.Finite.lean ====
/-
  Finite inputs are real. The precondition computes, for each of the fifteen float arguments, whether every entry has
  absolute value below +∞, and says all fifteen answers are true. An extended real whose absolute value max(v, −v) is
  below +∞ is neither infinity, so it is a real number. Hence every entry of every float argument is real.
-/
import proofs.«143586_j39599598469629_2_alg».proof.Defs
import proofs.«143586_j39599598469629_2_alg».proof.Proof.LibRealEntries
import Idealize.ShloMosaic.Lib.ReduceAll
import Idealize.ShloMosaic.Lib.IdealHost
import Idealize.ShloMosaic.PureOps.Ideal.Laws

set_option maxRecDepth 16384

noncomputable section

namespace Cert.Finite

open Idealize.ShloMosaic Idealize.ShloMosaic.ValueIdx Idealize.SL.Sem Cert.LibRealEntries

/-- The shape with no axes has one index. -/
instance : Subsingleton (⟨0, ![]⟩ : Shape).Idx := ⟨fun a b => funext fun d => d.elim0⟩

/-- The word 0x7F800000 is +∞: sign 0, exponent all ones, fraction 0. -/
theorem ofBits_inf : Ideal.ofBits .f32 0x7F800000#32 = ⊤ := by simp [Ideal.ofBits, Ideal.ieee]

/-- An extended real whose absolute value is below +∞ is a real number. -/
theorem isReal_of_abs_lt_top (v : EReal) (h : max v (-v) < ⊤) : IsReal v := by
  rw [isReal_iff]
  refine ⟨?_, ?_⟩
  · rintro rfl; simp at h
  · rintro rfl; simp at h

/-- One array's test: if "every |entry| < +∞" came out true, every entry is real. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr h0 ix0 = 1#1) (i : s.Idx) : IsReal (x i) := by
  have h := Host.reduce_andi_all _ _ hr h0 ix0 e i
  rw [cmpf_apply, broadcastInDim_scalar_apply, constant_apply, ofBits_inf] at h
  have h' : BitVec.ofBool (decide (max (x i) (-(x i)) < ⊤)) = 1#1 := h
  apply isReal_of_abs_lt_top
  cases hd : decide (max (x i) (-(x i)) < ⊤)
  · rw [hd] at h'; exact absurd h' (by decide)
  · exact of_decide_eq_true hd

open Cert.Pre_finite_inputs in
/-- Over any fifteen float arrays (and the integer one, which is not tested): if the precondition's function is all
    ones, every entry of every float array is real. -/
theorem real_of_fn [Cert.Pre_finite_inputs.Facts] (a0 : FVec Ideal S100000x128 .f32) (a1 : IVec S2x1600000 32) (a2 : FVec Ideal S128x128 .f32) (a3 : FVec Ideal S128 .f32) (a4 : FVec Ideal S128x128 .f32) (a5 : FVec Ideal S128 .f32) (a6 : FVec Ideal S128 .f32) (a7 : FVec Ideal S128 .f32) (a8 : FVec Ideal S128x128 .f32) (a9 : FVec Ideal S128 .f32) (a10 : FVec Ideal S128x128 .f32) (a11 : FVec Ideal S128 .f32) (a12 : FVec Ideal S128 .f32) (a13 : FVec Ideal S128 .f32) (a14 : FVec Ideal S128x64 .f32) (a15 : FVec Ideal S64 .f32)
    (h : Cert.Pre_finite_inputs.fn (F := Ideal) a0 a1 a2 a3 a4 a5 a6 a7 a8 a9 a10 a11 a12 a13 a14 a15 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨r0, r2⟩, r3⟩, r4⟩, r5⟩, r6⟩, r7⟩, r8⟩, r9⟩, r10⟩, r11⟩, r12⟩, r13⟩, r14⟩, r15⟩ := e
  exact ⟨fun i => real_of_all a0 _ _ _ r0 i,
    fun i => real_of_all a2 _ _ _ r2 i,
    fun i => real_of_all a3 _ _ _ r3 i,
    fun i => real_of_all a4 _ _ _ r4 i,
    fun i => real_of_all a5 _ _ _ r5 i,
    fun i => real_of_all a6 _ _ _ r6 i,
    fun i => real_of_all a7 _ _ _ r7 i,
    fun i => real_of_all a8 _ _ _ r8 i,
    fun i => real_of_all a9 _ _ _ r9 i,
    fun i => real_of_all a10 _ _ _ r10 i,
    fun i => real_of_all a11 _ _ _ r11 i,
    fun i => real_of_all a12 _ _ _ r12 i,
    fun i => real_of_all a13 _ _ _ r13 i,
    fun i => real_of_all a14 _ _ _ r14 i,
    fun i => real_of_all a15 _ _ _ r15 i⟩

/-- Under the precondition every entry of each of the fifteen float argument arrays, on every core, is real. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i)) :=
  real_of_fn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (h c)

end Cert.Finite

end
-- ==== Proof.lean ====
/-
  The certificate's five claims.

  The three frames: each program runs to the end, faults nowhere and leaves its sixteen argument arrays unchanged. For
  the two kernel programs this is the run of the program cut into its eight segments — four stretches of host
  operations and four kernel regions — with every unscoped buffer held at named contents between segments; for the
  reference it is its run as a sequence of host operations.

  The idealization rewrote nothing, so there is nothing to preserve.

  The algebraic claim: at the extended reals the kernel program's result is the specification's form with the variance
  taken from the running sums, max(Q/n − (S/n)², 0), and the reference's the form with the mean squared deviation; on
  finite inputs every intermediate entry is a real number, where the two variances agree, so the results agree.
-/
import proofs.«143586_j39599598469629_2_alg».proof.Defs
import proofs.«143586_j39599598469629_2_alg».proof.Proof.Gen.Kernel
import proofs.«143586_j39599598469629_2_alg».proof.Proof.Gen.KernelIdeal
import proofs.«143586_j39599598469629_2_alg».proof.Proof.Gen.ReferenceIdeal
import proofs.«143586_j39599598469629_2_alg».proof.Proof.Gen.Pre_finite_inputs
import proofs.«143586_j39599598469629_2_alg».proof.Proof.K.Kept
import proofs.«143586_j39599598469629_2_alg».proof.Proof.KI.Kept
import proofs.«143586_j39599598469629_2_alg».proof.Proof.KI.Total
import proofs.«143586_j39599598469629_2_alg».proof.Proof.Ref.Run
import proofs.«143586_j39599598469629_2_alg».proof.Proof.Ref.Read
import proofs.«143586_j39599598469629_2_alg».proof.Proof.Bridge
import proofs.«143586_j39599598469629_2_alg».proof.Proof.Finite

noncomputable section

namespace Cert.Proof

open Idealize.ShloMosaic Idealize.ShloMosaic.TcCoe Idealize.ShloMosaic.ValueIdx Idealize.SL.Sem
open Cert.LibRealEntries (IsReal)
open Cert.ReferenceIdeal.Hand (AggOf AggOf_real cur1 cur2 refResult refResult_eq_spec)

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

open Cert.KernelIdeal Cert.KernelIdeal.Hand in
/-- On finite inputs the reference's result, from arguments agreeing with the kernel program's, is the kernel
    program's result buffer at the last boundary. -/
theorem results_agree (m : (ℓ : Loc nD τ sig) → Buf (Elt Ideal) ℓ) (ρ : Dev nD → PrngReg) (hpre : Cert.Pre_KernelIdeal m) (c : Dev nD) :
    refResult (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      = W8 m ρ c main_v63 := by
  obtain ⟨h0, h2, h3, h4, h5, h6, h7, h8, h9, h10, h11, h12, h13, h14, h15⟩ := Cert.Finite.real_of_pre m hpre c
  funext idx
  obtain ⟨p, j, rfl⟩ : ∃ (p : Fin 100000) (j : Fin 64), idx = ix2 p j := ⟨idx 0, idx 1, eq_ix2 idx⟩
  rw [refResult_eq_spec]
  refine Eq.trans ?_ (kernel_value m ρ c p j).symm
  exact (congrFun (congrFun (Cert.Bridge.kernelForm_eq_referenceForm (AggOf _) (fun a ha => AggOf_real _ a ha) _ _ _ _ _ _ _ _ _ _ _ _ _ _ _
    (fun i j => h0 (ix2 i j)) (fun i j => h2 (ix2 i j)) (fun j => h3 (ix1 j)) (fun i j => h4 (ix2 i j)) (fun j => h5 (ix1 j)) (fun j => h6 (ix1 j)) (fun j => h7 (ix1 j))
    (fun i j => h8 (ix2 i j)) (fun j => h9 (ix1 j)) (fun i j => h10 (ix2 i j)) (fun j => h11 (ix1 j)) (fun j => h12 (ix1 j)) (fun j => h13 (ix1 j))) p) j).symm

open Cert.KernelIdeal Cert.KernelIdeal.Hand in
theorem algebraic : Cert.algebraic_KernelIdeal_ReferenceIdeal := by
  intro m ρ m' ρ' hpre hagree
  refine ⟨fun c => W8 m ρ c main_v63, ?_, ?_⟩
  · exact (θ_run Cert.KernelIdeal.defs _ _).mono (fun r h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)
      (run_all m ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]
    exact results_agree m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
